-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8 : Shape := ⟨2, ![256, 8]⟩
abbrev S50257x128 : Shape := ⟨2, ![50257, 128]⟩
abbrev S256x640 : Shape := ⟨2, ![256, 640]⟩
abbrev S256 : Shape := ⟨1, ![256]⟩
abbrev S50257x256 : Shape := ⟨2, ![50257, 256]⟩
abbrev S50257 : Shape := ⟨1, ![50257]⟩
abbrev S_ : Shape := ⟨0, ![]⟩

class Facts : Prop where
  bcast_S_S50257x128 : S_.BroadcastsInDim S50257x128 (![] : Fin 0 → Fin S50257x128.rank)
  reducesTo_S50257x128_S_d0_1 : S50257x128.ReducesTo [0, 1] S_
  h_S_ : 0 < S_.numel
  bcast_S_S256x640 : S_.BroadcastsInDim S256x640 (![] : Fin 0 → Fin S256x640.rank)
  reducesTo_S256x640_S_d0_1 : S256x640.ReducesTo [0, 1] S_
  bcast_S_S256 : S_.BroadcastsInDim S256 (![] : Fin 0 → Fin S256.rank)
  reducesTo_S256_S_d0 : S256.ReducesTo [0] S_
  bcast_S_S50257x256 : S_.BroadcastsInDim S50257x256 (![] : Fin 0 → Fin S50257x256.rank)
  reducesTo_S50257x256_S_d0_1 : S50257x256.ReducesTo [0, 1] S_
  bcast_S_S50257 : S_.BroadcastsInDim S50257 (![] : Fin 0 → Fin S50257.rank)
  reducesTo_S50257_S_d0 : S50257.ReducesTo [0] S_

variable [Facts]

def fn_part1 {F : FTy → Type} [FloatOps F] (main_arg5 : FVec F S50257 .f32) (main_v13 : IVec S_ 1) (main_v16 : IVec S50257x256 1) : IVec S_ 1 :=
  let main_c_5 : IVec S_ 1 := constantI S_ 1 1#1
  let main_v17 : IVec S_ 1 := (fun x v => Host.reduce IntOp.andi x v reducesTo_S50257x256_S_d0_1 h_S_) main_v16 main_c_5
  let main_v18 : IVec S_ 1 := andi main_v13 main_v17
  let main_v19 : FVec F S50257 .f32 := Host.absf main_arg5
  let main_cst_6 : FVec F S_ .f32 := constant S_ .f32 0x7F800000#32
  let main_v20 : FVec F S50257 .f32 := broadcastInDim S50257 ![] bcast_S_S50257 main_cst_6
  let main_v21 : IVec S50257 1 := cmpf .olt main_v19 main_v20
  let main_c_7 : IVec S_ 1 := constantI S_ 1 1#1
  let main_v22 : IVec S_ 1 := (fun x v => Host.reduce IntOp.andi x v reducesTo_S50257_S_d0 h_S_) main_v21 main_c_7
  let main_v23 : IVec S_ 1 := andi main_v18 main_v22
  main_v23

def fn {F : FTy → Type} [FloatOps F] (main_arg0 : IVec S256x8 32) (main_arg1 : FVec F S50257x128 .f32) (main_arg2 : FVec F S256x640 .f32) (main_arg3 : FVec F S256 .f32) (main_arg4 : FVec F S50257x256 .f32) (main_arg5 : FVec F S50257 .f32) : IVec S_ 1 :=
  let main_v0 : FVec F S50257x128 .f32 := Host.absf main_arg1
  let main_cst : FVec F S_ .f32 := constant S_ .f32 0x7F800000#32
  let main_v1 : FVec F S50257x128 .f32 := broadcastInDim S50257x128 ![] bcast_S_S50257x128 main_cst
  let main_v2 : IVec S50257x128 1 := cmpf .olt main_v0 main_v1
  let main_c : IVec S_ 1 := constantI S_ 1 1#1
  let main_v3 : IVec S_ 1 := (fun x v => Host.reduce IntOp.andi x v reducesTo_S50257x128_S_d0_1 h_S_) main_v2 main_c
  let main_v4 : FVec F S256x640 .f32 := Host.absf main_arg2
  let main_cst_0 : FVec F S_ .f32 := constant S_ .f32 0x7F800000#32
  let main_v5 : FVec F S256x640 .f32 := broadcastInDim S256x640 ![] bcast_S_S256x640 main_cst_0
  let main_v6 : IVec S256x640 1 := cmpf .olt main_v4 main_v5
  let main_c_1 : IVec S_ 1 := constantI S_ 1 1#1
  let main_v7 : IVec S_ 1 := (fun x v => Host.reduce IntOp.andi x v reducesTo_S256x640_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S50257x256 .f32 := Host.absf main_arg4
  let main_cst_4 : FVec F S_ .f32 := constant S_ .f32 0x7F800000#32
  let main_v15 : FVec F S50257x256 .f32 := broadcastInDim S50257x256 ![] bcast_S_S50257x256 main_cst_4
  let main_v16 : IVec S50257x256 1 := cmpf .olt main_v14 main_v15
  fn_part1 (F := F) main_arg5 main_v13 main_v16
-- ==== Kernel.lean ====
abbrev S256x8 : Shape := ⟨2, ![256, 8]⟩
abbrev S50257x128 : Shape := ⟨2, ![50257, 128]⟩
abbrev S256x640 : Shape := ⟨2, ![256, 640]⟩
abbrev S256 : Shape := ⟨1, ![256]⟩
abbrev S50257x256 : Shape := ⟨2, ![50257, 256]⟩
abbrev S50257 : Shape := ⟨1, ![50257]⟩
abbrev S_ : Shape := ⟨0, ![]⟩
abbrev S256x8x1 : Shape := ⟨3, ![256, 8, 1]⟩
abbrev S256x8x128 : Shape := ⟨3, ![256, 8, 128]⟩
abbrev S252 : Shape := ⟨1, ![252]⟩
abbrev S252x1 : Shape := ⟨2, ![252, 1]⟩
abbrev S5 : Shape := ⟨1, ![5]⟩
abbrev S1x5 : Shape := ⟨2, ![1, 5]⟩
abbrev S252x5 : Shape := ⟨2, ![252, 5]⟩
abbrev S252x5x1 : Shape := ⟨3, ![252, 5, 1]⟩
abbrev S252x5x8x128 : Shape := ⟨4, ![252, 5, 8, 128]⟩
abbrev S252x8x5x128 : Shape := ⟨4, ![252, 8, 5, 128]⟩
abbrev S2016x640 : Shape := ⟨2, ![2016, 640]⟩
abbrev S640x256 : Shape := ⟨2, ![640, 256]⟩
abbrev S2016x256 : Shape := ⟨2, ![2016, 256]⟩
abbrev S1x256 : Shape := ⟨2, ![1, 256]⟩
abbrev S256x50257 : Shape := ⟨2, ![256, 50257]⟩
abbrev S256x53248 : Shape := ⟨2, ![256, 53248]⟩
abbrev S53248 : Shape := ⟨1, ![53248]⟩
abbrev S2016x1 : Shape := ⟨2, ![2016, 1]⟩
abbrev S1008x256 : Shape := ⟨2, ![1008, 256]⟩
abbrev S256x4096 : Shape := ⟨2, ![256, 4096]⟩
abbrev S4096 : Shape := ⟨1, ![4096]⟩
abbrev S1008x1 : Shape := ⟨2, ![1008, 1]⟩
abbrev S1008x4096 : Shape := ⟨2, ![1008, 4096]⟩
abbrev S1x4096 : Shape := ⟨2, ![1, 4096]⟩
abbrev S1008 : Shape := ⟨1, ![1008]⟩
abbrev S2016x50257 : Shape := ⟨2, ![2016, 50257]⟩

abbrev nBuf : Space → Nat
  | .hbm => 50
  | .vmem => 19
  | .smem => 0
  | _ => 0

abbrev bufTy : (tb : Table) → Fin (tcTables nBuf tb) → BufTy
  | .hbm, ⟨0, _⟩ => ⟨S256x8, .i32⟩
  | .hbm, ⟨1, _⟩ => ⟨S50257x128, .f32⟩
  | .hbm, ⟨2, _⟩ => ⟨S256x640, .f32⟩
  | .hbm, ⟨3, _⟩ => ⟨S256, .f32⟩
  | .hbm, ⟨4, _⟩ => ⟨S50257x256, .f32⟩
  | .hbm, ⟨5, _⟩ => ⟨S50257, .f32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S256x8x128, .f32⟩
  | .hbm, ⟨15, _⟩ => ⟨S252, .i32⟩
  | .hbm, ⟨16, _⟩ => ⟨S252x1, .i32⟩
  | .hbm, ⟨17, _⟩ => ⟨S5, .i32⟩
  | .hbm, ⟨18, _⟩ => ⟨S1x5, .i32⟩
  | .hbm, ⟨19, _⟩ => ⟨S252x5, .i32⟩
  | .hbm, ⟨20, _⟩ => ⟨S252x5, .i32⟩
  | .hbm, ⟨21, _⟩ => ⟨S252x5, .i32⟩
  | .hbm, ⟨22, _⟩ => ⟨S_, .i32⟩
  | .hbm, ⟨23, _⟩ => ⟨S252x5, .i32⟩
  | .hbm, ⟨24, _⟩ => ⟨S252x5, .i1⟩
  | .hbm, ⟨25, _⟩ => ⟨S_, .i32⟩
  | .hbm, ⟨26, _⟩ => ⟨S252x5, .i32⟩
  | .hbm, ⟨27, _⟩ => ⟨S252x5, .i32⟩
  | .hbm, ⟨28, _⟩ => ⟨S252x5, .i32⟩
  | .hbm, ⟨29, _⟩ => ⟨S252x5x1, .i32⟩
  | .hbm, ⟨30, _⟩ => ⟨S252x5x8x128, .f32⟩
  | .hbm, ⟨31, _⟩ => ⟨S252x8x5x128, .f32⟩
  | .hbm, ⟨32, _⟩ => ⟨S2016x640, .f32⟩
  | .hbm, ⟨33, _⟩ => ⟨S640x256, .f32⟩
  | .hbm, ⟨34, _⟩ => ⟨S2016x256, .f32⟩
  | .hbm, ⟨35, _⟩ => ⟨S1x256, .f32⟩
  | .hbm, ⟨36, _⟩ => ⟨S2016x256, .f32⟩
  | .hbm, ⟨37, _⟩ => ⟨S2016x256, .f32⟩
  | .hbm, ⟨38, _⟩ => ⟨S2016x256, .f32⟩
  | .hbm, ⟨39, _⟩ => ⟨S2016x256, .bf16⟩
  | .hbm, ⟨40, _⟩ => ⟨S50257x256, .bf16⟩
  | .hbm, ⟨41, _⟩ => ⟨S256x50257, .bf16⟩
  | .hbm, ⟨42, _⟩ => ⟨S_, .i32⟩
  | .hbm, ⟨43, _⟩ => ⟨S_, .bf16⟩
  | .hbm, ⟨44, _⟩ => ⟨S256x53248, .bf16⟩
  | .hbm, ⟨45, _⟩ => ⟨S_, .i32⟩
  | .hbm, ⟨46, _⟩ => ⟨S_, .f32⟩
  | .hbm, ⟨47, _⟩ => ⟨S53248, .f32⟩
  | .hbm, ⟨48, _⟩ => ⟨S2016x1, .f32⟩
  | .hbm, ⟨49, _⟩ => ⟨S2016x50257, .f32⟩
  | .local _ .vmem, ⟨0, _⟩ => ⟨S1008x256, .bf16⟩
  | .local _ .vmem, ⟨1, _⟩ => ⟨S1008x256, .bf16⟩
  | .local _ .vmem, ⟨2, _⟩ => ⟨S256x4096, .bf16⟩
  | .local _ .vmem, ⟨3, _⟩ => ⟨S256x4096, .bf16⟩
  | .local _ .vmem, ⟨4, _⟩ => ⟨S4096, .f32⟩
  | .local _ .vmem, ⟨5, _⟩ => ⟨S4096, .f32⟩
  | .local _ .vmem, ⟨6, _⟩ => ⟨S1008x1, .f32⟩
  | .local _ .vmem, ⟨7, _⟩ => ⟨S1008x1, .f32⟩
  | .local _ .vmem, ⟨8, _⟩ => ⟨S1008x1, .f32⟩
  | .local _ .vmem, ⟨9, _⟩ => ⟨S1008x256, .bf16⟩
  | .local _ .vmem, ⟨10, _⟩ => ⟨S1008x256, .bf16⟩
  | .local _ .vmem, ⟨11, _⟩ => ⟨S256x4096, .bf16⟩
  | .local _ .vmem, ⟨12, _⟩ => ⟨S256x4096, .bf16⟩
  | .local _ .vmem, ⟨13, _⟩ => ⟨S4096, .f32⟩
  | .local _ .vmem, ⟨14, _⟩ => ⟨S4096, .f32⟩
  | .local _ .vmem, ⟨15, _⟩ => ⟨S1008x1, .f32⟩
  | .local _ .vmem, ⟨16, _⟩ => ⟨S1008x1, .f32⟩
  | .local _ .vmem, ⟨17, _⟩ => ⟨S1008x4096, .f32⟩
  | .local _ .vmem, ⟨18, _⟩ => ⟨S1008x4096, .f32⟩
  | _, _ => ⟨S256x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_call0_v0 : Ref sig .tc := ⟨.hbm, 43, rfl⟩
abbrev main_v32 : Ref sig .tc := ⟨.hbm, 44, rfl⟩
abbrev main_c_4 : Ref sig .tc := ⟨.hbm, 45, rfl⟩
abbrev main_call1_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![2, 13], ![false, false]⟩

def k0_cond2 (i : grid0.Coords) : BitVec 1 :=
  let arg1 : BitVec 32 := BitVec.ofNat 32 (i 1).val
  let c12_i32 : BitVec 32 := 12#32
  let v29 : BitVec 1 := Scalar.cmpi .eq arg1 c12_i32
  let v30 : BitVec 32 := Scalar.extui v29
  let c0_i32_11 : BitVec 32 := 0#32
  let v31 : BitVec 1 := Scalar.cmpi .ne v30 c0_i32_11
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1008x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1008x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 13], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1008x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1008x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1008x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bcast_S_S256x8 : S_.BroadcastsInDim S256x8 (![] : Fin 0 → Fin S256x8.rank)
  bcast_S256x8_S256x8x1_0_1 : S256x8.BroadcastsInDim S256x8x1 (![0, 1] : Fin 2 → Fin S256x8x1.rank)
  bcast_S252_S252x1_0 : S252.BroadcastsInDim S252x1 (![0] : Fin 1 → Fin S252x1.rank)
  bcast_S5_S1x5_1 : S5.BroadcastsInDim S1x5 (![1] : Fin 1 → Fin S1x5.rank)
  bcast_S252x1_S252x5_0_1 : S252x1.BroadcastsInDim S252x5 (![0, 1] : Fin 2 → Fin S252x5.rank)
  bcast_S1x5_S252x5_0_1 : S1x5.BroadcastsInDim S252x5 (![0, 1] : Fin 2 → Fin S252x5.rank)
  bcast_S_S252x5 : S_.BroadcastsInDim S252x5 (![] : Fin 0 → Fin S252x5.rank)
  bcast_S252x5_S252x5x1_0_1 : S252x5.BroadcastsInDim S252x5x1 (![0, 1] : Fin 2 → Fin S252x5x1.rank)
  transposes_S252x5x8x128_S252x8x5x128_0_2_1_3 : S252x5x8x128.Transposes [0, 2, 1, 3] S252x8x5x128
  shapeCasts_S252x8x5x128_S2016x640 : S252x8x5x128.ShapeCasts S2016x640
  transposes_S256x640_S640x256_1_0 : S256x640.Transposes [1, 0] S640x256
  bcast_S256_S1x256_1 : S256.BroadcastsInDim S1x256 (![1] : Fin 1 → Fin S1x256.rank)
  bcast_S1x256_S2016x256_0_1 : S1x256.BroadcastsInDim S2016x256 (![0, 1] : Fin 2 → Fin S2016x256.rank)
  bitsLt_bf16_f32 : FTy.bits .bf16 < FTy.bits .f32
  transposes_S50257x256_S256x50257_1_0 : S50257x256.Transposes [1, 0] S256x50257
  pads_S256x50257_S256x53248_000_029910 : S256x50257.Pads (![0, 0] : Fin 2 → Nat) ![0, 2991] ![0, 0] S256x53248
  h_S_ : 0 < S_.numel
  pads_S50257_S53248_029910 : S50257.Pads (![0] : Fin 1 → Nat) ![2991] ![0] S53248
  inb_S1008x1_S1008x1_0_0 : ∀ a, (![0, 0] : Fin 2 → Nat) a + S1008x1.size a ≤ S1008x1.size a
  h_S1008x1 : 0 < S1008x1.numel
  shapeCasts_S1008x1_S1008x1 : S1008x1.ShapeCasts S1008x1
  inb_S1008x256_S1008x256_0_0 : ∀ a, (![0, 0] : Fin 2 → Nat) a + S1008x256.size a ≤ S1008x256.size a
  h_S1008x256 : 0 < S1008x256.numel
  shapeCasts_S1008x256_S1008x256 : S1008x256.ShapeCasts S1008x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S1008x4096 : S1x4096.Broadcasts S1008x4096
  iota_S1008x4096_d1_w32 : S1008x4096.Iotas .tc 32 [1]
  reduces_S1008x4096_S1008 : S1008x4096.Reduces [1] S1008
  shapeCasts_S1008_S1008x1 : S1008.ShapeCasts S1008x1
  broadcasts_S1008x1_S1008x4096 : S1008x1.Broadcasts S1008x4096
  inb_S1008x4096_S1008x4096_0_0 : ∀ a, (![0, 0] : Fin 2 → Nat) a + S1008x4096.size a ≤ S1008x4096.size a
  h_S1008x4096 : 0 < S1008x4096.numel
  gather_S50257x128_S256x8x1_S256x8x128_2_0_n_n_0_2_1128_wf : GatherDims.WF S50257x128 S256x8x1 S256x8x128 [2] [0] [] [0] [] 2 ![1, 128]
  gather_S256x8x128_S252x5x1_S252x5x8x128_23_0_n_n_0_2_18128_wf : GatherDims.WF S256x8x128 S252x5x1 S252x5x8x128 [2, 3] [0] [] [0] [] 2 ![1, 8, 128]
  dot_S2016x640_S640x256_S2016x256_1_0_0_1_n_n_wf : DotDims.WF S2016x640 S640x256 S2016x256 [1] [0] [0] [1] [] []
  dot_S1008x256_S256x4096_S1008x4096_1_0_0_1_n_n_wf : DotDims.WF S1008x256 S256x4096 S1008x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1008x256.size a ≤ S2016x256.size a
  hwx0_0 : ∀ i : grid0.Coords, EltTy.bits .bf16 = 32 ∨ (Rect.block (s := S2016x256) S1008x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x53248.size a
  hwx0_1 : ∀ i : grid0.Coords, EltTy.bits .bf16 = 32 ∨ (Rect.block (s := S256x53248) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S53248.size a
  hwx0_2 : ∀ i : grid0.Coords, EltTy.bits .f32 = 32 ∨ (Rect.block (s := S53248) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1008x1.size a ≤ S2016x1.size a
  hwx0_3 : ∀ i : grid0.Coords, EltTy.bits .f32 = 32 ∨ (Rect.block (s := S2016x1) S1008x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1008x256.size a ≤ S2016x256.size a
  hwx1_0 : ∀ i : grid1.Coords, EltTy.bits .bf16 = 32 ∨ (Rect.block (s := S2016x256) S1008x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S256x53248.size a
  hwx1_1 : ∀ i : grid1.Coords, EltTy.bits .bf16 = 32 ∨ (Rect.block (s := S256x53248) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096.size a ≤ S53248.size a
  hwx1_2 : ∀ i : grid1.Coords, EltTy.bits .f32 = 32 ∨ (Rect.block (s := S53248) S4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1008x1.size a ≤ S2016x1.size a
  hwx1_3 : ∀ i : grid1.Coords, EltTy.bits .f32 = 32 ∨ (Rect.block (s := S2016x1) S1008x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S1008x4096.size a < S2016x50257.size a
  hwx1_4 : ∀ i : grid1.Coords, EltTy.bits .f32 = 32 ∨ (Rect.unit (s := S2016x50257) (fun a => cc1_transform_4 i a * S1008x4096.size a) (fun a => (Pipeline.Clip.of (cc1_transform_4 i a) (S1008x4096.size a) (S2016x50257.size a)).extent (S1008x4096.size a)) fun a => Pipeline.Clip.inb (Pipeline.Clip.ok_of (hstart1_4 i a))).WholeWords (EltTy.packing .f32)
  hwxs1_4 : ∀ i : grid1.Coords, EltTy.bits .f32 = 32 ∨ (Rect.unit (s := S1008x4096) (fun _ => 0) (fun a => (Pipeline.Clip.of (cc1_transform_4 i a) (S1008x4096.size a) (S2016x50257.size a)).extent (S1008x4096.size a)) fun a => (Nat.zero_add _).trans_le (Pipeline.Clip.extent_le (Pipeline.Clip.ok_of (hstart1_4 i a)))).WholeWords (EltTy.packing .f32)

variable [Facts₀]

def gather_S50257x128_S256x8x1_S256x8x128_2_0_n_n_0_2_1128 : GatherDims S50257x128 S256x8x1 S256x8x128 where
  offsetDims := [2]
  collapsedSliceDims := [0]
  operandBatchingDims := []
  startIndicesBatchingDims := []
  startIndexMap := [0]
  indexVectorDim := 2
  sliceSizes := ![1, 128]
  wf := gather_S50257x128_S256x8x1_S256x8x128_2_0_n_n_0_2_1128_wf
def gather_S256x8x128_S252x5x1_S252x5x8x128_23_0_n_n_0_2_18128 : GatherDims S256x8x128 S252x5x1 S252x5x8x128 where
  offsetDims := [2, 3]
  collapsedSliceDims := [0]
  operandBatchingDims := []
  startIndicesBatchingDims := []
  startIndexMap := [0]
  indexVectorDim := 2
  sliceSizes := ![1, 8, 128]
  wf := gather_S256x8x128_S252x5x1_S252x5x8x128_23_0_n_n_0_2_18128_wf
def dot_S2016x640_S640x256_S2016x256_1_0_0_1_n_n : DotDims S2016x640 S640x256 S2016x256 where
  lhsContracting := [1]
  rhsContracting := [0]
  lhsNonContracting := [0]
  rhsNonContracting := [1]
  lhsBatch := []
  rhsBatch := []
  wf := dot_S2016x640_S640x256_S2016x256_1_0_0_1_n_n_wf
def dot_S1008x256_S256x4096_S1008x4096_1_0_0_1_n_n : DotDims S1008x256 S256x4096 S1008x4096 where
  lhsContracting := [1]
  rhsContracting := [0]
  lhsNonContracting := [0]
  rhsNonContracting := [1]
  lhsBatch := []
  rhsBatch := []
  wf := dot_S1008x256_S256x4096_S1008x4096_1_0_0_1_n_n_wf

abbrev win0_0 : Pipeline.Window sig grid0 :=
  Pipeline.Window.ofSpec (Memref.whole main_v29) S1008x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1008x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v29) S1008x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1008x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpecClip (Memref.whole main_v35) S1008x4096.size cc1_transform_4 reads1_4 true false 2 stage1_4 sem1_4
    hrank1 hreads1_4 hstart1_4 nbuf1_4 (Memref.isWhole_whole _) hwx1_4 hwxs1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S256x8 : Shape := ⟨2, ![256, 8]⟩
abbrev S50257x128 : Shape := ⟨2, ![50257, 128]⟩
abbrev S256x640 : Shape := ⟨2, ![256, 640]⟩
abbrev S256 : Shape := ⟨1, ![256]⟩
abbrev S50257x256 : Shape := ⟨2, ![50257, 256]⟩
abbrev S50257 : Shape := ⟨1, ![50257]⟩
abbrev S_ : Shape := ⟨0, ![]⟩
abbrev S256x8x1 : Shape := ⟨3, ![256, 8, 1]⟩
abbrev S256x8x128 : Shape := ⟨3, ![256, 8, 128]⟩
abbrev S252 : Shape := ⟨1, ![252]⟩
abbrev S252x1 : Shape := ⟨2, ![252, 1]⟩
abbrev S5 : Shape := ⟨1, ![5]⟩
abbrev S1x5 : Shape := ⟨2, ![1, 5]⟩
abbrev S252x5 : Shape := ⟨2, ![252, 5]⟩
abbrev S252x5x1 : Shape := ⟨3, ![252, 5, 1]⟩
abbrev S252x5x8x128 : Shape := ⟨4, ![252, 5, 8, 128]⟩
abbrev S252x8x5x128 : Shape := ⟨4, ![252, 8, 5, 128]⟩
abbrev S2016x640 : Shape := ⟨2, ![2016, 640]⟩
abbrev S640x256 : Shape := ⟨2, ![640, 256]⟩
abbrev S2016x256 : Shape := ⟨2, ![2016, 256]⟩
abbrev S1x256 : Shape := ⟨2, ![1, 256]⟩
abbrev S256x50257 : Shape := ⟨2, ![256, 50257]⟩
abbrev S2016x50257 : Shape := ⟨2, ![2016, 50257]⟩
abbrev S1x50257 : Shape := ⟨2, ![1, 50257]⟩
abbrev S2016 : Shape := ⟨1, ![2016]⟩
abbrev S2016x1 : Shape := ⟨2, ![2016, 1]⟩

abbrev nBuf : Space → Nat
  | .hbm => 59
  | .vmem => 0
  | .smem => 0
  | _ => 0

abbrev bufTy : (tb : Table) → Fin (tcTables nBuf tb) → BufTy
  | .hbm, ⟨0, _⟩ => ⟨S256x8, .i32⟩
  | .hbm, ⟨1, _⟩ => ⟨S50257x128, .f32⟩
  | .hbm, ⟨2, _⟩ => ⟨S256x640, .f32⟩
  | .hbm, ⟨3, _⟩ => ⟨S256, .f32⟩
  | .hbm, ⟨4, _⟩ => ⟨S50257x256, .f32⟩
  | .hbm, ⟨5, _⟩ => ⟨S50257, .f32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S256x8x128, .f32⟩
  | .hbm, ⟨15, _⟩ => ⟨S252, .i32⟩
  | .hbm, ⟨16, _⟩ => ⟨S252x1, .i32⟩
  | .hbm, ⟨17, _⟩ => ⟨S5, .i32⟩
  | .hbm, ⟨18, _⟩ => ⟨S1x5, .i32⟩
  | .hbm, ⟨19, _⟩ => ⟨S252x5, .i32⟩
  | .hbm, ⟨20, _⟩ => ⟨S252x5, .i32⟩
  | .hbm, ⟨21, _⟩ => ⟨S252x5, .i32⟩
  | .hbm, ⟨22, _⟩ => ⟨S_, .i32⟩
  | .hbm, ⟨23, _⟩ => ⟨S252x5, .i32⟩
  | .hbm, ⟨24, _⟩ => ⟨S252x5, .i1⟩
  | .hbm, ⟨25, _⟩ => ⟨S_, .i32⟩
  | .hbm, ⟨26, _⟩ => ⟨S252x5, .i32⟩
  | .hbm, ⟨27, _⟩ => ⟨S252x5, .i32⟩
  | .hbm, ⟨28, _⟩ => ⟨S252x5, .i32⟩
  | .hbm, ⟨29, _⟩ => ⟨S252x5x1, .i32⟩
  | .hbm, ⟨30, _⟩ => ⟨S252x5x8x128, .f32⟩
  | .hbm, ⟨31, _⟩ => ⟨S252x8x5x128, .f32⟩
  | .hbm, ⟨32, _⟩ => ⟨S2016x640, .f32⟩
  | .hbm, ⟨33, _⟩ => ⟨S640x256, .f32⟩
  | .hbm, ⟨34, _⟩ => ⟨S2016x256, .f32⟩
  | .hbm, ⟨35, _⟩ => ⟨S1x256, .f32⟩
  | .hbm, ⟨36, _⟩ => ⟨S2016x256, .f32⟩
  | .hbm, ⟨37, _⟩ => ⟨S2016x256, .f32⟩
  | .hbm, ⟨38, _⟩ => ⟨S2016x256, .f32⟩
  | .hbm, ⟨39, _⟩ => ⟨S256x50257, .f32⟩
  | .hbm, ⟨40, _⟩ => ⟨S2016x50257, .f32⟩
  | .hbm, ⟨41, _⟩ => ⟨S1x50257, .f32⟩
  | .hbm, ⟨42, _⟩ => ⟨S2016x50257, .f32⟩
  | .hbm, ⟨43, _⟩ => ⟨S2016x50257, .f32⟩
  | .hbm, ⟨44, _⟩ => ⟨S_, .f32⟩
  | .hbm, ⟨45, _⟩ => ⟨S2016, .f32⟩
  | .hbm, ⟨46, _⟩ => ⟨S_, .f32⟩
  | .hbm, ⟨47, _⟩ => ⟨S2016, .f32⟩
  | .hbm, ⟨48, _⟩ => ⟨S2016, .f32⟩
  | .hbm, ⟨49, _⟩ => ⟨S2016x1, .f32⟩
  | .hbm, ⟨50, _⟩ => ⟨S2016x50257, .f32⟩
  | .hbm, ⟨51, _⟩ => ⟨S2016x50257, .f32⟩
  | .hbm, ⟨52, _⟩ => ⟨S2016x50257, .f32⟩
  | .hbm, ⟨53, _⟩ => ⟨S_, .f32⟩
  | .hbm, ⟨54, _⟩ => ⟨S2016, .f32⟩
  | .hbm, ⟨55, _⟩ => ⟨S2016x1, .f32⟩
  | .hbm, ⟨56, _⟩ => ⟨S2016x1, .f32⟩
  | .hbm, ⟨57, _⟩ => ⟨S2016x50257, .f32⟩
  | .hbm, ⟨58, _⟩ => ⟨S2016x50257, .f32⟩
  | _, _ => ⟨S256x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_cst : Ref sig .tc := ⟨.hbm, 44, rfl⟩
abbrev main_call0_v0 : Ref sig .tc := ⟨.hbm, 45, rfl⟩
abbrev main_call0_cst_0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_cst_1 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_v34 : Ref sig .tc := ⟨.hbm, 58, rfl⟩

abbrev nD : Nat := 1
abbrev τ : Topo := Topo.v7x

variable {F : FTy → Type} [FloatOps F]

class Facts₀ : Prop where
  bcast_S_S256x8 : S_.BroadcastsInDim S256x8 (![] : Fin 0 → Fin S256x8.rank)
  bcast_S256x8_S256x8x1_0_1 : S256x8.BroadcastsInDim S256x8x1 (![0, 1] : Fin 2 → Fin S256x8x1.rank)
  bcast_S252_S252x1_0 : S252.BroadcastsInDim S252x1 (![0] : Fin 1 → Fin S252x1.rank)
  bcast_S5_S1x5_1 : S5.BroadcastsInDim S1x5 (![1] : Fin 1 → Fin S1x5.rank)
  bcast_S252x1_S252x5_0_1 : S252x1.BroadcastsInDim S252x5 (![0, 1] : Fin 2 → Fin S252x5.rank)
  bcast_S1x5_S252x5_0_1 : S1x5.BroadcastsInDim S252x5 (![0, 1] : Fin 2 → Fin S252x5.rank)
  bcast_S_S252x5 : S_.BroadcastsInDim S252x5 (![] : Fin 0 → Fin S252x5.rank)
  bcast_S252x5_S252x5x1_0_1 : S252x5.BroadcastsInDim S252x5x1 (![0, 1] : Fin 2 → Fin S252x5x1.rank)
  transposes_S252x5x8x128_S252x8x5x128_0_2_1_3 : S252x5x8x128.Transposes [0, 2, 1, 3] S252x8x5x128
  shapeCasts_S252x8x5x128_S2016x640 : S252x8x5x128.ShapeCasts S2016x640
  transposes_S256x640_S640x256_1_0 : S256x640.Transposes [1, 0] S640x256
  bcast_S256_S1x256_1 : S256.BroadcastsInDim S1x256 (![1] : Fin 1 → Fin S1x256.rank)
  bcast_S1x256_S2016x256_0_1 : S1x256.BroadcastsInDim S2016x256 (![0, 1] : Fin 2 → Fin S2016x256.rank)
  transposes_S50257x256_S256x50257_1_0 : S50257x256.Transposes [1, 0] S256x50257
  bcast_S50257_S1x50257_1 : S50257.BroadcastsInDim S1x50257 (![1] : Fin 1 → Fin S1x50257.rank)
  bcast_S1x50257_S2016x50257_0_1 : S1x50257.BroadcastsInDim S2016x50257 (![0, 1] : Fin 2 → Fin S2016x50257.rank)
  reducesTo_S2016x50257_S2016_d1 : S2016x50257.ReducesTo [1] S2016
  h_S_ : 0 < S_.numel
  bcast_S_S2016 : S_.BroadcastsInDim S2016 (![] : Fin 0 → Fin S2016.rank)
  bcast_S2016_S2016x1_0 : S2016.BroadcastsInDim S2016x1 (![0] : Fin 1 → Fin S2016x1.rank)
  bcast_S2016x1_S2016x50257_0_1 : S2016x1.BroadcastsInDim S2016x50257 (![0, 1] : Fin 2 → Fin S2016x50257.rank)
  gather_S50257x128_S256x8x1_S256x8x128_2_0_n_n_0_2_1128_wf : GatherDims.WF S50257x128 S256x8x1 S256x8x128 [2] [0] [] [0] [] 2 ![1, 128]
  gather_S256x8x128_S252x5x1_S252x5x8x128_23_0_n_n_0_2_18128_wf : GatherDims.WF S256x8x128 S252x5x1 S252x5x8x128 [2, 3] [0] [] [0] [] 2 ![1, 8, 128]
  dot_S2016x640_S640x256_S2016x256_1_0_0_1_n_n_wf : DotDims.WF S2016x640 S640x256 S2016x256 [1] [0] [0] [1] [] []
  dot_S2016x256_S256x50257_S2016x50257_1_0_0_1_n_n_wf : DotDims.WF S2016x256 S256x50257 S2016x50257 [1] [0] [0] [1] [] []

variable [Facts₀]

def gather_S50257x128_S256x8x1_S256x8x128_2_0_n_n_0_2_1128 : GatherDims S50257x128 S256x8x1 S256x8x128 where
  offsetDims := [2]
  collapsedSliceDims := [0]
  operandBatchingDims := []
  startIndicesBatchingDims := []
  startIndexMap := [0]
  indexVectorDim := 2
  sliceSizes := ![1, 128]
  wf := gather_S50257x128_S256x8x1_S256x8x128_2_0_n_n_0_2_1128_wf
def gather_S256x8x128_S252x5x1_S252x5x8x128_23_0_n_n_0_2_18128 : GatherDims S256x8x128 S252x5x1 S252x5x8x128 where
  offsetDims := [2, 3]
  collapsedSliceDims := [0]
  operandBatchingDims := []
  startIndicesBatchingDims := []
  startIndexMap := [0]
  indexVectorDim := 2
  sliceSizes := ![1, 8, 128]
  wf := gather_S256x8x128_S252x5x1_S252x5x8x128_23_0_n_n_0_2_18128_wf
def dot_S2016x640_S640x256_S2016x256_1_0_0_1_n_n : DotDims S2016x640 S640x256 S2016x256 where
  lhsContracting := [1]
  rhsContracting := [0]
  lhsNonContracting := [0]
  rhsNonContracting := [1]
  lhsBatch := []
  rhsBatch := []
  wf := dot_S2016x640_S640x256_S2016x256_1_0_0_1_n_n_wf
def dot_S2016x256_S256x50257_S2016x50257_1_0_0_1_n_n : DotDims S2016x256 S256x50257 S2016x50257 where
  lhsContracting := [1]
  rhsContracting := [0]
  lhsNonContracting := [0]
  rhsNonContracting := [1]
  lhsBatch := []
  rhsBatch := []
  wf := dot_S2016x256_S256x50257_S2016x50257_1_0_0_1_n_n_wf

class Facts : Prop extends Facts₀ where

variable [Facts]
-- ==== Proof.KLseRuns.lean ====
import proofs.«181285_j85899345920311_2_alg».proof.Proof.Gen.Kernel.Launch
import proofs.«181285_j85899345920311_2_alg».proof.Proof.Gen.Kernel.Skeleton
import proofs.«181285_j85899345920311_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The first kernel (the rows' log-sum-exp, accumulated over the tiles of decoder columns in a scratch column): its two
branch conditions decided over the grid, where its output window is idle, and the body's run in each of its three cases
— the first tile of a row block (the scratch zeroed, then added to), a middle tile (added to), the last tile (added to,
then its logarithm stored to the output block). -/

variable {F : FTy → Type} [FloatOps F]

local notation "𝕄" => MT nD τ sig Unit (Elt F) ℕ (UR sig nD τ) ℕ

/-- The first branch's condition (the tile index is 0), from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 13 = 0 :=
  (by decide +kernel : ∀ t : Fin grid0.N, cond0_0 (grid0.coords t) ↔ t.val % 13 = 0)

/-- The second branch's condition (the tile index is 12, the last). -/
abbrev cond0_1 (i : grid0.Coords) : Prop := k0_cond2 i = 1#1
theorem hcond0_1 : ∀ t : Fin cfg0.N, cond0_1 (grid0.coords t) ↔ t.val % 13 = 12 :=
  (by decide +kernel : ∀ t : Fin grid0.N, cond0_1 (grid0.coords t) ↔ t.val % 13 = 12)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the last-tile condition fails the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it holds the output window is live. -/
theorem liveAt0_3 : ∀ t : Fin cfg0.N, cond0_1 (grid0.coords t) → cfg0.idle 3 (grid0.coords t) = false := by decide +kernel

/-- One staging buffer of the output window, through which its contents are stated. -/
abbrev VO0_3 : View sig .tc .vmem S1008x1 .f32 := (Memref.whole cc0_stg3_0 : Memref sig .tc .vmem S1008x1 .f32).view
abbrev ms0_0 (t : Fin cfg0.N) : Memref sig .tc .vmem S1008x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1008x1 .f32 := win0_3.stage (cfg0.slots t 3)
abbrev hs0_3 (t : Fin cfg0.N) : (ms0_3 t).IsWhole := hstage0_3 ((cfg0.slots t 3).cast nbuf0_3)
/-- The scratch column: a whole scoped buffer of the kernel's own. -/
abbrev scM0_0 : Memref sig .tc .vmem S1008x1 .f32 := Memref.whole cc0_scratch0
abbrev VS0_0 : View sig .tc .vmem S1008x1 .f32 := scM0_0.view

/-- The scoped buffers that are neither a staging buffer of this pipeline nor its scratch (the other pipeline's staging
    buffers), each at some contents: carried unopened. -/
abbrev others0 (c : Dev nD) : sProp 𝕄 :=
  Pipeline.scopedRestBut (Ix := Unit) (Name := ℕ) (U := UR sig nD τ) (Lvl := ℕ) (Val := Elt F) spec0 c [cc0_scratch0]

/-- The class invariant with the scratch as a memref owned at some contents. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [scM0_0, owns_whole, bigSepL]
  try rfl

set_option maxHeartbeats 4000000 in
/-- FIRST TILE (the first condition holds, the second does not): the inputs' memrefs at their contents, the idle output's
    handed back untouched, the scratch at anything; afterwards the scratch holds the pieces the run stores (last first). -/
noncomputable def kernelRun0_A (c : Dev nD) (i : grid0.Coords) (arg2 : Memref sig .tc .vmem S1008x256 .bf16) (harg2 : arg2.IsWhole) (arg3 : Memref sig .tc .vmem S256x4096 .bf16) (harg3 : arg3.IsWhole) (arg4 : Memref sig .tc .vmem S4096 .f32) (harg4 : arg4.IsWhole) (arg5 : Memref sig .tc .vmem S1008x1 .f32) (harg5 : arg5.IsWhole) (arg6 : Memref sig .tc .vmem S1008x1 .f32) (harg6 : arg6.IsWhole) (hc0 : cond0_0 i) (hc1 : ¬cond0_1 i)
    (x0 : Vec F S1008x256 .bf16) (x1 : Vec F S256x4096 .bf16) (x2 : Vec F S4096 .f32) :
    Σ' (L3 : List (View.Piece (Elt F) S1008x1 .f32)), { LS0 : List (View.Piece (Elt F) S1008x1 .f32) //
      ∀ (xi3 : Vec F S1008x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__lse_kernel i arg2 harg2 arg3 harg3 arg4 harg4 arg5 harg5 arg6 harg6) K } := by
  refine ⟨[], ?_, fun xi3 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- A MIDDLE TILE (neither condition holds): the scratch at what the point before left (`xs0`). -/
noncomputable def kernelRun0_B (c : Dev nD) (i : grid0.Coords) (arg2 : Memref sig .tc .vmem S1008x256 .bf16) (harg2 : arg2.IsWhole) (arg3 : Memref sig .tc .vmem S256x4096 .bf16) (harg3 : arg3.IsWhole) (arg4 : Memref sig .tc .vmem S4096 .f32) (harg4 : arg4.IsWhole) (arg5 : Memref sig .tc .vmem S1008x1 .f32) (harg5 : arg5.IsWhole) (arg6 : Memref sig .tc .vmem S1008x1 .f32) (harg6 : arg6.IsWhole) (hc0 : ¬cond0_0 i) (hc1 : ¬cond0_1 i)
    (x0 : Vec F S1008x256 .bf16) (x1 : Vec F S256x4096 .bf16) (x2 : Vec F S4096 .f32) (xs0 : Vec F S1008x1 .f32) :
    Σ' (L3 : List (View.Piece (Elt F) S1008x1 .f32)), { LS0 : List (View.Piece (Elt F) S1008x1 .f32) //
      ∀ (xi3 : Vec F S1008x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__lse_kernel i arg2 harg2 arg3 harg3 arg4 harg4 arg5 harg5 arg6 harg6) K } := by
  refine ⟨[], ?_, fun xi3 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- THE LAST TILE (the second condition holds, the first does not): the output's memref at anything; afterwards it holds
    the pieces the run stores into it. -/
noncomputable def kernelRun0_C (c : Dev nD) (i : grid0.Coords) (arg2 : Memref sig .tc .vmem S1008x256 .bf16) (harg2 : arg2.IsWhole) (arg3 : Memref sig .tc .vmem S256x4096 .bf16) (harg3 : arg3.IsWhole) (arg4 : Memref sig .tc .vmem S4096 .f32) (harg4 : arg4.IsWhole) (arg5 : Memref sig .tc .vmem S1008x1 .f32) (harg5 : arg5.IsWhole) (arg6 : Memref sig .tc .vmem S1008x1 .f32) (harg6 : arg6.IsWhole) (hc0 : ¬cond0_0 i) (hc1 : cond0_1 i)
    (x0 : Vec F S1008x256 .bf16) (x1 : Vec F S256x4096 .bf16) (x2 : Vec F S4096 .f32) (xs0 : Vec F S1008x1 .f32) :
    Σ' (L3 : List (View.Piece (Elt F) S1008x1 .f32)), { LS0 : List (View.Piece (Elt F) S1008x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc0__lse_kernel i arg2 harg2 arg3 harg3 arg4 harg4 arg5 harg5 arg6 harg6) K } := by
  refine ⟨?_, ?_, fun E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KLse.lean ====
import proofs.«181285_j85899345920311_2_alg».proof.Proof.Gen.Kernel.Launch
import proofs.«181285_j85899345920311_2_alg».proof.Proof.Gen.Kernel.Skeleton
import proofs.«181285_j85899345920311_2_alg».proof.Proof.Gen.Kernel.Points
import proofs.«181285_j85899345920311_2_alg».proof.Proof.KLseRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The first kernel's pipeline at any entry contents `V`: what the scratch column and the output's staging buffer hold
after each grid point (the case the point is in, run at the point's blocks, over what the point before left in the
scratch), the region invariant carrying the scratch, the proof data, and the body obligation at every point. -/

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three runs at a grid point, on the memrefs the pipeline passes there and the point's input blocks. -/
abbrev runA (c : Dev nD) (t : Fin cfg0.N) (h0 : t.val % 13 = 0) (h1 : ¬t.val % 13 = 12) :=
  kernelRun0_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)
abbrev runB (c : Dev nD) (t : Fin cfg0.N) (h0 : ¬t.val % 13 = 0) (h1 : ¬t.val % 13 = 12) (xs0 : Vec F S1008x1 .f32) :=
  kernelRun0_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs0
abbrev runC (c : Dev nD) (t : Fin cfg0.N) (h0 : ¬t.val % 13 = 0) (h1 : t.val % 13 = 12) (xs0 : Vec F S1008x1 .f32) :=
  kernelRun0_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs0

/-- What each case leaves in the scratch column: its pieces read back. -/
def soutA (c : Dev nD) (t : Fin cfg0.N) (h0 : t.val % 13 = 0) (h1 : ¬t.val % 13 = 12) : Vec F S1008x1 .f32 :=
  VS0_0.read (Elt F) (VS0_0.writes (Elt F) VS0_0.junk (runA V c t h0 h1).2.1)
def soutB (c : Dev nD) (t : Fin cfg0.N) (h0 : ¬t.val % 13 = 0) (h1 : ¬t.val % 13 = 12) (xs0 : Vec F S1008x1 .f32) : Vec F S1008x1 .f32 :=
  VS0_0.read (Elt F) (VS0_0.writes (Elt F) VS0_0.junk (runB V c t h0 h1 xs0).2.1)
def soutC (c : Dev nD) (t : Fin cfg0.N) (h0 : ¬t.val % 13 = 0) (h1 : t.val % 13 = 12) (xs0 : Vec F S1008x1 .f32) : Vec F S1008x1 .f32 :=
  VS0_0.read (Elt F) (VS0_0.writes (Elt F) VS0_0.junk (runC V c t h0 h1 xs0).2.1)
/-- What the last-tile case leaves in the output's staging buffer. -/
def outC (c : Dev nD) (t : Fin cfg0.N) (h0 : ¬t.val % 13 = 0) (h1 : t.val % 13 = 12) (xs0 : Vec F S1008x1 .f32) : Vec F S1008x1 .f32 :=
  VO0_3.read (Elt F) (VO0_3.writes (Elt F) VO0_3.junk (runC V c t h0 h1 xs0).1)
/-- At the other points the output window is idle: a placeholder nothing consults. -/
def outIdle : Vec F S1008x1 .f32 := VO0_3.read (Elt F) VO0_3.junk

/-- Each case's pieces cover the buffer they are stored into. -/
theorem scoverA (c : Dev nD) (t : Fin cfg0.N) (h0 : t.val % 13 = 0) (h1 : ¬t.val % 13 = 12) (y : S1008x1.Idx) :
    ∃ pc ∈ (runA V c t h0 h1).2.1, y ∈ pc.1.set :=
  View.cover_of_tiledL (runA V c t h0 h1).2.1 S1008x1.size (by sl_kernel_rfl) y
theorem scoverB (c : Dev nD) (t : Fin cfg0.N) (h0 : ¬t.val % 13 = 0) (h1 : ¬t.val % 13 = 12) (xs0 : Vec F S1008x1 .f32) (y : S1008x1.Idx) :
    ∃ pc ∈ (runB V c t h0 h1 xs0).2.1, y ∈ pc.1.set :=
  View.cover_of_tiledL (runB V c t h0 h1 xs0).2.1 S1008x1.size (by sl_kernel_rfl) y
theorem scoverC (c : Dev nD) (t : Fin cfg0.N) (h0 : ¬t.val % 13 = 0) (h1 : t.val % 13 = 12) (xs0 : Vec F S1008x1 .f32) (y : S1008x1.Idx) :
    ∃ pc ∈ (runC V c t h0 h1 xs0).2.1, y ∈ pc.1.set :=
  View.cover_of_tiledL (runC V c t h0 h1 xs0).2.1 S1008x1.size (by sl_kernel_rfl) y
theorem coverC (c : Dev nD) (t : Fin cfg0.N) (h0 : ¬t.val % 13 = 0) (h1 : t.val % 13 = 12) (xs0 : Vec F S1008x1 .f32) (y : S1008x1.Idx) :
    ∃ pc ∈ (runC V c t h0 h1 xs0).1, y ∈ pc.1.set :=
  View.cover_of_tiledL (runC V c t h0 h1 xs0).1 S1008x1.size (by sl_kernel_rfl) y

/-- THE ACCUMULATION: what the output's staging buffer and the scratch column hold after the body at position `n`: the
    case `n mod 13` selects, run over what position `n - 1` left in the scratch. -/
def outsAt0 (c : Dev nD) : (n : ℕ) → n < cfg0.N → Vec F S1008x1 .f32 × Vec F S1008x1 .f32
  | 0, hn => (outIdle, soutA V c ⟨0, hn⟩ (Nat.zero_mod _) (show ¬ (0 % 13 = 12) by decide))
  | n + 1, hn =>
    if h0 : (n + 1) % 13 = 0 then
      if h1 : (n + 1) % 13 = 12 then False.elim (by omega)
      else (outIdle, soutA V c ⟨n + 1, hn⟩ h0 h1)
    else
      if h1 : (n + 1) % 13 = 12 then
        (outC V c ⟨n + 1, hn⟩ h0 h1 (outsAt0 c n (Nat.lt_of_succ_lt hn)).2, soutC V c ⟨n + 1, hn⟩ h0 h1 (outsAt0 c n (Nat.lt_of_succ_lt hn)).2)
      else
        (outIdle, soutB V c ⟨n + 1, hn⟩ h0 h1 (outsAt0 c n (Nat.lt_of_succ_lt hn)).2)

theorem outsAt0_A (c : Dev nD) (t : Fin cfg0.N) (h0 : t.val % 13 = 0) (h1 : ¬t.val % 13 = 12) :
    outsAt0 V c t.val t.isLt = (outIdle, soutA V c t h0 h1) := by
  obtain ⟨n, hn⟩ := t
  cases n with
  | zero => exact rfl
  | succ n => exact (dif_pos h0).trans ((dif_neg h1).trans rfl)

theorem outsAt0_B (c : Dev nD) (t : Fin cfg0.N) (h0 : ¬t.val % 13 = 0) (h1 : ¬t.val % 13 = 12) :
    outsAt0 V c t.val t.isLt = (outIdle, soutB V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 13 = 0) (h1 : t.val % 13 = 12) :
    outsAt0 V c t.val t.isLt = (outC V c t h0 h1 (outsAt0 V c (t.val - 1) (Nat.lt_of_le_of_lt (Nat.sub_le _ _) t.isLt)).2,
      soutC V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the scratch column at what the
    point before left in it, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ others0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others0 c) ∗ (∃ r, prngReg c r)) := by
  cases n with
  | zero => exact absurd rfl hz
  | succ n => rfl

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; `t mod 13` says which case the point is in; the invariant
    hands the body the scratch at what the point before left (at anything at the first point) and takes it back at this
    point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 13 = 0
  · have h1 : ¬t.val % 13 = 12 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold soutA; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩⟩
      iapply ((runA V c t h0 h1).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverA V c t h0 h1)
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((runA V c t h0 h1).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverA V c t h0 h1)
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 13 = 12
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold outC soutC; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((runC V c t h0 h1 _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverC V c t h0 h1 _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC V c t h0 h1 _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold soutB; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((runB V c t h0 h1 _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverB V c t h0 h1 _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 26 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hoth⟩, Hg⟩
  isplitl [HS0 Hoth]
  · isplitl [HS0]
    · iexists _; iexact HS0
    iexact Hoth
  iexact Hg

end Region

end Cert.Kernel.Hand

end
-- ==== Proof.KOut.lean ====
import proofs.«181285_j85899345920311_2_alg».proof.Proof.Gen.Kernel.Launch
import proofs.«181285_j85899345920311_2_alg».proof.Proof.Gen.Kernel.Skeleton
import proofs.«181285_j85899345920311_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The second kernel (the log-probabilities): run on whole staging memrefs it leaves its one store's value over the whole
output block; the proof data of its pipeline at any entry contents `V`; the body obligation at every grid point. -/

variable {F : FTy → Type} [FloatOps F]

local notation "𝕄" => MT nD τ sig Unit (Elt F) ℕ (UR sig nD τ) ℕ

abbrev rH : Rect S1008x256 := Rect.unit (s := S1008x256) ![0, 0] S1008x256.size inb_S1008x256_S1008x256_0_0
abbrev rW : Rect S256x4096 := Rect.unit (s := S256x4096) ![0, 0] S256x4096.size inb_S256x4096_S256x4096_0_0
abbrev rB : Rect S4096 := Rect.unit (s := S4096) ![0] S4096.size inb_S4096_S4096_0
abbrev rL : Rect S1008x1 := Rect.unit (s := S1008x1) ![0, 0] S1008x1.size inb_S1008x1_S1008x1_0_0
abbrev rO : Rect S1008x4096 := Rect.unit (s := S1008x4096) ![0, 0] S1008x4096.size inb_S1008x4096_S1008x4096_0_0

/-- The output block after the body at grid coordinates `i`, from the four input blocks (rows of hidden states, a tile of
    decoder columns, their biases, the rows' log-sum-exp): the one store's value, over the whole block. -/
def outBlock (i : grid1.Coords) (x0 : Vec F S1008x256 .bf16) (x1 : Vec F S256x4096 .bf16) (x2 : Vec F S4096 .f32) (x3 : Vec F S1008x1 .f32) :
    Vec F S1008x4096 .f32 :=
  View.canon [⟨rO, k1_pay1 i (View.ld x0 rH) (View.ld x1 rW) (View.ld x2 rB) (View.ld x3 rL)⟩]

/-- The one store covers the block. -/
theorem outCover (p0 : Vec F S1008x4096 .f32) (y : S1008x4096.Idx) :
    ∃ pc ∈ ([⟨rO, p0⟩] : List (View.Piece (Elt F) S1008x4096 .f32)), y ∈ pc.1.set :=
  View.cover_of_tiled [⟨rO, p0⟩] S1008x4096.size (by rfl) y

set_option maxHeartbeats 4000000 in
/-- The body's triple: the four inputs' memrefs at their contents and the output's at anything; afterwards the inputs as
    they were and the output's at `outBlock`. -/
theorem sound_out_kernel (c : Dev nD) (E : Set ℕ) (i : grid1.Coords)
    (arg2 : Memref sig .tc .vmem S1008x256 .bf16) (harg2 : arg2.IsWhole) (arg3 : Memref sig .tc .vmem S256x4096 .bf16) (harg3 : arg3.IsWhole)
    (arg4 : Memref sig .tc .vmem S4096 .f32) (harg4 : arg4.IsWhole) (arg5 : Memref sig .tc .vmem S1008x1 .f32) (harg5 : arg5.IsWhole)
    (arg6 : Memref sig .tc .vmem S1008x4096 .f32) (harg6 : arg6.IsWhole)
    (x0 : Vec F S1008x256 .bf16) (x1 : Vec F S256x4096 .bf16) (x2 : Vec F S4096 .f32) (x3 : Vec F S1008x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlock i x0 x1 x2 x3)) -∗ K ⟨⟩))
      ⊢ wp frame (wpE (defs₀ (F := F)) Variants.none c none) E (cc1__out_kernel i arg2 harg2 arg3 harg3 arg4 harg4 arg5 harg5 arg6 harg6) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

section Region
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second pipeline on core `c`: the arrays as the region finds them; after the body each input's
    buffer at its block and the output's at `outBlock` of the four input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outBlock (grid1.coords t) (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = outBlock (grid1.coords t) (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_out_kernel c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KRun.lean ====
import proofs.«181285_j85899345920311_2_alg».proof.Proof.Gen.Kernel.Launch
import proofs.«181285_j85899345920311_2_alg».proof.Proof.Gen.Kernel.Skeleton
import proofs.«181285_j85899345920311_2_alg».proof.Proof.Gen.Kernel.Points
import proofs.«181285_j85899345920311_2_alg».proof.Proof.KLse
import proofs.«181285_j85899345920311_2_alg».proof.Proof.KOut
import proofs.«181285_j85899345920311_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! THE RUN: @main is four stretches of host operations and then the two pipelines. The buffer contents at each boundary
are a fold from the launch memory — a stretch's operations applied, a pipeline's arrays at what its write-backs leave —;
each pipeline is a segment entered from the contents before it and left at the contents after it; every weakly fair
execution terminates with every unscoped buffer at the last boundary's contents. -/

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first pipeline's entry contents (after the four host stretches), read at the TensorCore's references. -/
abbrev VA : (c : Dev nD) → (b : Ref sig .tc) → Buf (Elt F) ((c : Thread nD τ).loc b) := fun c b => Gen.V4 m c b
/-- At the first pipeline's exit: its arrays at what it leaves, every other buffer as entered. -/
def WB (c : Dev nD) : Valuation τ sig (Elt F) :=
  Pipeline.withArrays spec0 c (Gen.V4 m c) fun w => (dat0 (VA m) c).arrAt w cfg0.N
theorem WB_arr (c : Dev nD) (w : Fin cfg0.W) :
    WB m c (Proc.devRef .tc (Pipeline.arrRef spec0 w)) = (dat0 (VA m) c).arrAt w cfg0.N := by
  unfold WB; exact Pipeline.withArrays_arr spec0 launch0.win.arr_inj c _ _ w
theorem WB_of_ne (c : Dev nD) (b : Ref sig .tc) (hb : ∀ w, Pipeline.arrRef spec0 w ≠ b) :
    WB m c (Proc.devRef .tc b) = Gen.V4 m c (Proc.devRef .tc b) := by
  unfold WB; exact Pipeline.withArrays_of_ne spec0 c _ _ b hb
/-- The same read at the TensorCore's references: the second pipeline's entry contents. -/
abbrev VB : (c : Dev nD) → (b : Ref sig .tc) → Buf (Elt F) ((c : Thread nD τ).loc b) := fun c b => WB m c b
theorem hF0 (c : Dev nD) (w : Fin cfg0.W) : (dat0 (VA m) c).arrAt w cfg0.N = VB m c (Pipeline.arrRef spec0 w) :=
  (WB_arr m c w).symm
theorem hrest0 (c : Dev nD) : ∀ b, b ∉ Finset.univ.image (Pipeline.arrRef spec0) → VB m c b = VA m c b :=
  fun b hb => WB_of_ne m c b fun w e => hb (Finset.mem_image.mpr ⟨w, Finset.mem_univ _, e⟩)

/-- At the second pipeline's exit (the return). -/
def WC (c : Dev nD) : Valuation τ sig (Elt F) :=
  Pipeline.withArrays spec1 c (WB m c) fun w => (dat1 (VB m) c).arrAt w cfg1.N
theorem WC_arr (c : Dev nD) (w : Fin cfg1.W) :
    WC m c (Proc.devRef .tc (Pipeline.arrRef spec1 w)) = (dat1 (VB m) c).arrAt w cfg1.N := by
  unfold WC; exact Pipeline.withArrays_arr spec1 launch1.win.arr_inj c _ _ w
theorem WC_of_ne (c : Dev nD) (b : Ref sig .tc) (hb : ∀ w, Pipeline.arrRef spec1 w ≠ b) :
    WC m c (Proc.devRef .tc b) = WB m c (Proc.devRef .tc b) := by
  unfold WC; exact Pipeline.withArrays_of_ne spec1 c _ _ b hb
abbrev VC : (c : Dev nD) → (b : Ref sig .tc) → Buf (Elt F) ((c : Thread nD τ).loc b) := fun c b => WC m c b
theorem hF1 (c : Dev nD) (w : Fin cfg1.W) : (dat1 (VB m) c).arrAt w cfg1.N = VC m c (Pipeline.arrRef spec1 w) :=
  (WC_arr m c w).symm
theorem hrest1 (c : Dev nD) : ∀ b, b ∉ Finset.univ.image (Pipeline.arrRef spec1) → VC m c b = VB m c b :=
  fun b hb => WC_of_ne m c b fun w e => hb (Finset.mem_image.mpr ⟨w, Finset.mem_univ _, e⟩)

/-- An argument array (no host operation writes one, no pipeline stages one) reaches the end as launched. -/
theorem WC_arg (c : Dev nD) (b : Ref sig .tc) (h1 : ∀ w, Pipeline.arrRef spec1 w ≠ b) (h0 : ∀ w, Pipeline.arrRef spec0 w ≠ b)
    (h4 : b ∉ Gen.hostOps0_3_W) (h3 : b ∉ Gen.hostOps0_2_W) (h2 : b ∉ Gen.hostOps0_1_W) (h : b ∉ Gen.hostOps0_W) :
    WC m c (Proc.devRef .tc b) = m ((c : Thread nD τ).loc b) :=
  (WC_of_ne m c b h1).trans <| (WB_of_ne m c b h0).trans <| (Gen.V4_of m c b h4).trans <| (Gen.V3_of m c b h3).trans <|
    (Gen.V2_of m c b h2).trans <| (Gen.V1_of m c b h).trans rfl

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (WC m c) ∗ ∃ r, prngReg c r)

set_option backward.isDefEq.respectTransparency.types false in
/-- The first pipeline as a segment: entered from every unscoped buffer at the contents after the host stretches, left with
    its arrays at what it writes back; the generator register and the scoped buffers into the region invariant and out;
    nothing owed; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V4 m c) ∗ R c)
  post c := iprop(StableHlo.held (c : Thread nD τ) (Pipeline.ucRefs τ sig) (WB m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin0 (VA m) c)
    unfold Pipeline.ΦA
    iintro ⟨Hp, -, Hr⟩
    isplitl [Hr]; · iexact Hr
    iexact Hp
  hout c := by
    refine Idealize.SL.BI.BIBase.Entails.trans (hout0 (VA m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pipeline as a segment: entered from the first's exit contents, left at the return's. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (WB m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's six segments in order. -/
abbrev segs : List (Pipeline.Seg (pcfgs (F := F)) Gen.adm (pdats m) () defs₀ 𝒱₀ L lv) :=
  [ .host (Gen.seg0 m 𝒱₀ L lv E), .host (Gen.seg1 m 𝒱₀ L lv E), .host (Gen.seg2 m 𝒱₀ L lv E), .host (Gen.seg3 m 𝒱₀ L lv E),
    .region (reg0 m), .region (reg1 m) ]

set_option backward.isDefEq.respectTransparency.types false in
/-- THE RUN: from any memory with zero counters every weakly fair execution of @main terminates, nothing faulting, and every
    final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = WC m c b) :=
  Pipeline.θ_run_regions_kit (pcfgs (F := F)) Gen.adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WC m c b)
    (hfin := fun c s' => by
      iintro ⟨⟨Hh, -⟩, HSI⟩
      unfold StableHlo.held
      imodintro
      iapply (pointsTo_read_all (Pipeline.ucRefs τ sig) (fun b => (((c : Thread nD τ)).1, b)) (WC m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (WC_arg m c main_arg0 (by decide) (by decide) (by decide) (by decide) (by decide) (by decide)),
     (h c _ (mem_uc main_arg1 (by decide))).trans (WC_arg m c main_arg1 (by decide) (by decide) (by decide) (by decide) (by decide) (by decide)),
     (h c _ (mem_uc main_arg2 (by decide))).trans (WC_arg m c main_arg2 (by decide) (by decide) (by decide) (by decide) (by decide) (by decide)),
     (h c _ (mem_uc main_arg3 (by decide))).trans (WC_arg m c main_arg3 (by decide) (by decide) (by decide) (by decide) (by decide) (by decide)),
     (h c _ (mem_uc main_arg4 (by decide))).trans (WC_arg m c main_arg4 (by decide) (by decide) (by decide) (by decide) (by decide) (by decide)),
     (h c _ (mem_uc main_arg5 (by decide))).trans (WC_arg m c main_arg5 (by decide) (by decide) (by decide) (by decide) (by decide) (by decide))⟩)
    (run_all m ρ)

end Cert.Kernel.Hand

end
-- ==== Proof.KiLseRuns.lean ====
import proofs.«181285_j85899345920311_2_alg».proof.Proof.Gen.KernelIdeal.Launch
import proofs.«181285_j85899345920311_2_alg».proof.Proof.Gen.KernelIdeal.Skeleton
import proofs.«181285_j85899345920311_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The first kernel (the rows' log-sum-exp, accumulated over the tiles of decoder columns in a scratch column): its two
branch conditions decided over the grid, where its output window is idle, and the body's run in each of its three cases
— the first tile of a row block (the scratch zeroed, then added to), a middle tile (added to), the last tile (added to,
then its logarithm stored to the output block). -/

variable {F : FTy → Type} [FloatOps F] [Named F]

local notation "𝕄" => MT nD τ sig Unit (Elt F) ℕ (UR sig nD τ) ℕ

/-- The first branch's condition (the tile index is 0), from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 13 = 0 :=
  (by decide +kernel : ∀ t : Fin grid0.N, cond0_0 (grid0.coords t) ↔ t.val % 13 = 0)

/-- The second branch's condition (the tile index is 12, the last). -/
abbrev cond0_1 (i : grid0.Coords) : Prop := k0_cond2 i = 1#1
theorem hcond0_1 : ∀ t : Fin cfg0.N, cond0_1 (grid0.coords t) ↔ t.val % 13 = 12 :=
  (by decide +kernel : ∀ t : Fin grid0.N, cond0_1 (grid0.coords t) ↔ t.val % 13 = 12)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the last-tile condition fails the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it holds the output window is live. -/
theorem liveAt0_3 : ∀ t : Fin cfg0.N, cond0_1 (grid0.coords t) → cfg0.idle 3 (grid0.coords t) = false := by decide +kernel

/-- One staging buffer of the output window, through which its contents are stated. -/
abbrev VO0_3 : View sig .tc .vmem S1008x1 .f32 := (Memref.whole cc0_stg3_0 : Memref sig .tc .vmem S1008x1 .f32).view
abbrev ms0_0 (t : Fin cfg0.N) : Memref sig .tc .vmem S1008x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1008x1 .f32 := win0_3.stage (cfg0.slots t 3)
abbrev hs0_3 (t : Fin cfg0.N) : (ms0_3 t).IsWhole := hstage0_3 ((cfg0.slots t 3).cast nbuf0_3)
/-- The scratch column: a whole scoped buffer of the kernel's own. -/
abbrev scM0_0 : Memref sig .tc .vmem S1008x1 .f32 := Memref.whole cc0_scratch0
abbrev VS0_0 : View sig .tc .vmem S1008x1 .f32 := scM0_0.view

/-- The scoped buffers that are neither a staging buffer of this pipeline nor its scratch (the other pipeline's staging
    buffers), each at some contents: carried unopened. -/
abbrev others0 (c : Dev nD) : sProp 𝕄 :=
  Pipeline.scopedRestBut (Ix := Unit) (Name := ℕ) (U := UR sig nD τ) (Lvl := ℕ) (Val := Elt F) spec0 c [cc0_scratch0]

/-- The class invariant with the scratch as a memref owned at some contents. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [scM0_0, owns_whole, bigSepL]
  try rfl

set_option maxHeartbeats 4000000 in
/-- FIRST TILE (the first condition holds, the second does not): the inputs' memrefs at their contents, the idle output's
    handed back untouched, the scratch at anything; afterwards the scratch holds the pieces the run stores (last first). -/
noncomputable def kernelRun0_A (c : Dev nD) (i : grid0.Coords) (arg2 : Memref sig .tc .vmem S1008x256 .bf16) (harg2 : arg2.IsWhole) (arg3 : Memref sig .tc .vmem S256x4096 .bf16) (harg3 : arg3.IsWhole) (arg4 : Memref sig .tc .vmem S4096 .f32) (harg4 : arg4.IsWhole) (arg5 : Memref sig .tc .vmem S1008x1 .f32) (harg5 : arg5.IsWhole) (arg6 : Memref sig .tc .vmem S1008x1 .f32) (harg6 : arg6.IsWhole) (hc0 : cond0_0 i) (hc1 : ¬cond0_1 i)
    (x0 : Vec F S1008x256 .bf16) (x1 : Vec F S256x4096 .bf16) (x2 : Vec F S4096 .f32) :
    Σ' (L3 : List (View.Piece (Elt F) S1008x1 .f32)), { LS0 : List (View.Piece (Elt F) S1008x1 .f32) //
      ∀ (xi3 : Vec F S1008x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__lse_kernel i arg2 harg2 arg3 harg3 arg4 harg4 arg5 harg5 arg6 harg6) K } := by
  refine ⟨[], ?_, fun xi3 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- A MIDDLE TILE (neither condition holds): the scratch at what the point before left (`xs0`). -/
noncomputable def kernelRun0_B (c : Dev nD) (i : grid0.Coords) (arg2 : Memref sig .tc .vmem S1008x256 .bf16) (harg2 : arg2.IsWhole) (arg3 : Memref sig .tc .vmem S256x4096 .bf16) (harg3 : arg3.IsWhole) (arg4 : Memref sig .tc .vmem S4096 .f32) (harg4 : arg4.IsWhole) (arg5 : Memref sig .tc .vmem S1008x1 .f32) (harg5 : arg5.IsWhole) (arg6 : Memref sig .tc .vmem S1008x1 .f32) (harg6 : arg6.IsWhole) (hc0 : ¬cond0_0 i) (hc1 : ¬cond0_1 i)
    (x0 : Vec F S1008x256 .bf16) (x1 : Vec F S256x4096 .bf16) (x2 : Vec F S4096 .f32) (xs0 : Vec F S1008x1 .f32) :
    Σ' (L3 : List (View.Piece (Elt F) S1008x1 .f32)), { LS0 : List (View.Piece (Elt F) S1008x1 .f32) //
      ∀ (xi3 : Vec F S1008x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__lse_kernel i arg2 harg2 arg3 harg3 arg4 harg4 arg5 harg5 arg6 harg6) K } := by
  refine ⟨[], ?_, fun xi3 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- THE LAST TILE (the second condition holds, the first does not): the output's memref at anything; afterwards it holds
    the pieces the run stores into it. -/
noncomputable def kernelRun0_C (c : Dev nD) (i : grid0.Coords) (arg2 : Memref sig .tc .vmem S1008x256 .bf16) (harg2 : arg2.IsWhole) (arg3 : Memref sig .tc .vmem S256x4096 .bf16) (harg3 : arg3.IsWhole) (arg4 : Memref sig .tc .vmem S4096 .f32) (harg4 : arg4.IsWhole) (arg5 : Memref sig .tc .vmem S1008x1 .f32) (harg5 : arg5.IsWhole) (arg6 : Memref sig .tc .vmem S1008x1 .f32) (harg6 : arg6.IsWhole) (hc0 : ¬cond0_0 i) (hc1 : cond0_1 i)
    (x0 : Vec F S1008x256 .bf16) (x1 : Vec F S256x4096 .bf16) (x2 : Vec F S4096 .f32) (xs0 : Vec F S1008x1 .f32) :
    Σ' (L3 : List (View.Piece (Elt F) S1008x1 .f32)), { LS0 : List (View.Piece (Elt F) S1008x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc0__lse_kernel i arg2 harg2 arg3 harg3 arg4 harg4 arg5 harg5 arg6 harg6) K } := by
  refine ⟨?_, ?_, fun E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KiLse.lean ====
import proofs.«181285_j85899345920311_2_alg».proof.Proof.Gen.KernelIdeal.Launch
import proofs.«181285_j85899345920311_2_alg».proof.Proof.Gen.KernelIdeal.Skeleton
import proofs.«181285_j85899345920311_2_alg».proof.Proof.Gen.KernelIdeal.Points
import proofs.«181285_j85899345920311_2_alg».proof.Proof.KiLseRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The first kernel's pipeline at any entry contents `V`: what the scratch column and the output's staging buffer hold
after each grid point (the case the point is in, run at the point's blocks, over what the point before left in the
scratch), the region invariant carrying the scratch, the proof data, and the body obligation at every point. -/

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three runs at a grid point, on the memrefs the pipeline passes there and the point's input blocks. -/
abbrev runA (c : Dev nD) (t : Fin cfg0.N) (h0 : t.val % 13 = 0) (h1 : ¬t.val % 13 = 12) :=
  kernelRun0_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)
abbrev runB (c : Dev nD) (t : Fin cfg0.N) (h0 : ¬t.val % 13 = 0) (h1 : ¬t.val % 13 = 12) (xs0 : Vec F S1008x1 .f32) :=
  kernelRun0_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs0
abbrev runC (c : Dev nD) (t : Fin cfg0.N) (h0 : ¬t.val % 13 = 0) (h1 : t.val % 13 = 12) (xs0 : Vec F S1008x1 .f32) :=
  kernelRun0_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs0

/-- What each case leaves in the scratch column: its pieces read back. -/
def soutA (c : Dev nD) (t : Fin cfg0.N) (h0 : t.val % 13 = 0) (h1 : ¬t.val % 13 = 12) : Vec F S1008x1 .f32 :=
  VS0_0.read (Elt F) (VS0_0.writes (Elt F) VS0_0.junk (runA V c t h0 h1).2.1)
def soutB (c : Dev nD) (t : Fin cfg0.N) (h0 : ¬t.val % 13 = 0) (h1 : ¬t.val % 13 = 12) (xs0 : Vec F S1008x1 .f32) : Vec F S1008x1 .f32 :=
  VS0_0.read (Elt F) (VS0_0.writes (Elt F) VS0_0.junk (runB V c t h0 h1 xs0).2.1)
def soutC (c : Dev nD) (t : Fin cfg0.N) (h0 : ¬t.val % 13 = 0) (h1 : t.val % 13 = 12) (xs0 : Vec F S1008x1 .f32) : Vec F S1008x1 .f32 :=
  VS0_0.read (Elt F) (VS0_0.writes (Elt F) VS0_0.junk (runC V c t h0 h1 xs0).2.1)
/-- What the last-tile case leaves in the output's staging buffer. -/
def outC (c : Dev nD) (t : Fin cfg0.N) (h0 : ¬t.val % 13 = 0) (h1 : t.val % 13 = 12) (xs0 : Vec F S1008x1 .f32) : Vec F S1008x1 .f32 :=
  VO0_3.read (Elt F) (VO0_3.writes (Elt F) VO0_3.junk (runC V c t h0 h1 xs0).1)
/-- At the other points the output window is idle: a placeholder nothing consults. -/
def outIdle : Vec F S1008x1 .f32 := VO0_3.read (Elt F) VO0_3.junk

/-- Each case's pieces cover the buffer they are stored into. -/
theorem scoverA (c : Dev nD) (t : Fin cfg0.N) (h0 : t.val % 13 = 0) (h1 : ¬t.val % 13 = 12) (y : S1008x1.Idx) :
    ∃ pc ∈ (runA V c t h0 h1).2.1, y ∈ pc.1.set :=
  View.cover_of_tiledL (runA V c t h0 h1).2.1 S1008x1.size (by sl_kernel_rfl) y
theorem scoverB (c : Dev nD) (t : Fin cfg0.N) (h0 : ¬t.val % 13 = 0) (h1 : ¬t.val % 13 = 12) (xs0 : Vec F S1008x1 .f32) (y : S1008x1.Idx) :
    ∃ pc ∈ (runB V c t h0 h1 xs0).2.1, y ∈ pc.1.set :=
  View.cover_of_tiledL (runB V c t h0 h1 xs0).2.1 S1008x1.size (by sl_kernel_rfl) y
theorem scoverC (c : Dev nD) (t : Fin cfg0.N) (h0 : ¬t.val % 13 = 0) (h1 : t.val % 13 = 12) (xs0 : Vec F S1008x1 .f32) (y : S1008x1.Idx) :
    ∃ pc ∈ (runC V c t h0 h1 xs0).2.1, y ∈ pc.1.set :=
  View.cover_of_tiledL (runC V c t h0 h1 xs0).2.1 S1008x1.size (by sl_kernel_rfl) y
theorem coverC (c : Dev nD) (t : Fin cfg0.N) (h0 : ¬t.val % 13 = 0) (h1 : t.val % 13 = 12) (xs0 : Vec F S1008x1 .f32) (y : S1008x1.Idx) :
    ∃ pc ∈ (runC V c t h0 h1 xs0).1, y ∈ pc.1.set :=
  View.cover_of_tiledL (runC V c t h0 h1 xs0).1 S1008x1.size (by sl_kernel_rfl) y

/-- THE ACCUMULATION: what the output's staging buffer and the scratch column hold after the body at position `n`: the
    case `n mod 13` selects, run over what position `n - 1` left in the scratch. -/
def outsAt0 (c : Dev nD) : (n : ℕ) → n < cfg0.N → Vec F S1008x1 .f32 × Vec F S1008x1 .f32
  | 0, hn => (outIdle, soutA V c ⟨0, hn⟩ (Nat.zero_mod _) (show ¬ (0 % 13 = 12) by decide))
  | n + 1, hn =>
    if h0 : (n + 1) % 13 = 0 then
      if h1 : (n + 1) % 13 = 12 then False.elim (by omega)
      else (outIdle, soutA V c ⟨n + 1, hn⟩ h0 h1)
    else
      if h1 : (n + 1) % 13 = 12 then
        (outC V c ⟨n + 1, hn⟩ h0 h1 (outsAt0 c n (Nat.lt_of_succ_lt hn)).2, soutC V c ⟨n + 1, hn⟩ h0 h1 (outsAt0 c n (Nat.lt_of_succ_lt hn)).2)
      else
        (outIdle, soutB V c ⟨n + 1, hn⟩ h0 h1 (outsAt0 c n (Nat.lt_of_succ_lt hn)).2)

theorem outsAt0_A (c : Dev nD) (t : Fin cfg0.N) (h0 : t.val % 13 = 0) (h1 : ¬t.val % 13 = 12) :
    outsAt0 V c t.val t.isLt = (outIdle, soutA V c t h0 h1) := by
  obtain ⟨n, hn⟩ := t
  cases n with
  | zero => exact rfl
  | succ n => exact (dif_pos h0).trans ((dif_neg h1).trans rfl)

theorem outsAt0_B (c : Dev nD) (t : Fin cfg0.N) (h0 : ¬t.val % 13 = 0) (h1 : ¬t.val % 13 = 12) :
    outsAt0 V c t.val t.isLt = (outIdle, soutB V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 13 = 0) (h1 : t.val % 13 = 12) :
    outsAt0 V c t.val t.isLt = (outC V c t h0 h1 (outsAt0 V c (t.val - 1) (Nat.lt_of_le_of_lt (Nat.sub_le _ _) t.isLt)).2,
      soutC V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the scratch column at what the
    point before left in it, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ others0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others0 c) ∗ (∃ r, prngReg c r)) := by
  cases n with
  | zero => exact absurd rfl hz
  | succ n => rfl

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; `t mod 13` says which case the point is in; the invariant
    hands the body the scratch at what the point before left (at anything at the first point) and takes it back at this
    point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 13 = 0
  · have h1 : ¬t.val % 13 = 12 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold soutA; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩⟩
      iapply ((runA V c t h0 h1).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverA V c t h0 h1)
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((runA V c t h0 h1).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverA V c t h0 h1)
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 13 = 12
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold outC soutC; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((runC V c t h0 h1 _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverC V c t h0 h1 _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC V c t h0 h1 _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold soutB; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((runB V c t h0 h1 _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverB V c t h0 h1 _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 26 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hoth⟩, Hg⟩
  isplitl [HS0 Hoth]
  · isplitl [HS0]
    · iexists _; iexact HS0
    iexact Hoth
  iexact Hg

end Region

end Cert.KernelIdeal.Hand

end
-- ==== Proof.KiOut.lean ====
import proofs.«181285_j85899345920311_2_alg».proof.Proof.Gen.KernelIdeal.Launch
import proofs.«181285_j85899345920311_2_alg».proof.Proof.Gen.KernelIdeal.Skeleton
import proofs.«181285_j85899345920311_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The second kernel (the log-probabilities): run on whole staging memrefs it leaves its one store's value over the whole
output block; the proof data of its pipeline at any entry contents `V`; the body obligation at every grid point. -/

variable {F : FTy → Type} [FloatOps F] [Named F]

local notation "𝕄" => MT nD τ sig Unit (Elt F) ℕ (UR sig nD τ) ℕ

abbrev rH : Rect S1008x256 := Rect.unit (s := S1008x256) ![0, 0] S1008x256.size inb_S1008x256_S1008x256_0_0
abbrev rW : Rect S256x4096 := Rect.unit (s := S256x4096) ![0, 0] S256x4096.size inb_S256x4096_S256x4096_0_0
abbrev rB : Rect S4096 := Rect.unit (s := S4096) ![0] S4096.size inb_S4096_S4096_0
abbrev rL : Rect S1008x1 := Rect.unit (s := S1008x1) ![0, 0] S1008x1.size inb_S1008x1_S1008x1_0_0
abbrev rO : Rect S1008x4096 := Rect.unit (s := S1008x4096) ![0, 0] S1008x4096.size inb_S1008x4096_S1008x4096_0_0

/-- The output block after the body at grid coordinates `i`, from the four input blocks (rows of hidden states, a tile of
    decoder columns, their biases, the rows' log-sum-exp): the one store's value, over the whole block. -/
def outBlock (i : grid1.Coords) (x0 : Vec F S1008x256 .bf16) (x1 : Vec F S256x4096 .bf16) (x2 : Vec F S4096 .f32) (x3 : Vec F S1008x1 .f32) :
    Vec F S1008x4096 .f32 :=
  View.canon [⟨rO, k1_pay1 i (View.ld x0 rH) (View.ld x1 rW) (View.ld x2 rB) (View.ld x3 rL)⟩]

/-- The one store covers the block. -/
theorem outCover (p0 : Vec F S1008x4096 .f32) (y : S1008x4096.Idx) :
    ∃ pc ∈ ([⟨rO, p0⟩] : List (View.Piece (Elt F) S1008x4096 .f32)), y ∈ pc.1.set :=
  View.cover_of_tiled [⟨rO, p0⟩] S1008x4096.size (by rfl) y

set_option maxHeartbeats 4000000 in
/-- The body's triple: the four inputs' memrefs at their contents and the output's at anything; afterwards the inputs as
    they were and the output's at `outBlock`. -/
theorem sound_out_kernel (c : Dev nD) (E : Set ℕ) (i : grid1.Coords)
    (arg2 : Memref sig .tc .vmem S1008x256 .bf16) (harg2 : arg2.IsWhole) (arg3 : Memref sig .tc .vmem S256x4096 .bf16) (harg3 : arg3.IsWhole)
    (arg4 : Memref sig .tc .vmem S4096 .f32) (harg4 : arg4.IsWhole) (arg5 : Memref sig .tc .vmem S1008x1 .f32) (harg5 : arg5.IsWhole)
    (arg6 : Memref sig .tc .vmem S1008x4096 .f32) (harg6 : arg6.IsWhole)
    (x0 : Vec F S1008x256 .bf16) (x1 : Vec F S256x4096 .bf16) (x2 : Vec F S4096 .f32) (x3 : Vec F S1008x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlock i x0 x1 x2 x3)) -∗ K ⟨⟩))
      ⊢ wp frame (wpE (defs₀ (F := F)) Variants.none c none) E (cc1__out_kernel i arg2 harg2 arg3 harg3 arg4 harg4 arg5 harg5 arg6 harg6) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

section Region
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second pipeline on core `c`: the arrays as the region finds them; after the body each input's
    buffer at its block and the output's at `outBlock` of the four input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outBlock (grid1.coords t) (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = outBlock (grid1.coords t) (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_out_kernel c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KiRun.lean ====
import proofs.«181285_j85899345920311_2_alg».proof.Proof.Gen.KernelIdeal.Launch
import proofs.«181285_j85899345920311_2_alg».proof.Proof.Gen.KernelIdeal.Skeleton
import proofs.«181285_j85899345920311_2_alg».proof.Proof.Gen.KernelIdeal.Points
import proofs.«181285_j85899345920311_2_alg».proof.Proof.KiLse
import proofs.«181285_j85899345920311_2_alg».proof.Proof.KiOut
import proofs.«181285_j85899345920311_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! THE RUN: @main is four stretches of host operations and then the two pipelines. The buffer contents at each boundary
are a fold from the launch memory — a stretch's operations applied, a pipeline's arrays at what its write-backs leave —;
each pipeline is a segment entered from the contents before it and left at the contents after it; every weakly fair
execution terminates with every unscoped buffer at the last boundary's contents. -/

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first pipeline's entry contents (after the four host stretches), read at the TensorCore's references. -/
abbrev VA : (c : Dev nD) → (b : Ref sig .tc) → Buf (Elt F) ((c : Thread nD τ).loc b) := fun c b => Gen.V4 m c b
/-- At the first pipeline's exit: its arrays at what it leaves, every other buffer as entered. -/
def WB (c : Dev nD) : Valuation τ sig (Elt F) :=
  Pipeline.withArrays spec0 c (Gen.V4 m c) fun w => (dat0 (VA m) c).arrAt w cfg0.N
theorem WB_arr (c : Dev nD) (w : Fin cfg0.W) :
    WB m c (Proc.devRef .tc (Pipeline.arrRef spec0 w)) = (dat0 (VA m) c).arrAt w cfg0.N := by
  unfold WB; exact Pipeline.withArrays_arr spec0 launch0.win.arr_inj c _ _ w
theorem WB_of_ne (c : Dev nD) (b : Ref sig .tc) (hb : ∀ w, Pipeline.arrRef spec0 w ≠ b) :
    WB m c (Proc.devRef .tc b) = Gen.V4 m c (Proc.devRef .tc b) := by
  unfold WB; exact Pipeline.withArrays_of_ne spec0 c _ _ b hb
/-- The same read at the TensorCore's references: the second pipeline's entry contents. -/
abbrev VB : (c : Dev nD) → (b : Ref sig .tc) → Buf (Elt F) ((c : Thread nD τ).loc b) := fun c b => WB m c b
theorem hF0 (c : Dev nD) (w : Fin cfg0.W) : (dat0 (VA m) c).arrAt w cfg0.N = VB m c (Pipeline.arrRef spec0 w) :=
  (WB_arr m c w).symm
theorem hrest0 (c : Dev nD) : ∀ b, b ∉ Finset.univ.image (Pipeline.arrRef spec0) → VB m c b = VA m c b :=
  fun b hb => WB_of_ne m c b fun w e => hb (Finset.mem_image.mpr ⟨w, Finset.mem_univ _, e⟩)

/-- At the second pipeline's exit (the return). -/
def WC (c : Dev nD) : Valuation τ sig (Elt F) :=
  Pipeline.withArrays spec1 c (WB m c) fun w => (dat1 (VB m) c).arrAt w cfg1.N
theorem WC_arr (c : Dev nD) (w : Fin cfg1.W) :
    WC m c (Proc.devRef .tc (Pipeline.arrRef spec1 w)) = (dat1 (VB m) c).arrAt w cfg1.N := by
  unfold WC; exact Pipeline.withArrays_arr spec1 launch1.win.arr_inj c _ _ w
theorem WC_of_ne (c : Dev nD) (b : Ref sig .tc) (hb : ∀ w, Pipeline.arrRef spec1 w ≠ b) :
    WC m c (Proc.devRef .tc b) = WB m c (Proc.devRef .tc b) := by
  unfold WC; exact Pipeline.withArrays_of_ne spec1 c _ _ b hb
abbrev VC : (c : Dev nD) → (b : Ref sig .tc) → Buf (Elt F) ((c : Thread nD τ).loc b) := fun c b => WC m c b
theorem hF1 (c : Dev nD) (w : Fin cfg1.W) : (dat1 (VB m) c).arrAt w cfg1.N = VC m c (Pipeline.arrRef spec1 w) :=
  (WC_arr m c w).symm
theorem hrest1 (c : Dev nD) : ∀ b, b ∉ Finset.univ.image (Pipeline.arrRef spec1) → VC m c b = VB m c b :=
  fun b hb => WC_of_ne m c b fun w e => hb (Finset.mem_image.mpr ⟨w, Finset.mem_univ _, e⟩)

/-- An argument array (no host operation writes one, no pipeline stages one) reaches the end as launched. -/
theorem WC_arg (c : Dev nD) (b : Ref sig .tc) (h1 : ∀ w, Pipeline.arrRef spec1 w ≠ b) (h0 : ∀ w, Pipeline.arrRef spec0 w ≠ b)
    (h4 : b ∉ Gen.hostOps0_3_W) (h3 : b ∉ Gen.hostOps0_2_W) (h2 : b ∉ Gen.hostOps0_1_W) (h : b ∉ Gen.hostOps0_W) :
    WC m c (Proc.devRef .tc b) = m ((c : Thread nD τ).loc b) :=
  (WC_of_ne m c b h1).trans <| (WB_of_ne m c b h0).trans <| (Gen.V4_of m c b h4).trans <| (Gen.V3_of m c b h3).trans <|
    (Gen.V2_of m c b h2).trans <| (Gen.V1_of m c b h).trans rfl

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (WC m c) ∗ ∃ r, prngReg c r)

set_option backward.isDefEq.respectTransparency.types false in
/-- The first pipeline as a segment: entered from every unscoped buffer at the contents after the host stretches, left with
    its arrays at what it writes back; the generator register and the scoped buffers into the region invariant and out;
    nothing owed; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V4 m c) ∗ R c)
  post c := iprop(StableHlo.held (c : Thread nD τ) (Pipeline.ucRefs τ sig) (WB m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin0 (VA m) c)
    unfold Pipeline.ΦA
    iintro ⟨Hp, -, Hr⟩
    isplitl [Hr]; · iexact Hr
    iexact Hp
  hout c := by
    refine Idealize.SL.BI.BIBase.Entails.trans (hout0 (VA m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pipeline as a segment: entered from the first's exit contents, left at the return's. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (WB m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's six segments in order. -/
abbrev segs : List (Pipeline.Seg (pcfgs (F := F)) Gen.adm (pdats m) () defs₀ 𝒱₀ L lv) :=
  [ .host (Gen.seg0 m 𝒱₀ L lv E), .host (Gen.seg1 m 𝒱₀ L lv E), .host (Gen.seg2 m 𝒱₀ L lv E), .host (Gen.seg3 m 𝒱₀ L lv E),
    .region (reg0 m), .region (reg1 m) ]

set_option backward.isDefEq.respectTransparency.types false in
/-- THE RUN: from any memory with zero counters every weakly fair execution of @main terminates, nothing faulting, and every
    final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = WC m c b) :=
  Pipeline.θ_run_regions_kit (pcfgs (F := F)) Gen.adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WC m c b)
    (hfin := fun c s' => by
      iintro ⟨⟨Hh, -⟩, HSI⟩
      unfold StableHlo.held
      imodintro
      iapply (pointsTo_read_all (Pipeline.ucRefs τ sig) (fun b => (((c : Thread nD τ)).1, b)) (WC m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (WC_arg m c main_arg0 (by decide) (by decide) (by decide) (by decide) (by decide) (by decide)),
     (h c _ (mem_uc main_arg1 (by decide))).trans (WC_arg m c main_arg1 (by decide) (by decide) (by decide) (by decide) (by decide) (by decide)),
     (h c _ (mem_uc main_arg2 (by decide))).trans (WC_arg m c main_arg2 (by decide) (by decide) (by decide) (by decide) (by decide) (by decide)),
     (h c _ (mem_uc main_arg3 (by decide))).trans (WC_arg m c main_arg3 (by decide) (by decide) (by decide) (by decide) (by decide) (by decide)),
     (h c _ (mem_uc main_arg4 (by decide))).trans (WC_arg m c main_arg4 (by decide) (by decide) (by decide) (by decide) (by decide) (by decide)),
     (h c _ (mem_uc main_arg5 (by decide))).trans (WC_arg m c main_arg5 (by decide) (by decide) (by decide) (by decide) (by decide) (by decide))⟩)
    (run_all m ρ)

end Cert.KernelIdeal.Hand

end
-- ==== Proof.KiLsePieces.lean ====
import proofs.«181285_j85899345920311_2_alg».proof.Proof.Gen.KernelIdeal.Launch
import proofs.«181285_j85899345920311_2_alg».proof.Proof.Gen.KernelIdeal.Skeleton
import proofs.«181285_j85899345920311_2_alg».proof.Proof.Gen.KernelIdeal.Points
import proofs.«181285_j85899345920311_2_alg».proof.Proof.KiLse
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! What each case of the first kernel leaves, as the body's arithmetic applied to the point's blocks: the scratch column
after a tile is the tile's row sums added to what the column held (to the zero column at the first tile); the output block
at the last tile is the logarithm of the completed column. -/

variable {F : FTy → Type} [FloatOps F] [Named F]
variable (V : (c : Dev nD) → (b : Ref sig .tc) → Buf (Elt F) ((c : Thread nD τ).loc b))

theorem hz2 : (![0, 0] : Fin 2 → ℕ) = fun _ => 0 := by funext a; fin_cases a <;> rfl
theorem hz1 : (![0] : Fin 1 → ℕ) = fun _ => 0 := by funext a; fin_cases a; rfl

/-- The first tile leaves in the scratch column the tile's row sums added to the zero column just stored there. -/
theorem soutA_eq (c : Dev nD) (t : Fin cfg0.N) (h0 : t.val % 13 = 0) (h1 : ¬t.val % 13 = 12) :
    soutA V c t h0 h1 = k0_pay2 (grid0.coords t) (iblk0 V c 0 t) (iblk0 V c 1 t) (iblk0 V c 2 t) (k0_pay1 (F := F)) := by
  unfold soutA
  rw [View.read_writes_eq_canon _ _ _ (scoverA V c t h0 h1)]
  unfold runA kernelRun0_A
  dsimp only
  sl_unfold_words
  rw [View.canon_cons_unit_zero hz2]
  simp only [View.readAt_eq_ld, Memref.IsWhole.read_unread, View.readCov_unit_zero (S := S1008x1) _ hz2,
    View.ld_unit_zero (S := S1008x256) hz2, View.ld_unit_zero (S := S256x4096) hz2, View.ld_unit_zero (S := S4096) hz1,
    View.ld_unit_zero (S := S1008x1) hz2]
  first | done | exact congrArg (k0_pay2 _ _ _ _) (Memref.IsWhole.read_unread (m := scM0_0) _ xs0) | exact congrArg k0_pay3 (congrArg (k0_pay2 _ _ _ _) (Memref.IsWhole.read_unread (m := scM0_0) _ xs0))

/-- A later tile leaves the tile's row sums added to what the scratch column held. -/
theorem soutB_eq (c : Dev nD) (t : Fin cfg0.N) (h0 : ¬t.val % 13 = 0) (h1 : ¬t.val % 13 = 12) (xs0 : Vec F S1008x1 .f32) :
    soutB V c t h0 h1 xs0 = k0_pay2 (grid0.coords t) (iblk0 V c 0 t) (iblk0 V c 1 t) (iblk0 V c 2 t) xs0 := by
  unfold soutB
  rw [View.read_writes_eq_canon _ _ _ (scoverB V c t h0 h1 xs0)]
  unfold runB kernelRun0_B
  dsimp only
  sl_unfold_words
  rw [View.canon_unit_zero hz2]
  simp only [View.readAt_eq_ld, Memref.IsWhole.read_unread,
    View.ld_unit_zero (S := S1008x256) hz2, View.ld_unit_zero (S := S256x4096) hz2, View.ld_unit_zero (S := S4096) hz1,
    View.ld_unit_zero (S := S1008x1) hz2]
  first | done | exact congrArg (k0_pay2 _ _ _ _) (Memref.IsWhole.read_unread (m := scM0_0) _ xs0) | exact congrArg k0_pay3 (congrArg (k0_pay2 _ _ _ _) (Memref.IsWhole.read_unread (m := scM0_0) _ xs0))

theorem soutC_eq (c : Dev nD) (t : Fin cfg0.N) (h0 : ¬t.val % 13 = 0) (h1 : t.val % 13 = 12) (xs0 : Vec F S1008x1 .f32) :
    soutC V c t h0 h1 xs0 = k0_pay2 (grid0.coords t) (iblk0 V c 0 t) (iblk0 V c 1 t) (iblk0 V c 2 t) xs0 := by
  unfold soutC
  rw [View.read_writes_eq_canon _ _ _ (scoverC V c t h0 h1 xs0)]
  unfold runC kernelRun0_C
  dsimp only
  sl_unfold_words
  rw [View.canon_unit_zero hz2]
  simp only [View.readAt_eq_ld, Memref.IsWhole.read_unread,
    View.ld_unit_zero (S := S1008x256) hz2, View.ld_unit_zero (S := S256x4096) hz2, View.ld_unit_zero (S := S4096) hz1,
    View.ld_unit_zero (S := S1008x1) hz2]
  first | done | exact congrArg (k0_pay2 _ _ _ _) (Memref.IsWhole.read_unread (m := scM0_0) _ xs0) | exact congrArg k0_pay3 (congrArg (k0_pay2 _ _ _ _) (Memref.IsWhole.read_unread (m := scM0_0) _ xs0))

/-- The last tile stores to the output block the logarithm of the scratch column just completed. -/
theorem outC_eq (c : Dev nD) (t : Fin cfg0.N) (h0 : ¬t.val % 13 = 0) (h1 : t.val % 13 = 12) (xs0 : Vec F S1008x1 .f32) :
    outC V c t h0 h1 xs0 = k0_pay3 (k0_pay2 (grid0.coords t) (iblk0 V c 0 t) (iblk0 V c 1 t) (iblk0 V c 2 t) xs0) := by
  unfold outC
  rw [View.read_writes_eq_canon _ _ _ (coverC V c t h0 h1 xs0)]
  unfold runC kernelRun0_C
  dsimp only
  sl_unfold_words
  rw [View.canon_unit_zero hz2]
  simp only [View.readAt_eq_ld, Memref.IsWhole.read_unread, View.readCov_unit_zero (S := S1008x1) _ hz2,
    View.ld_unit_zero (S := S1008x256) hz2, View.ld_unit_zero (S := S256x4096) hz2, View.ld_unit_zero (S := S4096) hz1,
    View.ld_unit_zero (S := S1008x1) hz2]
  first | done | exact congrArg (k0_pay2 _ _ _ _) (Memref.IsWhole.read_unread (m := scM0_0) _ xs0) | exact congrArg k0_pay3 (congrArg (k0_pay2 _ _ _ _) (Memref.IsWhole.read_unread (m := scM0_0) _ xs0))

end Cert.KernelIdeal.Hand
end
-- ==== Proof.KiBlocks.lean ====
import proofs.«181285_j85899345920311_2_alg».proof.Proof.Gen.KernelIdeal.Launch
import proofs.«181285_j85899345920311_2_alg».proof.Proof.Gen.KernelIdeal.Skeleton
import proofs.«181285_j85899345920311_2_alg».proof.Proof.Gen.KernelIdeal.Points
import proofs.«181285_j85899345920311_2_alg».proof.Proof.KiLse
import proofs.«181285_j85899345920311_2_alg».proof.Proof.KiOut
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! Where the windows' blocks sit in their arrays: the printed index maps decided over the 2 × 13 grid (point `t` is row
block `t / 13`, tile `t mod 13`), and each input block read at an entry as the array read at the entry's global position. -/

open Idealize.ShloMosaic.ValueIdx

variable {F : FTy → Type} [FloatOps F] [Named F]
variable (V : (c : Dev nD) → (b : Ref sig .tc) → Buf (Elt F) ((c : Thread nD τ).loc b))

theorem idx_facts0 : ∀ t : Fin cfg0.N, win0_0.index t (0 : Fin 2) = t.val / 13 ∧ win0_0.index t (1 : Fin 2) = 0
    ∧ win0_1.index t (0 : Fin 2) = 0 ∧ win0_1.index t (1 : Fin 2) = t.val % 13
    ∧ win0_2.index t (0 : Fin 1) = t.val % 13
    ∧ win0_3.index t (0 : Fin 2) = t.val / 13 ∧ win0_3.index t (1 : Fin 2) = 0
    ∧ ((grid0.coords t) 1).val = t.val % 13 :=
  (by decide +kernel : ∀ t : Fin grid0.N, _)

theorem idx_facts1 : ∀ t : Fin cfg1.N, win1_0.index t (0 : Fin 2) = t.val / 13 ∧ win1_0.index t (1 : Fin 2) = 0
    ∧ win1_1.index t (0 : Fin 2) = 0 ∧ win1_1.index t (1 : Fin 2) = t.val % 13
    ∧ win1_2.index t (0 : Fin 1) = t.val % 13
    ∧ win1_3.index t (0 : Fin 2) = t.val / 13 ∧ win1_3.index t (1 : Fin 2) = 0
    ∧ win1_4.index t (0 : Fin 2) = t.val / 13 ∧ win1_4.index t (1 : Fin 2) = t.val % 13
    ∧ ((grid1.coords t) 1).val = t.val % 13 :=
  (by decide +kernel : ∀ t : Fin grid1.N, _)

/-- A row of the hidden-state block at point `t` is row `1008 (t / 13) + p` of the array. -/
theorem iblk0_0_apply (c : Dev nD) (t : Fin cfg0.N) (p : Fin 1008) (k : Fin 256) (r : Fin 2016) (hr : r.val = t.val / 13 * 1008 + p.val) :
    iblk0 V c 0 t (ix2 p k) = V c main_v29 (ix2 r k) := by
  obtain ⟨e0, e1, -⟩ := idx_facts0 t
  show V c main_v29 (((cfg0.win 0).blk t).view.emb (ix2 p k)) = V c main_v29 (ix2 r k)
  refine congrArg (V c main_v29) ?_
  funext a; apply Fin.ext
  match a with
  | ⟨0, _⟩ => show win0_0.index t (0 : Fin 2) * 1008 + 1 * p.val = r.val; omega
  | ⟨1, _⟩ => show win0_0.index t (1 : Fin 2) * 256 + 1 * k.val = k.val; omega

/-- A column of the decoder tile at point `t` is column `4096 (t mod 13) + j` of the padded, transposed decoder matrix. -/
theorem iblk0_1_apply (c : Dev nD) (t : Fin cfg0.N) (k : Fin 256) (j : Fin 4096) (q : Fin 53248) (hq : q.val = t.val % 13 * 4096 + j.val) :
    iblk0 V c 1 t (ix2 k j) = V c main_v32 (ix2 k q) := by
  obtain ⟨-, -, e2, e3, -⟩ := idx_facts0 t
  show V c main_v32 (((cfg0.win 1).blk t).view.emb (ix2 k j)) = V c main_v32 (ix2 k q)
  refine congrArg (V c main_v32) ?_
  funext a; apply Fin.ext
  match a with
  | ⟨0, _⟩ => show win0_1.index t (0 : Fin 2) * 256 + 1 * k.val = k.val; omega
  | ⟨1, _⟩ => show win0_1.index t (1 : Fin 2) * 4096 + 1 * j.val = q.val; omega

/-- An entry of the bias tile at point `t` is entry `4096 (t mod 13) + j` of the padded bias vector. -/
theorem iblk0_2_apply (c : Dev nD) (t : Fin cfg0.N) (j : Fin 4096) (q : Fin 53248) (hq : q.val = t.val % 13 * 4096 + j.val) :
    iblk0 V c 2 t (ix1 j) = V c main_v33 (ix1 q) := by
  obtain ⟨-, -, -, -, e4, -⟩ := idx_facts0 t
  show V c main_v33 (((cfg0.win 2).blk t).view.emb (ix1 j)) = V c main_v33 (ix1 q)
  refine congrArg (V c main_v33) ?_
  funext a; apply Fin.ext
  match a with
  | ⟨0, _⟩ => show win0_2.index t (0 : Fin 1) * 4096 + 1 * j.val = q.val; omega

theorem iblk1_0_apply (c : Dev nD) (t : Fin cfg1.N) (p : Fin 1008) (k : Fin 256) (r : Fin 2016) (hr : r.val = t.val / 13 * 1008 + p.val) :
    iblk1 V c 0 t (ix2 p k) = V c main_v29 (ix2 r k) := by
  obtain ⟨e0, e1, -⟩ := idx_facts1 t
  show V c main_v29 (((cfg1.win 0).blk t).view.emb (ix2 p k)) = V c main_v29 (ix2 r k)
  refine congrArg (V c main_v29) ?_
  funext a; apply Fin.ext
  match a with
  | ⟨0, _⟩ => show win1_0.index t (0 : Fin 2) * 1008 + 1 * p.val = r.val; omega
  | ⟨1, _⟩ => show win1_0.index t (1 : Fin 2) * 256 + 1 * k.val = k.val; omega

theorem iblk1_1_apply (c : Dev nD) (t : Fin cfg1.N) (k : Fin 256) (j : Fin 4096) (q : Fin 53248) (hq : q.val = t.val % 13 * 4096 + j.val) :
    iblk1 V c 1 t (ix2 k j) = V c main_v32 (ix2 k q) := by
  obtain ⟨-, -, e2, e3, -⟩ := idx_facts1 t
  show V c main_v32 (((cfg1.win 1).blk t).view.emb (ix2 k j)) = V c main_v32 (ix2 k q)
  refine congrArg (V c main_v32) ?_
  funext a; apply Fin.ext
  match a with
  | ⟨0, _⟩ => show win1_1.index t (0 : Fin 2) * 256 + 1 * k.val = k.val; omega
  | ⟨1, _⟩ => show win1_1.index t (1 : Fin 2) * 4096 + 1 * j.val = q.val; omega

theorem iblk1_2_apply (c : Dev nD) (t : Fin cfg1.N) (j : Fin 4096) (q : Fin 53248) (hq : q.val = t.val % 13 * 4096 + j.val) :
    iblk1 V c 2 t (ix1 j) = V c main_v33 (ix1 q) := by
  obtain ⟨-, -, -, -, e4, -⟩ := idx_facts1 t
  show V c main_v33 (((cfg1.win 2).blk t).view.emb (ix1 j)) = V c main_v33 (ix1 q)
  refine congrArg (V c main_v33) ?_
  funext a; apply Fin.ext
  match a with
  | ⟨0, _⟩ => show win1_2.index t (0 : Fin 1) * 4096 + 1 * j.val = q.val; omega

/-- An entry of the log-sum-exp block at point `t` is entry `1008 (t / 13) + p` of the first pipeline's result. -/
theorem iblk1_3_apply (c : Dev nD) (t : Fin cfg1.N) (p : Fin 1008) (u : Fin 1) (r : Fin 2016) (hr : r.val = t.val / 13 * 1008 + p.val) :
    iblk1 V c 3 t (ix2 p u) = V c main_v34 (ix2 r (0 : Fin 1)) := by
  obtain ⟨-, -, -, -, -, e5, e6, -⟩ := idx_facts1 t
  show V c main_v34 (((cfg1.win 3).blk t).view.emb (ix2 p u)) = V c main_v34 (ix2 r (0 : Fin 1))
  refine congrArg (V c main_v34) ?_
  funext a; apply Fin.ext
  match a with
  | ⟨0, _⟩ => show win1_3.index t (0 : Fin 2) * 1008 + 1 * p.val = r.val; omega
  | ⟨1, _⟩ => show win1_3.index t (1 : Fin 2) * 1 + 1 * u.val = 0; have := u.isLt; omega

end Cert.KernelIdeal.Hand
end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.LibRowReduce.lean ====
/-
  A matrix reduced along its columns (one value per row), and a per-row value spread back over the row.

  For an [a, b] matrix `src` of extended reals:
  * `rowMax_apply`: a one-axis maximum reduction over axis 1, read at row p, is the fold of max from the accumulator's
    value over the entries src(p, c) of that row;
  * `rowSum_apply`: a one-axis add reduction over axis 1 from the neutral accumulator, read at row p, is ∑ c, src(p, c);
  * `keepdims_apply`: a vector of `a` entries cast to a column [a, 1] and broadcast to [a, b] reads, at (p, c), the
    vector's entry p — the reduced axis kept as a unit axis and spread back over the row.
-/
import Idealize.ShloMosaic.PureOps.Ideal.Laws
import Idealize.ShloMosaic.PureOps.Reduce
import Idealize.ShloMosaic.Lib.ValueIdx
import Idealize.ShloMosaic.Lib.Pipeline.Value
import proofs.«181285_j85899345920311_2_alg».proof.Proof.LibKeepdims
import proofs.«181285_j85899345920311_2_alg».proof.Proof.LibMinReduce

noncomputable section

namespace Cert.RowReduce

open Idealize.ShloMosaic Idealize.ShloMosaic.ValueIdx

/-- The maximum of row p: the fold of max, from the accumulator's value, over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (Cert.MinReduce.lift_cols h p c)

/-- The sum of row p: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (Cert.MinReduce.lift_cols h p c)

/-- A vector cast to a column and broadcast along the unit axis reads, at (p, c), the vector's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (Cert.Keepdims.broadcastTo_a1_ab_apply (shapeCast ⟨2, ![a, 1]⟩ v hc) hb p c).trans
    (Cert.Keepdims.shapeCast_a_a1_apply v hc p 0)

end Cert.RowReduce

end
-- ==== Proof.LibTileMask.lean ====
import Idealize.ShloMosaic.Lib.ValueIdx
import Idealize.ShloMosaic.Lib.ValueLayout
import Idealize.ShloMosaic.Lib.Pipeline.Value
noncomputable section
namespace Cert.TileMask
open Idealize.ShloMosaic Idealize.ShloMosaic.ValueIdx

/-- A natural number below 2^31, written as a 32-bit word and read back signed, is itself. -/
private theorem toInt_ofNat_small (m : ℕ) (h : m < 2 ^ 31) : (BitVec.ofNat 32 m).toInt = (m : ℤ) := by
  have hm : m % 2 ^ 32 = m := Nat.mod_eq_of_lt (by omega)
  rw [BitVec.toInt_eq_toNat_cond, BitVec.toNat_ofNat, hm]
  split
  · rfl
  · omega

/-- In tile v of width W, the test "global column v·W + j is below n" (a signed 32-bit comparison of v·W + iota against n, all below 2^31) reads 1 exactly when v·W + j < n. -/
theorem col_lt_apply {a b : ℕ} (hio : (⟨2, ![a, b]⟩ : Shape).Iotas .tc 32 [(1 : Fin 2)]) (v W n : ℕ)
    (hv : v * W + b < 2 ^ 31) (hn : n < 2 ^ 31) (p : Fin a) (j : Fin b) :
    cmpi .slt (addi (broadcast ⟨2, ![a, b]⟩ (Scalar.muli (BitVec.ofNat 32 v) (BitVec.ofNat 32 W))) (iota .tc ⟨2, ![a, b]⟩ 32 [1] hio))
        (broadcast ⟨2, ![a, b]⟩ (BitVec.ofNat 32 n)) (ix2 p j)
      = if v * W + j.val < n then 1#1 else 0#1 := by
  have hj := j.isLt
  -- at the index (p, j) the comparison is the signed comparison of the words v·W + (iota at (p, j)) and n
  show IntOp.cmpi .slt (IntOp.addi (Scalar.muli (BitVec.ofNat 32 v) (BitVec.ofNat 32 W))
      (iota .tc ⟨2, ![a, b]⟩ 32 [1] hio (ix2 p j))) (BitVec.ofNat 32 n) = _
  -- the iota along axis 1 reads the column coordinate j
  rw [iota_single_apply]
  show BitVec.ofBool ((BitVec.ofNat 32 v * BitVec.ofNat 32 W + BitVec.ofNat 32 j.val).slt (BitVec.ofNat 32 n)) = _
  -- the word arithmetic is the arithmetic of naturals, and both sides read signed are the naturals themselves
  rw [← BitVec.ofNat_mul, ← BitVec.ofNat_add, BitVec.slt, toInt_ofNat_small _ (by omega), toInt_ofNat_small _ hn]
  by_cases h : v * W + j.val < n
  · have h' : ((v * W + j.val : ℕ) : ℤ) < (n : ℤ) := by exact_mod_cast h
    rw [if_pos h, decide_eq_true h']
    rfl
  · have h' : ¬ ((v * W + j.val : ℕ) : ℤ) < (n : ℤ) := by exact_mod_cast h
    rw [if_neg h, decide_eq_false h']
    rfl

/-- A vector [b] cast to a row [1, b] and spread down the rows to [a, b] reads, at (p, j), the vector's entry j. -/
theorem row_bcast_apply {α : Type} {a b : ℕ} (x : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (j : Fin b) :
    broadcastTo ⟨2, ![a, b]⟩ (shapeCast ⟨2, ![1, b]⟩ x hc) hb (ix2 p j) = x (ix1 j) := by
  rw [broadcastTo_1b_ab_apply, shapeCast_a_1a_apply]

/-- The column test at 1008 rows, tiles of 4096 columns, fewer than 13 tiles and 50257 columns in all. -/
example (v : ℕ) (hv : v < 13) (p : Fin 1008) (j : Fin 4096) :
    cmpi .slt (addi (broadcast ⟨2, ![1008, 4096]⟩ (Scalar.muli (BitVec.ofNat 32 v) 4096#32))
        (iota .tc ⟨2, ![1008, 4096]⟩ 32 [1] (by decide))) (broadcast ⟨2, ![1008, 4096]⟩ 50257#32) (ix2 p j)
      = if v * 4096 + j.val < 50257 then 1#1 else 0#1 :=
  col_lt_apply (by decide) v 4096 50257 (by omega) (by norm_num) p j

end Cert.TileMask
end
-- ==== Proof.KiPayload.lean ====
import proofs.«181285_j85899345920311_2_alg».proof.Proof.Gen.KernelIdeal.Skeleton
import proofs.«181285_j85899345920311_2_alg».proof.Proof.LibDenseLayer
import proofs.«181285_j85899345920311_2_alg».proof.Proof.LibRowReduce
import proofs.«181285_j85899345920311_2_alg».proof.Proof.LibKeepdims
import proofs.«181285_j85899345920311_2_alg».proof.Proof.LibTileMask
import Idealize.ShloMosaic.PureOps.IdealRules
import Idealize.ShloMosaic.Lib.ValueIdx
import Idealize.ShloMosaic.Lib.Pipeline.Value

noncomputable section

namespace Cert.KernelIdeal.Pay

open Cert.KernelIdeal Cert.KernelIdeal.Gen
open Idealize.ShloMosaic Idealize.ShloMosaic.ValueIdx

/-- The kernels' fill constant denotes -∞: the certificate's table says so. -/
theorem neg_big : Named.named (F := Ideal) κ "neg_big" (φ := .f32) 0xFF333332#32 = (⊥ : EReal) :=
  IdealRules.named_const.ideal_named_scalar _ _ _ _ rfl

/-- One tile of masked logits, as both kernels compute it: rows of hidden states times the tile's decoder columns, plus the
    columns' biases, and -∞ in the columns at or beyond the vocabulary's size (tile `v` holds columns `4096 v …`). -/
def maskedLogits (v : ℕ) (x0 : Vec Ideal S1008x256 .bf16) (x1 : Vec Ideal S256x4096 .bf16) (x2 : Vec Ideal S4096 .f32) : FVec Ideal S1008x4096 .f32 :=
  select (cmpi .slt (addi (broadcast S1008x4096 (Scalar.muli (BitVec.ofNat 32 v) 4096#32)) (iota .tc S1008x4096 32 [1] iota_S1008x4096_d1_w32)) (broadcast S1008x4096 50257#32))
    (addf (matmul (φ₁ := .bf16) (φ₂ := .bf16) dot_S1008x256_S256x4096_S1008x4096_1_0_0_1_n_n none (shapeCast S1008x256 x0 shapeCasts_S1008x256_S1008x256) (shapeCast S256x4096 x1 shapeCasts_S256x4096_S256x4096) (constant S1008x4096 .f32 0x00000000#32))
      (broadcastTo S1008x4096 (shapeCast S1x4096 (shapeCast S4096 x2 shapeCasts_S4096_S4096) shapeCasts_S4096_S1x4096) broadcasts_S1x4096_S1008x4096))
    (broadcast S1008x4096 (Named.named κ "neg_big" 0xFF333332#32))

/-- The first kernel's accumulation payload is the old column plus the row sums of the exponentials of the tile's masked logits. -/
theorem pay2_eq (i : grid0.Coords) (x0 : Vec Ideal S1008x256 .bf16) (x1 : Vec Ideal S256x4096 .bf16) (x2 : Vec Ideal S4096 .f32) (x21 : Vec Ideal S1008x1 .f32) :
    k0_pay2 (F := Ideal) i x0 x1 x2 x21
      = shapeCast S1008x1 (addf x21 (shapeCast S1008x1 (multiReduction .add [1] S1008 (exp (maskedLogits (i 1).val x0 x1 x2)) 0x00000000#32 reduces_S1008x4096_S1008 (.inl rfl) rfl) shapeCasts_S1008_S1008x1)) shapeCasts_S1008x1_S1008x1 := rfl

/-- The second kernel's payload is the tile's masked logits minus the rows' log-sum-exp column spread along the rows. -/
theorem outpay_eq (i : grid1.Coords) (x0 : Vec Ideal S1008x256 .bf16) (x1 : Vec Ideal S256x4096 .bf16) (x2 : Vec Ideal S4096 .f32) (x3 : Vec Ideal S1008x1 .f32) :
    k1_pay1 (F := Ideal) i x0 x1 x2 x3
      = subf (maskedLogits (i 1).val x0 x1 x2) (broadcastTo S1008x4096 (shapeCast S1008x1 x3 shapeCasts_S1008x1_S1008x1) broadcasts_S1008x1_S1008x4096) := rfl

/-- A tile's masked logits at row p, column j: the row's dot product with the column plus the column's bias, or -∞ beyond the vocabulary. -/
theorem maskedLogits_apply (v : ℕ) (hv : v < 13) (x0 : Vec Ideal S1008x256 .bf16) (x1 : Vec Ideal S256x4096 .bf16) (x2 : Vec Ideal S4096 .f32) (p : Fin 1008) (j : Fin 4096) :
    maskedLogits v x0 x1 x2 (ix2 p j)
      = if v * 4096 + j.val < 50257 then (∑ k : Fin 256, x0 (ix2 p k) * x1 (ix2 k j)) + x2 (ix1 j) else ⊥ := by
  have hj := j.isLt
  -- the column test reads 1 exactly on the columns below the vocabulary's size
  have hc : cmpi .slt (addi (broadcast S1008x4096 (Scalar.muli (BitVec.ofNat 32 v) 4096#32)) (iota .tc S1008x4096 32 [1] iota_S1008x4096_d1_w32))
      (broadcast S1008x4096 50257#32) (ix2 p j) = if v * 4096 + j.val < 50257 then 1#1 else 0#1 :=
    Cert.TileMask.col_lt_apply (a := 1008) (b := 4096) iota_S1008x4096_d1_w32 v 4096 50257 (by omega) (by norm_num) p j
  -- the product into the zero accumulator reads the row's dot product with the column
  have hm : matmul (F := Ideal) (φ₁ := .bf16) (φ₂ := .bf16) dot_S1008x256_S256x4096_S1008x4096_1_0_0_1_n_n none (shapeCast S1008x256 x0 shapeCasts_S1008x256_S1008x256)
      (shapeCast S256x4096 x1 shapeCasts_S256x4096_S256x4096) (constant S1008x4096 .f32 0x00000000#32) (ix2 p j)
        = ∑ k : Fin 256, x0 (ix2 p k) * x1 (ix2 k j) := by
    rw [shapeCast_self, shapeCast_self]
    exact Cert.DenseLayer.matmul_rows_cols dot_S1008x256_S256x4096_S1008x4096_1_0_0_1_n_n rfl rfl (fun _ _ => rfl) (fun _ _ => rfl)
      (fun _ _ => rfl) (fun _ _ => rfl) none x0 x1 p j
  -- the bias row spread down the rows reads the column's bias
  have hb : broadcastTo S1008x4096 (shapeCast S1x4096 (shapeCast S4096 x2 shapeCasts_S4096_S4096) shapeCasts_S4096_S1x4096) broadcasts_S1x4096_S1008x4096 (ix2 p j)
      = x2 (ix1 j) := by
    rw [shapeCast_self]
    exact Cert.TileMask.row_bcast_apply x2 shapeCasts_S4096_S1x4096 broadcasts_S1x4096_S1008x4096 p j
  unfold maskedLogits
  rw [select_apply, hc, addf_apply, hm, hb, broadcast_apply, neg_big]
  by_cases h : v * 4096 + j.val < 50257
  · rw [if_pos h, if_pos h, select_one]
  · rw [if_neg h, if_neg h, select_zero]

/-- The zero column. -/
theorem pay1_apply (p : Fin 1008) (u : Fin 1) : k0_pay1 (F := Ideal) (ix2 p u) = 0 := by
  show shapeCast S1008x1 (broadcast S1008x1 (Scalar.ofBits (F := Ideal) .f32 0x00000000#32)) shapeCasts_S1008x1_S1008x1 (ix2 p u) = 0
  rw [shapeCast_self, broadcast_apply]
  exact Ideal.ofBits_zero_f32

/-- The accumulation payload at row p: the old column's entry plus the sum over the tile's columns of the exponentials of the masked logits. -/
theorem pay2_apply (i : grid0.Coords) (hv : (i 1).val < 13) (x0 : Vec Ideal S1008x256 .bf16) (x1 : Vec Ideal S256x4096 .bf16) (x2 : Vec Ideal S4096 .f32) (x21 : Vec Ideal S1008x1 .f32) (p : Fin 1008) (u : Fin 1) :
    k0_pay2 (F := Ideal) i x0 x1 x2 x21 (ix2 p u) = x21 (ix2 p u) + ∑ j : Fin 4096, Ideal.exp (maskedLogits (i 1).val x0 x1 x2 (ix2 p j)) := by
  rw [pay2_eq, shapeCast_self]
  -- the sum at an entry is the sum of the entries; the old column's entry is untouched
  refine congrArg (x21 (ix2 p u) + ·) ?_
  -- the row sums, cast to a column, read at (p, u) the sum of row p
  refine (Cert.Keepdims.shapeCast_a_a1_apply _ _ p u).trans ?_
  refine (Cert.RowReduce.rowSum_apply _ _ _ _ _ p).trans ?_
  rfl

/-- The logarithm payload at an entry. -/
theorem pay3_apply (x : Vec Ideal S1008x1 .f32) (y : S1008x1.Idx) : k0_pay3 (F := Ideal) x y = Ideal.log (x y) := rfl

/-- The second kernel's payload at row p, column j: the masked logit minus the row's log-sum-exp entry. -/
theorem outpay_apply (i : grid1.Coords) (x0 : Vec Ideal S1008x256 .bf16) (x1 : Vec Ideal S256x4096 .bf16) (x2 : Vec Ideal S4096 .f32) (x3 : Vec Ideal S1008x1 .f32) (p : Fin 1008) (j : Fin 4096) :
    k1_pay1 (F := Ideal) i x0 x1 x2 x3 (ix2 p j) = maskedLogits (i 1).val x0 x1 x2 (ix2 p j) - x3 (ix2 p (0 : Fin 1)) := by
  rw [outpay_eq, shapeCast_self]
  -- a difference at an entry is the difference of the entries; the column spread along the rows reads its entry p
  exact congrArg (maskedLogits (i 1).val x0 x1 x2 (ix2 p j) - ·)
    (Cert.Keepdims.broadcastTo_a1_ab_apply x3 broadcasts_S1008x1_S1008x4096 p j)

end Cert.KernelIdeal.Pay

end
-- ==== Proof.KiLseValue.lean ====
import proofs.«181285_j85899345920311_2_alg».proof.Proof.KiLsePieces
import proofs.«181285_j85899345920311_2_alg».proof.Proof.KiBlocks
import proofs.«181285_j85899345920311_2_alg».proof.Proof.KiPayload
import Idealize.ShloMosaic.Lib.ValueIdx
import Idealize.ShloMosaic.Lib.Pipeline.Value

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! The first pipeline's result, read as one function of its arrays: entry `r` of the log-sum-exp column is the logarithm
of the sum, over the thirteen tiles in order, of the row's exponentials of the masked logits. The scratch column after a point
is the running sum up to the point's tile (induction over the points); the last tile's point stores its logarithm; the
thirteenth points' blocks cover the column. -/

variable (V : (c : Dev nD) → (b : Ref sig .tc) → Buf (Elt Ideal) ((c : Thread nD τ).loc b))

/-- Row `p`'s sum over the tile of point `n`: the exponentials of the tile's masked logits. -/
def rowTile (c : Dev nD) (n : ℕ) (p : Fin 1008) : EReal :=
  if h : n < cfg0.N then
    ∑ j : Fin 4096, Ideal.exp (Pay.maskedLogits ((grid0.coords ⟨n, h⟩) 1).val (iblk0 V c 0 ⟨n, h⟩) (iblk0 V c 1 ⟨n, h⟩) (iblk0 V c 2 ⟨n, h⟩) (ix2 p j))
  else 0

theorem coords1_eq (t : Fin cfg0.N) : ((grid0.coords t) 1).val = t.val % 13 := (idx_facts0 t).2.2.2.2.2.2.2
theorem coords1_lt (t : Fin cfg0.N) : ((grid0.coords t) 1).val < 13 := by rw [coords1_eq]; exact Nat.mod_lt _ (by decide)

/-- One accumulation step at an entry. -/
theorem sout_step (c : Dev nD) (t : Fin cfg0.N) (x21 : Vec Ideal S1008x1 .f32) (p : Fin 1008) (u : Fin 1) :
    k0_pay2 (F := Ideal) (grid0.coords t) (iblk0 V c 0 t) (iblk0 V c 1 t) (iblk0 V c 2 t) x21 (ix2 p u) = x21 (ix2 p u) + rowTile V c t.val p := by
  refine (Pay.pay2_apply (grid0.coords t) (coords1_lt t) (iblk0 V c 0 t) (iblk0 V c 1 t) (iblk0 V c 2 t) x21 p u).trans ?_
  unfold rowTile
  rw [dif_pos t.isLt]

theorem acc_first (c : Dev nD) (t : Fin cfg0.N) (h0 : t.val % 13 = 0) (p : Fin 1008) (u : Fin 1) :
    (outsAt0 V c t.val t.isLt).2 (ix2 p u) = 0 + rowTile V c t.val p := by
  have h1 : ¬t.val % 13 = 12 := by omega
  rw [outsAt0_A V c t h0 h1]
  show soutA V c t h0 h1 (ix2 p u) = _
  rw [soutA_eq]
  refine (sout_step V c t _ p u).trans ?_
  rw [Pay.pay1_apply]

theorem acc_next (c : Dev nD) (t : Fin cfg0.N) (h0 : ¬t.val % 13 = 0) (p : Fin 1008) (u : Fin 1) :
    (outsAt0 V c t.val t.isLt).2 (ix2 p u)
      = (outsAt0 V c (t.val - 1) (Nat.lt_of_le_of_lt (Nat.sub_le _ _) t.isLt)).2 (ix2 p u) + rowTile V c t.val p := by
  by_cases h1 : t.val % 13 = 12
  · rw [outsAt0_C V c t h0 h1]
    show soutC V c t h0 h1 _ (ix2 p u) = _
    rw [soutC_eq]
    exact sout_step V c t _ p u
  · rw [outsAt0_B V c t h0 h1]
    show soutB V c t h0 h1 _ (ix2 p u) = _
    rw [soutB_eq]
    exact sout_step V c t _ p u

/-- THE RUNNING SUM: after point `n` the scratch column's entry `p` is the sum of the row's tile sums from the first tile of
    `n`'s row block up to `n`'s tile. -/
theorem acc_eq (c : Dev nD) (p : Fin 1008) (u : Fin 1) : ∀ (n : ℕ) (hn : n < cfg0.N),
    (outsAt0 V c n hn).2 (ix2 p u) = 0 + ∑ s ∈ Finset.range (n % 13 + 1), rowTile V c (n - n % 13 + s) p := by
  intro n
  induction n with
  | zero =>
    intro hn
    refine (acc_first V c ⟨0, hn⟩ (Nat.zero_mod _) p u).trans ?_
    simp
  | succ n ih =>
    intro hn
    by_cases h0 : (n + 1) % 13 = 0
    · refine (acc_first V c ⟨n + 1, hn⟩ h0 p u).trans ?_
      rw [h0]
      simp
    · refine (acc_next V c ⟨n + 1, hn⟩ h0 p u).trans ?_
      have e1 : (n + 1) % 13 = n % 13 + 1 := by omega
      have e2 : n + 1 - (n % 13 + 1) = n - n % 13 := by omega
      have e3 : n - n % 13 + (n % 13 + 1) = n + 1 := by omega
      show (outsAt0 V c (n + 1 - 1) _).2 (ix2 p u) + rowTile V c (n + 1) p = _
      rw [show (outsAt0 V c (n + 1 - 1) (Nat.lt_of_le_of_lt (Nat.sub_le _ _) hn)).2 (ix2 p u) = (outsAt0 V c n (Nat.lt_of_succ_lt hn)).2 (ix2 p u) from rfl]
      rw [ih (Nat.lt_of_succ_lt hn), e1, e2, Finset.sum_range_succ _ (n % 13 + 1), e3, add_assoc]

/-- At a last tile's point the output block's entry `p` is the logarithm of the row's sum over the thirteen tiles. -/
theorem out_eq (c : Dev nD) (t : Fin cfg0.N) (h1 : t.val % 13 = 12) (p : Fin 1008) (u : Fin 1) :
    (outsAt0 V c t.val t.isLt).1 (ix2 p u) = Ideal.log (0 + ∑ s ∈ Finset.range 13, rowTile V c (t.val - 12 + s) p) := by
  have h0 : ¬t.val % 13 = 0 := by omega
  rw [outsAt0_C V c t h0 h1]
  show outC V c t h0 h1 _ (ix2 p u) = _
  rw [outC_eq, Pay.pay3_apply]
  refine congrArg Ideal.log ?_
  refine (sout_step V c t _ p u).trans ?_
  rw [acc_eq V c p u (t.val - 1) _]
  have e1 : (t.val - 1) % 13 = 11 := by omega
  have e2 : t.val - 1 - 11 = t.val - 12 := by omega
  have e3 : t.val - 12 + 12 = t.val := by omega
  rw [e1, e2, Finset.sum_range_succ _ 12, e3, add_assoc]

end Cert.KernelIdeal.Hand

end
-- ==== Proof.KiLseFinal.lean ====
import proofs.«181285_j85899345920311_2_alg».proof.Proof.KiLseValue
import Idealize.ShloMosaic.Lib.ValueIdx
import Idealize.ShloMosaic.Lib.Pipeline.Value

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! The first pipeline's result as one function of the arrays it reads: the padded logit of row `r` and column `q` (the
row's dot product with the decoder column plus its bias; -∞ at the padded columns), a tile's row sum in those terms, and
the log-sum-exp column — what every last-tile point writes back is its block of that column, and those blocks cover it. -/

variable (V : (c : Dev nD) → (b : Ref sig .tc) → Buf (Elt Ideal) ((c : Thread nD τ).loc b))

/-- The arrays the pipelines read, as extended-real functions of their indices: the hidden states, the transposed and padded
    decoder matrix, the padded bias, and (the second pipeline only) the log-sum-exp column. -/
abbrev arrH (c : Dev nD) : S2016x256.Idx → EReal := V c main_v29
abbrev arrW (c : Dev nD) : S256x53248.Idx → EReal := V c main_v32
abbrev arrB (c : Dev nD) : S53248.Idx → EReal := V c main_v33
abbrev arrL (c : Dev nD) : S2016x1.Idx → EReal := V c main_v34

/-- The logit of row `r` at padded column `q`: -∞ at and beyond the vocabulary's size. -/
def logitPad (c : Dev nD) (r : Fin 2016) (q : ℕ) : EReal :=
  if h : q < 53248 then
    (if q < 50257 then (∑ k : Fin 256, arrH V c (ix2 r k) * arrW V c (ix2 k ⟨q, h⟩)) + arrB V c (ix1 ⟨q, h⟩) else ⊥)
  else ⊥

/-- A tile's row sum in terms of the arrays: point `t` is row block `t / 13`, tile `t mod 13`. -/
theorem rowTile_global (c : Dev nD) (t : Fin cfg0.N) (p : Fin 1008) (r : Fin 2016) (hr : r.val = t.val / 13 * 1008 + p.val) :
    rowTile V c t.val p = ∑ j : Fin 4096, Ideal.exp (logitPad V c r (t.val % 13 * 4096 + j.val)) := by
  unfold rowTile
  rw [dif_pos t.isLt]
  refine Finset.sum_congr rfl fun j _ => congrArg Ideal.exp ?_
  refine (Pay.maskedLogits_apply _ (coords1_lt t) (iblk0 V c 0 t) (iblk0 V c 1 t) (iblk0 V c 2 t) p j).trans ?_
  have hq : t.val % 13 * 4096 + j.val < 53248 := by
    have := Nat.mod_lt t.val (show 0 < 13 by decide); have := j.isLt; omega
  unfold logitPad
  rw [dif_pos hq, coords1_eq t]
  refine if_congr Iff.rfl ?_ rfl
  exact congrArg₂ (fun a b : EReal => a + b)
    (Finset.sum_congr rfl fun k _ => congrArg₂ (fun a b : EReal => a * b) (iblk0_0_apply V c t p k r hr) (iblk0_1_apply V c t k j ⟨_, hq⟩ rfl))
    (iblk0_2_apply V c t j ⟨_, hq⟩ rfl)

/-- The log-sum-exp column: entry `r` is the logarithm of the sum, tile by tile, of the row's exponentials of the padded logits. -/
def lseFn (c : Dev nD) : S2016x1.Idx → EReal :=
  fun i => Ideal.log (0 + ∑ s ∈ Finset.range 13, ∑ j : Fin 4096, Ideal.exp (logitPad V c (i 0) (s * 4096 + j.val)))

/-- WHAT A LAST-TILE POINT WRITES BACK is its block of the log-sum-exp column. -/
theorem flushed0_eq (c : Dev nD) (t : Fin cfg0.N) (hf : (cfg0.win 3).flush t = true) :
    (dat0 V c).flushed 3 t = ((cfg0.win 3).blk t).view.read (Elt Ideal) (lseFn V c) := by
  have h1 : t.val % 13 = 12 := (flush0_3 t).mp hf
  show (cfg0.win 3).cut (grid0.coords t) ((dat0 V c).after 3 t) = _
  rw [after0_3]
  funext y
  obtain ⟨p, u, rfl⟩ : ∃ (p : Fin 1008) (u : Fin 1), y = ix2 p u := ⟨y 0, y 1, eq_ix2 y⟩
  show (outsAt0 V c t.val t.isLt).1 (ix2 p u) = lseFn V c (((cfg0.win 3).blk t).view.emb (ix2 p u))
  rw [out_eq V c t h1 p u]
  unfold lseFn
  refine congrArg Ideal.log (congrArg (0 + ·) (Finset.sum_congr rfl fun s hs => ?_))
  have hs' : s < 13 := Finset.mem_range.mp hs
  have hN : cfg0.N = 26 := N_0
  have hts : t.val - 12 + s < cfg0.N := by have := t.isLt; omega
  obtain ⟨-, -, -, -, -, e5, -⟩ := idx_facts0 t
  have hrow : ((((cfg0.win 3).blk t).view.emb (ix2 p u)) 0).val = (t.val - 12 + s) / 13 * 1008 + p.val := by
    show win0_3.index t (0 : Fin 2) * 1008 + 1 * p.val = _
    have := t.isLt; omega
  refine (rowTile_global V c ⟨t.val - 12 + s, hts⟩ p ((((cfg0.win 3).blk t).view.emb (ix2 p u)) 0) hrow).trans ?_
  have hmod : (t.val - 12 + s) % 13 = s := by have := t.isLt; omega
  show ∑ j : Fin 4096, Ideal.exp (logitPad V c _ ((t.val - 12 + s) % 13 * 4096 + j.val)) = _
  rw [hmod]

theorem mem_blk0 (t : Fin cfg0.N) (i : S2016x1.Idx) :
    i ∈ ((cfg0.win 3).blk t).view.set ↔ ∀ a : Fin 2, win0_3.index t a * S1008x1.size a ≤ (i a).val ∧ (i a).val < win0_3.index t a * S1008x1.size a + S1008x1.size a := by
  show i ∈ ((View.whole main_v34).slice (win0_3.rect t)).set ↔ _
  rw [View.set_slice_whole, Rect.mem_set_unit]
  exact Iff.rfl

/-- Every entry of the column is in some last-tile point's block. -/
theorem cover0 (i : S2016x1.Idx) : ∃ t : Fin cfg0.N, (cfg0.win 3).flush t = true ∧ i ∈ ((cfg0.win 3).blk t).view.set := by
  have hi0 : (i 0).val < 2016 := (i 0).isLt
  have hi1 : (i 1).val < 1 := (i 1).isLt
  have hN : cfg0.N = 26 := N_0
  have ht : (i 0).val / 1008 * 13 + 12 < cfg0.N := by omega
  refine ⟨⟨(i 0).val / 1008 * 13 + 12, ht⟩, (flush0_3 _).mpr (by show ((i 0).val / 1008 * 13 + 12) % 13 = 12; omega), ?_⟩
  rw [mem_blk0]
  obtain ⟨-, -, -, -, -, e5, e6, -⟩ := idx_facts0 ⟨(i 0).val / 1008 * 13 + 12, ht⟩
  intro a
  match a with
  | ⟨0, _⟩ =>
    show win0_3.index ⟨(i 0).val / 1008 * 13 + 12, ht⟩ (0 : Fin 2) * 1008 ≤ (i 0).val ∧ (i 0).val < win0_3.index ⟨(i 0).val / 1008 * 13 + 12, ht⟩ (0 : Fin 2) * 1008 + 1008
    have e5' : win0_3.index ⟨(i 0).val / 1008 * 13 + 12, ht⟩ (0 : Fin 2) = ((i 0).val / 1008 * 13 + 12) / 13 := e5
    omega
  | ⟨1, _⟩ =>
    show win0_3.index ⟨(i 0).val / 1008 * 13 + 12, ht⟩ (1 : Fin 2) * 1 ≤ (i 1).val ∧ (i 1).val < win0_3.index ⟨(i 0).val / 1008 * 13 + 12, ht⟩ (1 : Fin 2) * 1 + 1
    omega

/-- THE COLUMN after the first pipeline's run. -/
theorem final0 (c : Dev nD) : (dat0 V c).arrAt 3 cfg0.N = lseFn V c :=
  (dat0 V c).arrAt_eq_of_cover 3 (lseFn V c) (fun t hf => flushed0_eq V c t hf) (cover0)

end Cert.KernelIdeal.Hand

end
-- ==== Proof.KiOutFinal.lean ====
import proofs.«181285_j85899345920311_2_alg».proof.Proof.KiLseFinal
import proofs.«181285_j85899345920311_2_alg».proof.Proof.KiOut
import Idealize.ShloMosaic.Lib.ValueIdx
import Idealize.ShloMosaic.Lib.Pipeline.Value

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! The second pipeline's result as one function of the arrays it reads: entry (r, q) is the logit of row `r` and column
`q` minus entry `r` of the log-sum-exp column. What point `t` writes back is the part of its block inside the array (the
last tile of columns overhangs the vocabulary's size and is cut there), read off that function; the blocks cover the array. -/

variable (V : (c : Dev nD) → (b : Ref sig .tc) → Buf (Elt Ideal) ((c : Thread nD τ).loc b))

/-- The log-probabilities as a function of the arrays the second pipeline reads. -/
def outFn (c : Dev nD) : S2016x50257.Idx → EReal :=
  fun i => logitPad V c (i 0) (i 1).val - arrL V c (ix2 (i 0) (0 : Fin 1))

theorem coords1_eq' (t : Fin cfg1.N) : ((grid1.coords t) 1).val = t.val % 13 := (idx_facts1 t).2.2.2.2.2.2.2.2.2
theorem coords1_lt' (t : Fin cfg1.N) : ((grid1.coords t) 1).val < 13 := by rw [coords1_eq']; exact Nat.mod_lt _ (by decide)

/-- WHAT POINT `t` WRITES BACK is its (cut) block of `outFn`. -/
theorem flushed1_eq (c : Dev nD) (t : Fin cfg1.N) :
    (dat1 V c).flushed 4 t = ((cfg1.win 4).blk t).view.read (Elt Ideal) (outFn V c) := by
  show (cfg1.win 4).cut (grid1.coords t) ((dat1 V c).after 4 t) = _
  rw [after1_4]
  unfold outBlock
  rw [View.canon_unit_zero hz2]
  simp only [View.ld_unit_zero (S := S1008x256) hz2, View.ld_unit_zero (S := S256x4096) hz2, View.ld_unit_zero (S := S4096) hz1,
    View.ld_unit_zero (S := S1008x1) hz2]
  funext y
  have hy0 : (y 0).val < 1008 := Nat.lt_of_lt_of_le (y 0).isLt ((cfg1.win 4).xsize_le (grid1.coords t) 0)
  have hy1 : (y 1).val < 4096 := Nat.lt_of_lt_of_le (y 1).isLt ((cfg1.win 4).xsize_le (grid1.coords t) 1)
  obtain ⟨e0, e1, e2, e3, e4, e5, e6, e7, e8, e9⟩ := idx_facts1 t
  have hr : ((((cfg1.win 4).blk t).view.emb y) 0).val = t.val / 13 * 1008 + (y 0).val := by
    show win1_4.index t (0 : Fin 2) * 1008 + 1 * (y 0).val = _; omega
  have hc : ((((cfg1.win 4).blk t).view.emb y) 1).val = t.val % 13 * 4096 + (y 1).val := by
    show win1_4.index t (1 : Fin 2) * 4096 + 1 * (y 1).val = _; omega
  have hc50 : t.val % 13 * 4096 + (y 1).val < 50257 := by
    rw [← hc]; exact ((((cfg1.win 4).blk t).view.emb y) 1).isLt
  have hxinj : (cfg1.win 4).xinj (grid1.coords t) y = ix2 (⟨(y 0).val, hy0⟩ : Fin 1008) (⟨(y 1).val, hy1⟩ : Fin 4096) :=
    funext fun a => by
      match a with
      | ⟨0, _⟩ => rfl
      | ⟨1, _⟩ => rfl
  show k1_pay1 (F := Ideal) (grid1.coords t) (iblk1 V c 0 t) (iblk1 V c 1 t) (iblk1 V c 2 t) (iblk1 V c 3 t) ((cfg1.win 4).xinj (grid1.coords t) y)
      = outFn V c (((cfg1.win 4).blk t).view.emb y)
  rw [hxinj]
  refine (Pay.outpay_apply (grid1.coords t) (iblk1 V c 0 t) (iblk1 V c 1 t) (iblk1 V c 2 t) (iblk1 V c 3 t) ⟨(y 0).val, hy0⟩ ⟨(y 1).val, hy1⟩).trans ?_
  refine (congrArg (· - _) (Pay.maskedLogits_apply _ (coords1_lt' t) (iblk1 V c 0 t) (iblk1 V c 1 t) (iblk1 V c 2 t) ⟨(y 0).val, hy0⟩ ⟨(y 1).val, hy1⟩)).trans ?_
  unfold outFn logitPad
  have hq : t.val % 13 * 4096 + (y 1).val < 53248 := by omega
  rw [coords1_eq' t, if_pos hc50]
  simp only [hc]
  rw [dif_pos hq, if_pos hc50]
  refine congrArg₂ (fun a b : EReal => a - b) (congrArg₂ (fun a b : EReal => a + b)
    (Finset.sum_congr rfl fun k _ => congrArg₂ (fun a b : EReal => a * b) (iblk1_0_apply V c t ⟨(y 0).val, hy0⟩ k _ hr) (iblk1_1_apply V c t k ⟨(y 1).val, hy1⟩ ⟨_, hq⟩ rfl))
    (iblk1_2_apply V c t ⟨(y 1).val, hy1⟩ ⟨_, hq⟩ rfl)) (iblk1_3_apply V c t ⟨(y 0).val, hy0⟩ 0 _ hr)

theorem mem_blk1 (t : Fin cfg1.N) (i : S2016x50257.Idx) :
    i ∈ ((cfg1.win 4).blk t).view.set ↔ ∀ a : Fin 2, win1_4.index t a * S1008x4096.size a ≤ (i a).val ∧ (i a).val < win1_4.index t a * S1008x4096.size a + (cfg1.win 4).xsize (grid1.coords t) a := by
  show i ∈ ((View.whole main_v35).slice (win1_4.rect t)).set ↔ _
  rw [View.set_slice_whole, Rect.mem_set_unit]
  exact Iff.rfl

/-- The cut widths, decided over the grid: a block keeps all its 1008 rows, and of its 4096 columns those below the vocabulary's size. -/
theorem xsize_facts1 : ∀ t : Fin cfg1.N, (cfg1.win 4).xsize (grid1.coords t) (0 : Fin 2) = 1008
    ∧ (cfg1.win 4).xsize (grid1.coords t) (1 : Fin 2) = min 4096 (50257 - t.val % 13 * 4096) :=
  (by decide +kernel : ∀ t : Fin grid1.N, _)

/-- Every entry of the result is in some point's block. -/
theorem cover1 (i : S2016x50257.Idx) : ∃ t : Fin cfg1.N, (cfg1.win 4).flush t = true ∧ i ∈ ((cfg1.win 4).blk t).view.set := by
  have hi0 : (i 0).val < 2016 := (i 0).isLt
  have hi1 : (i 1).val < 50257 := (i 1).isLt
  have hN : cfg1.N = 26 := N_1
  have ht : (i 0).val / 1008 * 13 + (i 1).val / 4096 < cfg1.N := by omega
  refine ⟨⟨(i 0).val / 1008 * 13 + (i 1).val / 4096, ht⟩, flush1_4 _, ?_⟩
  rw [mem_blk1]
  obtain ⟨-, -, -, -, -, -, -, e7, e8, -⟩ := idx_facts1 ⟨(i 0).val / 1008 * 13 + (i 1).val / 4096, ht⟩
  obtain ⟨x0, x1⟩ := xsize_facts1 ⟨(i 0).val / 1008 * 13 + (i 1).val / 4096, ht⟩
  have e7' : win1_4.index ⟨(i 0).val / 1008 * 13 + (i 1).val / 4096, ht⟩ (0 : Fin 2) = ((i 0).val / 1008 * 13 + (i 1).val / 4096) / 13 := e7
  have e8' : win1_4.index ⟨(i 0).val / 1008 * 13 + (i 1).val / 4096, ht⟩ (1 : Fin 2) = ((i 0).val / 1008 * 13 + (i 1).val / 4096) % 13 := e8
  have x1' : (cfg1.win 4).xsize (grid1.coords ⟨(i 0).val / 1008 * 13 + (i 1).val / 4096, ht⟩) (1 : Fin 2) = min 4096 (50257 - ((i 0).val / 1008 * 13 + (i 1).val / 4096) % 13 * 4096) := x1
  intro a
  match a with
  | ⟨0, _⟩ =>
    show win1_4.index ⟨(i 0).val / 1008 * 13 + (i 1).val / 4096, ht⟩ (0 : Fin 2) * 1008 ≤ (i 0).val ∧ (i 0).val < win1_4.index ⟨(i 0).val / 1008 * 13 + (i 1).val / 4096, ht⟩ (0 : Fin 2) * 1008 + (cfg1.win 4).xsize (grid1.coords ⟨(i 0).val / 1008 * 13 + (i 1).val / 4096, ht⟩) (0 : Fin 2)
    rw [x0, e7']; omega
  | ⟨1, _⟩ =>
    show win1_4.index ⟨(i 0).val / 1008 * 13 + (i 1).val / 4096, ht⟩ (1 : Fin 2) * 4096 ≤ (i 1).val ∧ (i 1).val < win1_4.index ⟨(i 0).val / 1008 * 13 + (i 1).val / 4096, ht⟩ (1 : Fin 2) * 4096 + (cfg1.win 4).xsize (grid1.coords ⟨(i 0).val / 1008 * 13 + (i 1).val / 4096, ht⟩) (1 : Fin 2)
    rw [x1', e8']; omega

/-- THE RESULT ARRAY after the second pipeline's run. -/
theorem final1 (c : Dev nD) : (dat1 V c).arrAt 4 cfg1.N = outFn V c :=
  (dat1 V c).arrAt_eq_of_cover 4 (outFn V c) (fun t _ => flushed1_eq V c t) (cover1)

end Cert.KernelIdeal.Hand

end
-- ==== Proof.KiValue.lean ====
import proofs.«181285_j85899345920311_2_alg».proof.Proof.KiRun
import proofs.«181285_j85899345920311_2_alg».proof.Proof.KiLseFinal
import proofs.«181285_j85899345920311_2_alg».proof.Proof.KiOutFinal
import Idealize.ShloMosaic.Lib.ValueIdx
import Idealize.ShloMosaic.Lib.Pipeline.Value

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! The idealized kernel's result after the run: the second pipeline's array is `outFn` of the arrays it was entered with;
of those the three the host operations prepared pass through the first pipeline unchanged and the fourth is the first
pipeline's log-sum-exp column. -/

variable (m : (ℓ : Loc nD τ sig) → Buf (Elt Ideal) ℓ) (ρ : Dev nD → PrngReg)

theorem VB_v29 (c : Dev nD) : VB m c main_v29 = VA m c main_v29 :=
  (WB_arr m c 0).trans (((dat0 (VA m) c).arrAt_in 0 rfl _).trans (A_eq0 (VA m) c 0))
theorem VB_v32 (c : Dev nD) : VB m c main_v32 = VA m c main_v32 :=
  (WB_arr m c 1).trans (((dat0 (VA m) c).arrAt_in 1 rfl _).trans (A_eq0 (VA m) c 1))
theorem VB_v33 (c : Dev nD) : VB m c main_v33 = VA m c main_v33 :=
  (WB_arr m c 2).trans (((dat0 (VA m) c).arrAt_in 2 rfl _).trans (A_eq0 (VA m) c 2))
theorem VB_v34 (c : Dev nD) : VB m c main_v34 = lseFn (VA m) c :=
  (WB_arr m c 3).trans (final0 (VA m) c)
theorem WC_v35 (c : Dev nD) : WC m c (Proc.devRef .tc main_v35) = outFn (VB m) c :=
  (WC_arr m c 4).trans (final1 (VB m) c)

/-- The result in terms of the arrays the host operations prepared. -/
theorem outFn_VB (c : Dev nD) (i : S2016x50257.Idx) :
    outFn (VB m) c i = logitPad (VA m) c (i 0) (i 1).val - lseFn (VA m) c (ix2 (i 0) (0 : Fin 1)) := by
  have eH : arrH (VB m) c = arrH (VA m) c := VB_v29 m c
  have eW : arrW (VB m) c = arrW (VA m) c := VB_v32 m c
  have eB : arrB (VB m) c = arrB (VA m) c := VB_v33 m c
  have eL : arrL (VB m) c = lseFn (VA m) c := VB_v34 m c
  unfold outFn logitPad
  rw [eH, eW, eB, eL]

/-- THE KERNEL'S RUN with its result named: every weakly fair execution terminates with the result array at `outFn` and the
    arguments as launched. -/
theorem kernel_run : θ_run defs (onTc (τ := τ) (main (F := Ideal))) ⟨m, fun _ => 0, ρ⟩ (fun r => ∀ c : Dev nD,
      r.2.mem ((c.tc : Thread nD τ).loc main_v35) = outFn (VB m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v35 (by decide))).trans (WC_v35 m c),
     (h c _ (mem_uc main_arg0 (by decide))).trans (WC_arg m c main_arg0 (by decide) (by decide) (by decide) (by decide) (by decide) (by decide)),
     (h c _ (mem_uc main_arg1 (by decide))).trans (WC_arg m c main_arg1 (by decide) (by decide) (by decide) (by decide) (by decide) (by decide)),
     (h c _ (mem_uc main_arg2 (by decide))).trans (WC_arg m c main_arg2 (by decide) (by decide) (by decide) (by decide) (by decide) (by decide)),
     (h c _ (mem_uc main_arg3 (by decide))).trans (WC_arg m c main_arg3 (by decide) (by decide) (by decide) (by decide) (by decide) (by decide)),
     (h c _ (mem_uc main_arg4 (by decide))).trans (WC_arg m c main_arg4 (by decide) (by decide) (by decide) (by decide) (by decide) (by decide)),
     (h c _ (mem_uc main_arg5 (by decide))).trans (WC_arg m c main_arg5 (by decide) (by decide) (by decide) (by decide) (by decide) (by decide))⟩)
    (run_all (F := Ideal) m ρ)

end Cert.KernelIdeal.Hand

end
-- ==== Proof.KiHost.lean ====
import proofs.«181285_j85899345920311_2_alg».proof.Proof.Gen.KernelIdeal.Regions
import proofs.«181285_j85899345920311_2_alg».proof.Proof.RefReadP
import Idealize.ShloMosaic.Lib.ValueIdx
import Idealize.ShloMosaic.Lib.Pipeline.Value
import Idealize.ShloMosaic.Lib.KernelVsHost
import Idealize.ShloMosaic.Lib.StableHlo.Run

set_option maxRecDepth 16384
set_option maxHeartbeats 4000000

noncomputable section

namespace Cert.KernelIdeal.Host

open Cert.KernelIdeal Cert.KernelIdeal.Gen
open Idealize.ShloMosaic Idealize.ShloMosaic.TcCoe Idealize.ShloMosaic.ValueIdx Idealize.ShloMosaic.StableHlo
open Idealize.SL Idealize.SL.Sem

/-! The three arrays the host operations before the pipelines prepare, as functions of the arguments: the hidden states
(the same operations, on the same arguments, as the reference's hidden states), the decoder matrix transposed and padded
with zero columns, the decoder bias padded with zeros. -/

variable (m : (ℓ : Loc nD τ sig) → Buf (Elt Ideal) ℓ)

/-- The hidden states the pipelines read are the reference's hidden-state stage of the same four arguments (the change of
    float format is the identity on extended reals). -/
theorem hidden_eq (c : Dev nD) :
    (Gen.V4 m c main_v29 : S2016x256.Idx → EReal) = fun i => (Cert.ReferenceIdeal.ReadP.val_main_v28 (F := Ideal)
      (m ((c : Thread nD τ).loc main_arg0)) (m ((c : Thread nD τ).loc main_arg1)) (m ((c : Thread nD τ).loc main_arg2)) (m ((c : Thread nD τ).loc main_arg3)) i : EReal) := by
  rw [Gen.V4_of m c main_v29 (by decide), Gen.V3_of m c main_v29 (by decide), Gen.V2_of m c main_v29 (by decide)]
  show (StableHlo.after hostOps0 (fun b => m (c, b)) (Proc.devRef .tc main_v29) : S2016x256.Idx → EReal) = _
  after_results_simp
  exact rfl

/-- The decoder matrix the pipelines read: the argument transposed and padded with 2991 zero columns. -/
theorem decW_fn (c : Dev nD) :
    (Gen.V4 m c main_v32 : S256x53248.Idx → EReal)
      = pad S256x53248 ![0, 0] ![0, 2991] ![0, 0]
          (transpose S256x50257 [1, 0] (truncf .bf16 (m (c, Proc.devRef .tc main_arg4)) bitsLt_bf16_f32) transposes_S50257x256_S256x50257_1_0)
          (sitofp (F := Ideal) .bf16 (constantI S_ 32 0#32)) pads_S256x50257_S256x53248_000_029910 h_S_ := by
  rw [Gen.V4_of m c main_v32 (by decide), Gen.V3_of m c main_v32 (by decide)]
  show (StableHlo.after hostOps0_1 (StableHlo.after hostOps0 (fun b => m (c, b))) (Proc.devRef .tc main_v32) : S256x53248.Idx → EReal) = _
  after_results_simp
  rfl

/-- Inside the vocabulary its entry (k, q) is the argument's entry (q, k). -/
theorem decW_apply (c : Dev nD) (k : Fin 256) (q : Fin 53248) (hq : q.val < 50257) :
    (Gen.V4 m c main_v32 : S256x53248.Idx → EReal) (ix2 k q)
      = (m ((c : Thread nD τ).loc main_arg4) : S50257x256.Idx → EReal) (ix2 (⟨q.val, hq⟩ : Fin 50257) k) := by
  rw [decW_fn]
  refine (pad_apply_of_inside ![0, 0] ![0, 2991] ![0, 0] _ _ pads_S256x50257_S256x53248_000_029910 h_S_ (ix2 k q)
    (ix2 k (⟨q.val, hq⟩ : Fin 50257)) (fun a => by
      match a with
      | ⟨0, _⟩ => show k.val = 0 + k.val * (0 + 1); omega
      | ⟨1, _⟩ => show q.val = 0 + q.val * (0 + 1); omega)).trans ?_
  refine (transpose_apply [1, 0] _ transposes_S50257x256_S256x50257_1_0 (ix2 k (⟨q.val, hq⟩ : Fin 50257)) (ix2 (⟨q.val, hq⟩ : Fin 50257) k)
    (fun b => by
      match b with
      | ⟨0, _⟩ => rfl
      | ⟨1, _⟩ => rfl)).trans ?_
  rfl

/-- The bias the pipelines read: the argument padded with 2991 zeros. -/
theorem decB_fn (c : Dev nD) :
    (Gen.V4 m c main_v33 : S53248.Idx → EReal)
      = pad S53248 ![0] ![2991] ![0] (m (c, Proc.devRef .tc main_arg5)) (sitofp (F := Ideal) .f32 (constantI S_ 32 0#32)) pads_S50257_S53248_029910 h_S_ := by
  show (StableHlo.after hostOps0_3 (StableHlo.after hostOps0_2 (StableHlo.after hostOps0_1 (StableHlo.after hostOps0 (fun b => m (c, b))))) (Proc.devRef .tc main_v33) : S53248.Idx → EReal) = _
  after_results_simp
  rfl

theorem decB_apply (c : Dev nD) (q : Fin 53248) (hq : q.val < 50257) :
    (Gen.V4 m c main_v33 : S53248.Idx → EReal) (ix1 q)
      = (m ((c : Thread nD τ).loc main_arg5) : S50257.Idx → EReal) (ix1 (⟨q.val, hq⟩ : Fin 50257)) := by
  rw [decB_fn]
  exact pad_apply_of_inside ![0] ![2991] ![0] _ _ pads_S50257_S53248_029910 h_S_ (ix1 q) (ix1 (⟨q.val, hq⟩ : Fin 50257)) (fun a => by
    match a with
    | ⟨0, _⟩ => show q.val = 0 + q.val * (0 + 1); omega)

end Cert.KernelIdeal.Host

end
-- ==== Proof.LibHostSoftmax.lean ====
/-
  The host's softmax over the rows of a matrix, read at an entry.

  For an [a, b] matrix `M` of extended reals scaled by a scalar `s`, the host computes, with the reduced axis kept as a
  unit axis and spread back over the row:
      m(p)   = max(n₁, the maximum over row p of M · s taken from n₀)        (n₀, n₁ scalars; −∞ where this is used)
      e(p,c) = exp(M(p,c) · s − m(p))
      out(p,c) = e(p,c) / (z + ∑ c', e(p,c'))                                (z a scalar; 0 where this is used)
  `rowMax_apply` and `rowSum_apply` read the two one-axis reductions at row p as a fold of max and a sum over the row's
  entries (a maximum commutes and associates, so the order the reduction visits the row in does not matter);
  `keepdims_apply` reads a vector placed as a column [a, 1] and spread to [a, b] at (p, c) as the vector's entry p;
  `scalar_apply` reads a scalar spread to any shape; `softmax_apply` puts them together. All are generic in a and b.
-/
import Idealize.ShloMosaic.PureOps.Ideal.Laws
import Idealize.ShloMosaic.PureOps.Reduce
import Idealize.ShloMosaic.Lib.ValueIdx
import Idealize.ShloMosaic.Lib.Pipeline.Value
import proofs.«181285_j85899345920311_2_alg».proof.Proof.LibMinReduce

noncomputable section

namespace Cert.HostSoftmax

open Idealize.ShloMosaic Idealize.ShloMosaic.ValueIdx

/-- A scalar spread to a shape reads the scalar at every index. -/
theorem scalar_apply {α : Type} {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun ax => ax.elim0

/-- A vector placed as a column [a, 1] and spread along the unit axis to [a, b] reads, at (p, c), the vector's entry p. -/
theorem keepdims_apply {α : Type} {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (c : Fin b) :
    broadcastInDim ⟨2, ![a, b]⟩ ![0, 1] h2 (broadcastInDim ⟨2, ![a, 1]⟩ ![0] h1 v) (ix2 p c) = v (ix1 p) := by
  refine (broadcastInDim_apply ![0, 1] h2 _ (ix2 p c) (ix2 p (0 : Fin 1)) fun ax => ?_).trans
    (broadcastInDim_apply ![0] h1 v (ix2 p (0 : Fin 1)) (ix1 p) fun ax => ?_)
  · match ax with
    | ⟨0, _⟩ =>
      show p.val = if a = 1 then 0 else p.val
      split
      · have := p.isLt; omega
      · rfl
    | ⟨1, _⟩ => show 0 = if (1 : ℕ) = 1 then 0 else c.val; rw [if_pos rfl]
  · match ax with
    | ⟨0, _⟩ =>
      show p.val = if a = 1 then 0 else p.val
      split
      · have := p.isLt; omega
      · rfl

/-- The host's maximum reduction along the rows, read at row p: the fold of max from the initial value over the row. -/
theorem rowMax_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  exact congrArg (fun f => Finset.fold max (init (Shape.Idx.first hu)) f (Finset.univ : Finset (Fin b)))
    (funext fun c => congrArg x (Cert.MinReduce.lift_cols h p c))

/-- The host's sum along the rows, read at row p: the initial value plus the sum of the row's entries. -/
theorem rowSum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ c : Fin b, x (ix2 p c) := by
  simp only [Host.reduceAdd, Ideal.hostReduceAdd_def]
  rw [Ideal.hostReduceAdd_single h' h]
  exact congrArg (_ + ·) (Finset.sum_congr rfl fun c _ => congrArg x (Cert.MinReduce.lift_cols h p c))

/-- The host's softmax of the rows of `M · s`, read at (p, c). -/
theorem softmax_apply {a b : ℕ} (M : FVec Ideal ⟨2, ![a, b]⟩ .f32) (sc n₀ n₁ z : (⟨0, ![]⟩ : Shape).Idx → Ideal .f32)
    (hs : (⟨0, ![]⟩ : Shape).BroadcastsInDim ⟨2, ![a, b]⟩ ![]) (hv : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1])
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) (c : Fin b) :
    Host.divf
        (Host.exp (subf (mulf M (broadcastInDim ⟨2, ![a, b]⟩ ![] hs sc))
          (broadcastInDim ⟨2, ![a, b]⟩ ![0, 1] h2 (broadcastInDim ⟨2, ![a, 1]⟩ ![0] h1
            (maximumf (broadcastInDim ⟨1, ![a]⟩ ![] hv n₁)
              (Host.reduce FloatOps.maximumf (mulf M (broadcastInDim ⟨2, ![a, b]⟩ ![] hs sc)) n₀ h' hu))))))
        (broadcastInDim ⟨2, ![a, b]⟩ ![0, 1] h2 (broadcastInDim ⟨2, ![a, 1]⟩ ![0] h1
          (Host.reduceAdd
            (Host.exp (subf (mulf M (broadcastInDim ⟨2, ![a, b]⟩ ![] hs sc))
              (broadcastInDim ⟨2, ![a, b]⟩ ![0, 1] h2 (broadcastInDim ⟨2, ![a, 1]⟩ ![0] h1
                (maximumf (broadcastInDim ⟨1, ![a]⟩ ![] hv n₁)
                  (Host.reduce FloatOps.maximumf (mulf M (broadcastInDim ⟨2, ![a, b]⟩ ![] hs sc)) n₀ h' hu))))))
            z h' hu)))
        (ix2 p c)
      = Ideal.div
          (Ideal.exp (M (ix2 p c) * sc ix0
            - max (n₁ ix0) ((Finset.univ : Finset (Fin b)).fold max (n₀ (Shape.Idx.first hu)) fun c' => M (ix2 p c') * sc ix0)))
          (z (Shape.Idx.first hu) + ∑ c'' : Fin b, Ideal.exp (M (ix2 p c'') * sc ix0
            - max (n₁ ix0) ((Finset.univ : Finset (Fin b)).fold max (n₀ (Shape.Idx.first hu)) fun c' => M (ix2 p c') * sc ix0))) := by
  -- the scaled scores at an entry, the row maximum spread back, the exponentials
  have hX : ∀ c' : Fin b, mulf M (broadcastInDim ⟨2, ![a, b]⟩ ![] hs sc) (ix2 p c') = M (ix2 p c') * sc ix0 := fun c' =>
    congrArg (M (ix2 p c') * ·) (scalar_apply sc ![] hs (ix2 p c'))
  have hK : ∀ c' : Fin b,
      broadcastInDim ⟨2, ![a, b]⟩ ![0, 1] h2 (broadcastInDim ⟨2, ![a, 1]⟩ ![0] h1
        (maximumf (broadcastInDim ⟨1, ![a]⟩ ![] hv n₁)
          (Host.reduce FloatOps.maximumf (mulf M (broadcastInDim ⟨2, ![a, b]⟩ ![] hs sc)) n₀ h' hu))) (ix2 p c')
        = max (n₁ ix0) ((Finset.univ : Finset (Fin b)).fold max (n₀ (Shape.Idx.first hu)) fun c'' => M (ix2 p c'') * sc ix0) := fun c' =>
    (keepdims_apply _ h1 h2 p c').trans (congrArg₂ max (scalar_apply n₁ ![] hv (ix1 p))
      ((rowMax_apply _ n₀ h' h hu p).trans
        (congrArg (fun f => Finset.fold max (n₀ (Shape.Idx.first hu)) f (Finset.univ : Finset (Fin b))) (funext hX))))
  have hE : ∀ c' : Fin b,
      Host.exp (subf (mulf M (broadcastInDim ⟨2, ![a, b]⟩ ![] hs sc))
        (broadcastInDim ⟨2, ![a, b]⟩ ![0, 1] h2 (broadcastInDim ⟨2, ![a, 1]⟩ ![0] h1
          (maximumf (broadcastInDim ⟨1, ![a]⟩ ![] hv n₁)
            (Host.reduce FloatOps.maximumf (mulf M (broadcastInDim ⟨2, ![a, b]⟩ ![] hs sc)) n₀ h' hu))))) (ix2 p c')
        = Ideal.exp (M (ix2 p c') * sc ix0
            - max (n₁ ix0) ((Finset.univ : Finset (Fin b)).fold max (n₀ (Shape.Idx.first hu)) fun c'' => M (ix2 p c'') * sc ix0)) := fun c' =>
    congrArg₂ (fun u v => Ideal.exp (u - v)) (hX c') (hK c')
  exact congrArg₂ Ideal.div (hE c)
    ((keepdims_apply _ h1 h2 p c).trans ((rowSum_apply _ z h' h hu p).trans
      (congrArg (z (Shape.Idx.first hu) + ·) (Finset.sum_congr rfl fun c' _ => hE c'))))

end Cert.HostSoftmax

end
-- ==== Proof.RefValue.lean ====
import proofs.«181285_j85899345920311_2_alg».proof.Proof.RefReadP
import proofs.«181285_j85899345920311_2_alg».proof.Proof.LibHostSoftmax

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The reference's hidden states (the stage before the decoder product), kept as one opaque function of the first four arguments. -/
abbrev hid (x0 : (⟨S256x8, .i32⟩ : BufTy).Contents (Elt Ideal)) (x1 : (⟨S50257x128, .f32⟩ : BufTy).Contents (Elt Ideal)) (x2 : (⟨S256x640, .f32⟩ : BufTy).Contents (Elt Ideal)) (x3 : (⟨S256, .f32⟩ : BufTy).Contents (Elt Ideal)) :
    (⟨S2016x256, .f32⟩ : BufTy).Contents (Elt Ideal) := ReadP.val_main_v28 (F := Ideal) x0 x1 x2 x3

/-- The reference's logits at (r, c). -/
def logit (x0 : (⟨S256x8, .i32⟩ : BufTy).Contents (Elt Ideal)) (x1 : (⟨S50257x128, .f32⟩ : BufTy).Contents (Elt Ideal)) (x2 : (⟨S256x640, .f32⟩ : BufTy).Contents (Elt Ideal)) (x3 : (⟨S256, .f32⟩ : BufTy).Contents (Elt Ideal)) (x4 : (⟨S50257x256, .f32⟩ : BufTy).Contents (Elt Ideal)) (x5 : (⟨S50257, .f32⟩ : BufTy).Contents (Elt Ideal)) (r : Fin 2016) (c : Fin 50257) : EReal :=
  (∑ k : Fin 256, hid x0 x1 x2 x3 (ix2 r k) * x4 (ix2 c k)) + x5 (ix1 c)

/-- The shift the reference subtracts in row r: the larger of -∞ and the row's maximum taken from -∞. -/
def rowMx (x0 : (⟨S256x8, .i32⟩ : BufTy).Contents (Elt Ideal)) (x1 : (⟨S50257x128, .f32⟩ : BufTy).Contents (Elt Ideal)) (x2 : (⟨S256x640, .f32⟩ : BufTy).Contents (Elt Ideal)) (x3 : (⟨S256, .f32⟩ : BufTy).Contents (Elt Ideal)) (x4 : (⟨S50257x256, .f32⟩ : BufTy).Contents (Elt Ideal)) (x5 : (⟨S50257, .f32⟩ : BufTy).Contents (Elt Ideal)) (r : Fin 2016) : EReal :=
  max (⊥ : EReal) ((Finset.univ : Finset (Fin 50257)).fold max ⊥ fun c' => logit x0 x1 x2 x3 x4 x5 r c')

/-- The pattern of negative infinity denotes -∞. -/
theorem ofBits_neg_inf : Ideal.ofBits .f32 0xFF800000#32 = (⊥ : EReal) := by simp [Ideal.ofBits, Ideal.ieee]

/-- The stage before the softmax reads the logits. -/
theorem v33_apply (x0 : (⟨S256x8, .i32⟩ : BufTy).Contents (Elt Ideal)) (x1 : (⟨S50257x128, .f32⟩ : BufTy).Contents (Elt Ideal)) (x2 : (⟨S256x640, .f32⟩ : BufTy).Contents (Elt Ideal)) (x3 : (⟨S256, .f32⟩ : BufTy).Contents (Elt Ideal)) (x4 : (⟨S50257x256, .f32⟩ : BufTy).Contents (Elt Ideal)) (x5 : (⟨S50257, .f32⟩ : BufTy).Contents (Elt Ideal)) (r : Fin 2016) (c : Fin 50257) :
    ReadP.val_main_v33 (F := Ideal) x0 x1 x2 x3 x4 x5 (ix2 r c) = logit x0 x1 x2 x3 x4 x5 r c := by
  rw [ReadP.val_main_v33_apply, ReadP.val_main_v30_apply, ReadP.val_main_v32_apply, ReadP.val_main_v31_apply]
  unfold logit
  refine congrArg₂ (fun u v : EReal => u + v) (Finset.sum_congr rfl fun k _ => ?_) ?_
  · rw [ReadP.val_main_v29_apply]
    -- the two operand indices of the product at (r, c), position k, are (r, k) and, through the transposition, (c, k)
    refine congrArg₂ (fun u v : EReal => u * v) (congrArg (ReadP.val_main_v28 (F := Ideal) x0 x1 x2 x3) ?_) (congrArg x4 ?_)
    · funext a; match a with | ⟨0, _⟩ => rfl | ⟨1, _⟩ => rfl
    · funext a; match a with | ⟨0, _⟩ => rfl | ⟨1, _⟩ => rfl
  · exact congrArg x5 (funext fun a => match a with | ⟨0, _⟩ => rfl)

/-- The host's log-softmax of the rows of a matrix M, read at (p, c): with m(p) the larger of n₁ and the maximum over row p of M taken
    from n₀, the entry is (M(p,c) - m(p)) - log (z + ∑ c', exp (M(p,c') - m(p))). Generic in the two extents. -/
theorem logSoftmax_apply {a b : ℕ} (M : FVec Ideal ⟨2, ![a, b]⟩ .f32) (n₀ n₁ z : (⟨0, ![]⟩ : Shape).Idx → Ideal .f32)
    (hv : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1])
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) (c : Fin b) :
    subf (subf M (broadcastInDim ⟨2, ![a, b]⟩ ![0, 1] h2 (broadcastInDim ⟨2, ![a, 1]⟩ ![0] h1
          (maximumf (broadcastInDim ⟨1, ![a]⟩ ![] hv n₁) (Host.reduce FloatOps.maximumf M n₀ h' hu)))))
        (broadcastInDim ⟨2, ![a, b]⟩ ![0, 1] h2 (Host.log (broadcastInDim ⟨2, ![a, 1]⟩ ![0] h1
          (Host.reduceAdd (Host.exp (subf M (broadcastInDim ⟨2, ![a, b]⟩ ![0, 1] h2 (broadcastInDim ⟨2, ![a, 1]⟩ ![0] h1
          (maximumf (broadcastInDim ⟨1, ![a]⟩ ![] hv n₁) (Host.reduce FloatOps.maximumf M n₀ h' hu)))))) z h' hu))))
        (ix2 p c)
      = (M (ix2 p c) - max (n₁ ix0) ((Finset.univ : Finset (Fin b)).fold max (n₀ (Shape.Idx.first hu)) fun c' => M (ix2 p c')))
          - Ideal.log (z (Shape.Idx.first hu) + ∑ c'' : Fin b, Ideal.exp (M (ix2 p c'') - max (n₁ ix0) ((Finset.univ : Finset (Fin b)).fold max (n₀ (Shape.Idx.first hu)) fun c' => M (ix2 p c')))) := by
  -- the row's shift spread back over the row, the shifted entries, their exponentials
  have hK : ∀ c' : Fin b, (broadcastInDim ⟨2, ![a, b]⟩ ![0, 1] h2 (broadcastInDim ⟨2, ![a, 1]⟩ ![0] h1
          (maximumf (broadcastInDim ⟨1, ![a]⟩ ![] hv n₁) (Host.reduce FloatOps.maximumf M n₀ h' hu)))) (ix2 p c') = max (n₁ ix0) ((Finset.univ : Finset (Fin b)).fold max (n₀ (Shape.Idx.first hu)) fun c' => M (ix2 p c')) := fun c' =>
    (Cert.HostSoftmax.keepdims_apply _ h1 h2 p c').trans
      (congrArg₂ max (Cert.HostSoftmax.scalar_apply n₁ ![] hv (ix1 p)) (Cert.HostSoftmax.rowMax_apply M n₀ h' h hu p))
  have hS : ∀ c' : Fin b, (subf M (broadcastInDim ⟨2, ![a, b]⟩ ![0, 1] h2 (broadcastInDim ⟨2, ![a, 1]⟩ ![0] h1
          (maximumf (broadcastInDim ⟨1, ![a]⟩ ![] hv n₁) (Host.reduce FloatOps.maximumf M n₀ h' hu))))) (ix2 p c') = M (ix2 p c') - max (n₁ ix0) ((Finset.univ : Finset (Fin b)).fold max (n₀ (Shape.Idx.first hu)) fun c' => M (ix2 p c')) := fun c' =>
    congrArg (fun v : EReal => M (ix2 p c') - v) (hK c')
  have hE : ∀ c' : Fin b, Host.exp (subf M (broadcastInDim ⟨2, ![a, b]⟩ ![0, 1] h2 (broadcastInDim ⟨2, ![a, 1]⟩ ![0] h1
          (maximumf (broadcastInDim ⟨1, ![a]⟩ ![] hv n₁) (Host.reduce FloatOps.maximumf M n₀ h' hu))))) (ix2 p c') = Ideal.exp (M (ix2 p c') - max (n₁ ix0) ((Finset.univ : Finset (Fin b)).fold max (n₀ (Shape.Idx.first hu)) fun c' => M (ix2 p c'))) := fun c' =>
    congrArg Ideal.exp (hS c')
  -- the column of logarithms of the row sums, spread along the row
  have hL : (broadcastInDim ⟨2, ![a, b]⟩ ![0, 1] h2 (Host.log (broadcastInDim ⟨2, ![a, 1]⟩ ![0] h1
      (Host.reduceAdd (Host.exp (subf M (broadcastInDim ⟨2, ![a, b]⟩ ![0, 1] h2 (broadcastInDim ⟨2, ![a, 1]⟩ ![0] h1
          (maximumf (broadcastInDim ⟨1, ![a]⟩ ![] hv n₁) (Host.reduce FloatOps.maximumf M n₀ h' hu)))))) z h' hu)))) (ix2 p c)
      = Ideal.log (z (Shape.Idx.first hu) + ∑ c'' : Fin b, Ideal.exp (M (ix2 p c'') - max (n₁ ix0) ((Finset.univ : Finset (Fin b)).fold max (n₀ (Shape.Idx.first hu)) fun c' => M (ix2 p c')))) := by
    refine (broadcastInDim_apply ![0, 1] h2 _ (ix2 p c) (ix2 p (0 : Fin 1)) fun ax => ?_).trans
      (congrArg Ideal.log ((broadcastInDim_apply ![0] h1 _ (ix2 p (0 : Fin 1)) (ix1 p) fun ax => ?_).trans
        ((Cert.HostSoftmax.rowSum_apply _ z h' h hu p).trans
          (congrArg (fun v : EReal => z (Shape.Idx.first hu) + v) (Finset.sum_congr rfl fun c' _ => hE c')))))
    · match ax with
      | ⟨0, _⟩ =>
        show p.val = if a = 1 then 0 else p.val
        split
        · have := p.isLt; omega
        · rfl
      | ⟨1, _⟩ => show 0 = if (1 : ℕ) = 1 then 0 else c.val; rw [if_pos rfl]
    · match ax with
      | ⟨0, _⟩ =>
        show p.val = if a = 1 then 0 else p.val
        split
        · have := p.isLt; omega
        · rfl
  exact congrArg₂ (fun u v : EReal => u - v) (hS c) hL

/-- The reference's result at (r, c): the shifted logit minus the logarithm of the sum of the shifted exponentials, the shift the row's maximum taken from -∞. -/
theorem refOut_apply (x0 : (⟨S256x8, .i32⟩ : BufTy).Contents (Elt Ideal)) (x1 : (⟨S50257x128, .f32⟩ : BufTy).Contents (Elt Ideal)) (x2 : (⟨S256x640, .f32⟩ : BufTy).Contents (Elt Ideal)) (x3 : (⟨S256, .f32⟩ : BufTy).Contents (Elt Ideal)) (x4 : (⟨S50257x256, .f32⟩ : BufTy).Contents (Elt Ideal)) (x5 : (⟨S50257, .f32⟩ : BufTy).Contents (Elt Ideal)) (r : Fin 2016) (c : Fin 50257) :
    ReadP.val_main_v34 (F := Ideal) x0 x1 x2 x3 x4 x5 (ix2 r c)
      = (logit x0 x1 x2 x3 x4 x5 r c - rowMx x0 x1 x2 x3 x4 x5 r)
          - Ideal.log (0 + ∑ c' : Fin 50257, Ideal.exp (logit x0 x1 x2 x3 x4 x5 r c' - rowMx x0 x1 x2 x3 x4 x5 r)) := by
  -- the three scalar constants of the inlined log-softmax: -∞, -∞ and 0
  have e0 : ReadP.val_main_call0_cst (F := Ideal) (Shape.Idx.first h_S_) = (⊥ : EReal) := ofBits_neg_inf
  have e1 : ReadP.val_main_call0_cst_0 (F := Ideal) ix0 = (⊥ : EReal) := ofBits_neg_inf
  have ez : ReadP.val_main_call0_cst_1 (F := Ideal) (Shape.Idx.first h_S_) = (0 : EReal) := Ideal.ofBits_zero_f32
  unfold ReadP.val_main_v34 ReadP.val_main_call0_v10 ReadP.val_main_call0_v9 ReadP.val_main_call0_v8 ReadP.val_main_call0_v7
    ReadP.val_main_call0_v6 ReadP.val_main_call0_v5 ReadP.val_main_call0_v4 ReadP.val_main_call0_v3 ReadP.val_main_call0_v2
    ReadP.val_main_call0_v1 ReadP.val_main_call0_v0
  refine (logSoftmax_apply (ReadP.val_main_v33 (F := Ideal) x0 x1 x2 x3 x4 x5) (ReadP.val_main_call0_cst (F := Ideal))
    (ReadP.val_main_call0_cst_0 (F := Ideal)) (ReadP.val_main_call0_cst_1 (F := Ideal)) bcast_S_S2016 bcast_S2016_S2016x1_0
    bcast_S2016x1_S2016x50257_0_1 reducesTo_S2016x50257_S2016_d1 (by decide) h_S_ r c).trans ?_
  -- the matrix is the logits', the constants as above
  simp only [v33_apply, e0, e1, ez, rowMx]

/-- Every weakly fair execution of the reference terminates with its result buffer at the last stage's value of the arguments' launch contents, and the six arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = ReadP.val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (ReadP.val_main_v34_eq m c), (h c).2⟩) (ValueP.run (F := Ideal) m ρ)

end Cert.ReferenceIdeal.RefValue

end
-- ==== Proof.Finite.lean ====
import proofs.«181285_j85899345920311_2_alg».proof.Defs
import Idealize.ShloMosaic.Lib.ReduceAll
import Idealize.ShloMosaic.Lib.Affine
import Idealize.ShloMosaic.Lib.ValueIdx
import Idealize.ShloMosaic.Lib.Pipeline.Value

noncomputable section

namespace Cert.Finite

open Idealize.ShloMosaic Idealize.SL.Sem Idealize.ShloMosaic.ValueIdx

/-- The scalar shape has exactly one index. -/
instance : Subsingleton Cert.Pre_finite_inputs.S_.Idx := ⟨fun a b => funext fun d => d.elim0⟩

/-- The pattern of positive infinity denotes +∞. -/
theorem ofBits_pos_inf : Ideal.ofBits .f32 0x7F800000#32 = (⊤ : EReal) := by simp [Ideal.ofBits, Ideal.ieee]

/-- An extended real whose absolute value max x (-x) is strictly below +∞ is a real: at -∞ and at +∞ the absolute value is +∞. -/
theorem real_of_abs_lt_top (x : EReal) (h : Ideal.cmp .olt (max x (-x)) ⊤ = 1#1) : ∃ y : ℝ, x = (y : EReal) := by
  induction x using EReal.rec with
  | bot =>
    have e : max (⊥ : EReal) (-⊥) = ⊤ := by rw [EReal.neg_bot]; exact max_eq_right bot_le
    rw [e] at h
    exact absurd h (by simp [Ideal.cmp])
  | coe r => exact ⟨r, rfl⟩
  | top =>
    have e : max (⊤ : EReal) (-⊤) = ⊤ := max_eq_left le_top
    rw [e] at h
    exact absurd h (by simp [Ideal.cmp])

/-- An entry of an array that passes, at that entry, the test |x| < (the +∞ pattern spread to the array's shape) is a real. -/
theorem real_of_lt_inf {s : Shape} (x : FVec Ideal s .f32) (dims : Fin 0 → Fin s.rank)
    (hb : (⟨0, ![]⟩ : Shape).BroadcastsInDim s dims) (i : s.Idx)
    (h : cmpf .olt (Host.absf x) (broadcastInDim s dims hb (constant (F := Ideal) (⟨0, ![]⟩ : Shape) .f32 0x7F800000#32)) i = 1#1) :
    ∃ y : ℝ, x i = (y : EReal) := by
  -- the spread constant reads +∞ everywhere
  have e : broadcastInDim s dims hb (constant (F := Ideal) (⟨0, ![]⟩ : Shape) .f32 0x7F800000#32) i = (⊤ : EReal) :=
    (broadcastInDim_apply dims hb _ i ix0 fun ax => ax.elim0).trans ofBits_pos_inf
  have h' : Ideal.cmp .olt (max (x i) (-(x i)))
      (broadcastInDim s dims hb (constant (F := Ideal) (⟨0, ![]⟩ : Shape) .f32 0x7F800000#32) i) = 1#1 := h
  rw [e] at h'
  exact real_of_abs_lt_top _ h'

/-- Under the precondition every entry of the decoder matrix is a real number. -/
theorem arg4_real [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : Cert.KernelIdeal.S50257x256.Idx) :
    ∃ y : ℝ, ((m ((c.tc : Thread Cert.KernelIdeal.nD Cert.KernelIdeal.τ).loc Cert.KernelIdeal.main_arg4)) : Cert.KernelIdeal.S50257x256.Idx → EReal) i = (y : EReal) := by
  have h0 := congrFun (h c) ix0
  unfold Cert.Pre_finite_inputs.fn Cert.Pre_finite_inputs.fn_part1 at h0
  -- the conjunction is 1, so each conjunct is; the matrix's conjunct is the second of the fourth "and"
  have h18 := (IntOp.andi_eq_one.1 h0).1
  have h17 := (IntOp.andi_eq_one.1 h18).2
  -- "all entries pass" gives the test at the entry i
  exact real_of_lt_inf _ _ _ i (Host.reduce_andi_all _ _ _ _ ix0 h17 i)

/-- Under the precondition every entry of the decoder bias is a real number. -/
theorem arg5_real [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : Cert.KernelIdeal.S50257.Idx) :
    ∃ y : ℝ, ((m ((c.tc : Thread Cert.KernelIdeal.nD Cert.KernelIdeal.τ).loc Cert.KernelIdeal.main_arg5)) : Cert.KernelIdeal.S50257.Idx → EReal) i = (y : EReal) := by
  have h0 := congrFun (h c) ix0
  unfold Cert.Pre_finite_inputs.fn Cert.Pre_finite_inputs.fn_part1 at h0
  -- the bias's conjunct is the last one
  have h22 := (IntOp.andi_eq_one.1 h0).2
  exact real_of_lt_inf _ _ _ i (Host.reduce_andi_all _ _ _ _ ix0 h22 i)

/-- The hyperbolic tangent of any extended real is a real. -/
theorem tanh_real (e : EReal) : ∃ y : ℝ, Ideal.tanh e = (y : EReal) := by
  induction e using EReal.rec with
  | bot => exact ⟨-1, by rw [Ideal.tanh_bot]; simp⟩
  | coe r => exact ⟨Real.tanh r, rfl⟩
  | top => exact ⟨1, by rw [Ideal.tanh_top]; simp⟩

/-- The embedding of the reals into the extended reals commutes with finite sums. -/
private theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Finite sums, products and sums of reals embedded in the extended reals are embedded reals. -/
theorem dot_real {n : ℕ} (a b : Fin n → EReal) (ha : ∀ k, ∃ y : ℝ, a k = y) (hb : ∀ k, ∃ y : ℝ, b k = y) (d : EReal) (hd : ∃ y : ℝ, d = y) :
    ∃ y : ℝ, (∑ k, a k * b k) + d = (y : EReal) := by
  choose fa hfa using ha
  choose fb hfb using hb
  obtain ⟨yd, rfl⟩ := hd
  refine ⟨(∑ k, fa k * fb k) + yd, ?_⟩
  have hs : (∑ k, a k * b k) = ((∑ k, fa k * fb k : ℝ) : EReal) := by
    rw [coe_sum]
    exact Finset.sum_congr rfl fun k _ => by rw [hfa k, hfb k, EReal.coe_mul]
  rw [hs, EReal.coe_add]

end Cert.Finite

end
-- ==== Proof.LibLogSoftmax.lean ====
import Idealize.ShloMosaic.PureOps.Ideal
noncomputable section
namespace Cert.LogSoftmax
open Idealize.ShloMosaic

/-- The embedding of the reals into the extended reals commutes with finite sums. -/
private theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The maximum, taken from -∞, of finitely many (at least one) reals is a real. -/
theorem fold_max_coe {n : ℕ} (hn : 0 < n) (x : Fin n → ℝ) :
    ∃ M : ℝ, (Finset.univ : Finset (Fin n)).fold max (⊥ : EReal) (fun c => (x c : EReal)) = (M : EReal) := by
  -- over a nonempty finite set the maximum is the larger of one real and either -∞ or a real
  have key : ∀ s : Finset (Fin n), s.Nonempty →
      ∃ M : ℝ, s.fold max (⊥ : EReal) (fun c => (x c : EReal)) = (M : EReal) := by
    intro s
    induction s using Finset.induction_on with
    | empty => intro h; exact absurd h Finset.not_nonempty_empty
    | insert a s ha ih =>
      intro _
      rw [Finset.fold_insert ha]
      rcases s.eq_empty_or_nonempty with rfl | hs
      · exact ⟨x a, by simp⟩
      · obtain ⟨M, hM⟩ := ih hs
        exact ⟨max (x a) M, by rw [hM]; exact (EReal.coe_strictMono.monotone.map_max).symm⟩
  exact key _ ⟨⟨0, hn⟩, Finset.mem_univ _⟩

/-- Log-softmax does not depend on the shift: for reals x and any real M, (x c - M) - log (0 + Σ exp (x c' - M)) = x c - log (Σ exp (x c')). -/
theorem logSoftmax_shift {n : ℕ} (hn : 0 < n) (x : Fin n → ℝ) (M : ℝ) (c : Fin n) :
    ((x c : EReal) - (M : EReal)) - Ideal.log ((0 : EReal) + ∑ c' : Fin n, Ideal.exp ((x c' : EReal) - (M : EReal)))
      = (x c : EReal) - Ideal.log (∑ c' : Fin n, Ideal.exp (x c' : EReal)) := by
  have hne : (Finset.univ : Finset (Fin n)).Nonempty := ⟨⟨0, hn⟩, Finset.mem_univ _⟩
  -- both sums of exponentials are positive reals
  have hS : 0 < ∑ c' : Fin n, Real.exp (x c') := Finset.sum_pos (fun i _ => Real.exp_pos _) hne
  have hSM : 0 < ∑ c' : Fin n, Real.exp (x c' - M) := Finset.sum_pos (fun i _ => Real.exp_pos _) hne
  -- Σ exp (x c' - M) = exp (-M) * Σ exp (x c')
  have hmul : ∑ c' : Fin n, Real.exp (x c' - M) = Real.exp (-M) * ∑ c' : Fin n, Real.exp (x c') := by
    rw [Finset.mul_sum]
    refine Finset.sum_congr rfl (fun i _ => ?_)
    rw [← Real.exp_add]
    congr 1
    ring
  -- so its logarithm is -M + log Σ exp (x c')
  have hlog : Real.log (∑ c' : Fin n, Real.exp (x c' - M)) = -M + Real.log (∑ c' : Fin n, Real.exp (x c')) := by
    rw [hmul, Real.log_mul (Real.exp_pos _).ne' hS.ne', Real.log_exp]
  -- both extended-real sums are the embedded real sums
  have e1 : (∑ c' : Fin n, Ideal.exp ((x c' : EReal) - (M : EReal)))
      = ((∑ c' : Fin n, Real.exp (x c' - M) : ℝ) : EReal) := by
    rw [coe_sum]
    refine Finset.sum_congr rfl (fun i _ => ?_)
    rw [← EReal.coe_sub, Ideal.exp_coe]
  have e2 : (∑ c' : Fin n, Ideal.exp (x c' : EReal)) = ((∑ c' : Fin n, Real.exp (x c') : ℝ) : EReal) := by
    rw [coe_sum]
    refine Finset.sum_congr rfl (fun i _ => ?_)
    rw [Ideal.exp_coe]
  rw [zero_add, e1, e2, Ideal.log_coe, Ideal.log_coe, if_neg (not_le.2 hSM), if_neg (not_le.2 hS), hlog,
    ← EReal.coe_sub, ← EReal.coe_sub, ← EReal.coe_sub]
  congr 1
  ring

/-- Summing a function of v * W + j over v below T and j below W is summing it over all indices below T * W. -/
private theorem sum_tiles (T W : ℕ) (g : ℕ → EReal) :
    (∑ v ∈ Finset.range T, ∑ j ∈ Finset.range W, g (v * W + j)) = ∑ q ∈ Finset.range (T * W), g q := by
  induction T with
  | zero => simp
  | succ T ih => rw [Finset.sum_range_succ, ih, Nat.succ_mul, Finset.sum_range_add]

/-- A sum over T tiles of width W in which the columns at or beyond n contribute zero is the sum over the first n columns. -/
theorem sum_tiles_masked (T W n : ℕ) (hn : n ≤ T * W) (f : ℕ → EReal) :
    (∑ v : Fin T, ∑ j : Fin W, (if v.val * W + j.val < n then f (v.val * W + j.val) else 0))
      = ∑ c : Fin n, f c.val := by
  -- the masked summand as a function of the flat column index
  let g : ℕ → EReal := fun q => if q < n then f q else 0
  have h1 : (∑ v : Fin T, ∑ j : Fin W, (if v.val * W + j.val < n then f (v.val * W + j.val) else 0))
      = ∑ v ∈ Finset.range T, ∑ j ∈ Finset.range W, g (v * W + j) := by
    rw [← Fin.sum_univ_eq_sum_range (fun v => ∑ j ∈ Finset.range W, g (v * W + j)) T]
    refine Finset.sum_congr rfl (fun v _ => ?_)
    rw [← Fin.sum_univ_eq_sum_range (fun j => g (v.val * W + j)) W]
  rw [h1, sum_tiles, Fin.sum_univ_eq_sum_range f n]
  -- below T * W the mask keeps exactly the indices below n
  show (∑ q ∈ Finset.range (T * W), if q < n then f q else 0) = _
  rw [← Finset.sum_filter]
  congr 1
  ext q
  simp only [Finset.mem_filter, Finset.mem_range]
  omega

/-- A running sum started at a and added to once per step is a plus the sum of the addends. -/
theorem run_sum (a : EReal) (s : ℕ → EReal) : ∀ k : ℕ, (Nat.rec a (fun j acc => acc + s j) k : EReal) = a + ∑ j ∈ Finset.range k, s j := by
  intro k
  induction k with
  | zero => simp
  | succ k ih =>
    show (Nat.rec a (fun j acc => acc + s j) k : EReal) + s k = _
    rw [ih, Finset.sum_range_succ, add_assoc]

end Cert.LogSoftmax
end
-- ==== Proof.LibLogSoftmaxTiles.lean ====
import proofs.«181285_j85899345920311_2_alg».proof.Proof.LibLogSoftmax

noncomputable section

namespace Cert.LogSoftmaxTiles

open Idealize.ShloMosaic

/-- A row's log-probability computed over padded tiles — the logit minus the logarithm of the tile-by-tile sum of the
    exponentials, the columns at or beyond `n` reading -∞ — is the log-softmax written with the row's maximum (taken from -∞)
    subtracted first: for real logits the two agree. -/
theorem tiled_eq_shifted (T W n : ℕ) (hn0 : 0 < n) (hn : n ≤ T * W) (x : Fin n → ℝ) (L : ℕ → EReal)
    (hL : ∀ q (hq : q < n), L q = (x ⟨q, hq⟩ : EReal)) (hpad : ∀ q, n ≤ q → L q = ⊥) (c : Fin n) :
    L c.val - Ideal.log (0 + ∑ s ∈ Finset.range T, ∑ j : Fin W, Ideal.exp (L (s * W + j.val)))
      = ((x c : EReal) - max ⊥ ((Finset.univ : Finset (Fin n)).fold max ⊥ fun c' => (x c' : EReal)))
        - Ideal.log (0 + ∑ c' : Fin n, Ideal.exp ((x c' : EReal) - max ⊥ ((Finset.univ : Finset (Fin n)).fold max ⊥ fun c' => (x c' : EReal)))) := by
  obtain ⟨M, hM⟩ := Cert.LogSoftmax.fold_max_coe hn0 x
  rw [hM, max_eq_right bot_le, Cert.LogSoftmax.logSoftmax_shift hn0 x M c, hL c.val c.isLt, zero_add]
  refine congrArg (fun S => (x c : EReal) - Ideal.log S) ?_
  have h1 : (∑ s ∈ Finset.range T, ∑ j : Fin W, Ideal.exp (L (s * W + j.val)))
      = ∑ v : Fin T, ∑ j : Fin W, (if v.val * W + j.val < n then Ideal.exp (L (v.val * W + j.val)) else 0) := by
    rw [← Fin.sum_univ_eq_sum_range (fun s => ∑ j : Fin W, Ideal.exp (L (s * W + j.val))) T]
    refine Finset.sum_congr rfl fun v _ => Finset.sum_congr rfl fun j _ => ?_
    split
    · rfl
    · rename_i h
      rw [hpad _ (not_lt.mp h), Ideal.exp_bot]
  refine h1.trans ((Cert.LogSoftmax.sum_tiles_masked T W n hn (fun q => Ideal.exp (L q))).trans ?_)
  exact Finset.sum_congr rfl fun c' _ => by rw [hL c'.val c'.isLt]

end Cert.LogSoftmaxTiles

end
-- ==== Proof.Bridge.lean ====
import proofs.«181285_j85899345920311_2_alg».proof.Proof.KiValue
import proofs.«181285_j85899345920311_2_alg».proof.Proof.KiHost
import proofs.«181285_j85899345920311_2_alg».proof.Proof.RefValue
import proofs.«181285_j85899345920311_2_alg».proof.Proof.Finite
import proofs.«181285_j85899345920311_2_alg».proof.Proof.LibLogSoftmaxTiles
import Idealize.ShloMosaic.Lib.ValueIdx

set_option maxRecDepth 16384
set_option maxHeartbeats 4000000

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem

/-! THE TWO RESULTS ARE ONE FUNCTION of the arguments. Index by index: the kernel's padded logit at a column of the
vocabulary is the reference's logit (the hidden states are the same operations of the same arguments; the padded and
transposed decoder matrix and the padded bias read the arguments there); under the precondition every logit is a real
number (a hyperbolic tangent is real, the decoder's entries are finite); and for real logits the kernel's logit minus the
logarithm of the tile-by-tile sum of exponentials — the padded columns, filled with -∞, contributing nothing — is the
reference's log-softmax written with the row's maximum subtracted first. -/

variable (m : (ℓ : Loc nD τ sig) → Buf (Elt Ideal) ℓ)

/-- The reference's logit of row r, column c', of the launch memory's arguments. -/
abbrev refLogit (c : Dev nD) (r : Fin 2016) (c' : Fin 50257) : EReal :=
  Cert.ReferenceIdeal.RefValue.logit (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r c'

/-- Inside the vocabulary the kernel's padded logit is the reference's logit. -/
theorem logitPad_eq (c : Dev nD) (r : Fin 2016) (q : ℕ) (hq : q < 50257) :
    logitPad (VA m) c r q = refLogit m c r ⟨q, hq⟩ := by
  unfold logitPad refLogit Cert.ReferenceIdeal.RefValue.logit
  rw [dif_pos (by omega : q < 53248), if_pos hq]
  refine congrArg₂ (fun a b : EReal => a + b) (Finset.sum_congr rfl fun k _ => congrArg₂ (fun a b : EReal => a * b) ?_ ?_) ?_
  · exact congrFun (Cert.KernelIdeal.Host.hidden_eq m c) (ix2 r k)
  · exact Cert.KernelIdeal.Host.decW_apply m c k ⟨q, by omega⟩ hq
  · exact Cert.KernelIdeal.Host.decB_apply m c ⟨q, by omega⟩ hq

/-- Beyond the vocabulary it is -∞. -/
theorem logitPad_pad (c : Dev nD) (r : Fin 2016) (q : ℕ) (hq : 50257 ≤ q) : logitPad (VA m) c r q = ⊥ := by
  unfold logitPad
  split
  · rw [if_neg (by omega)]
  · rfl

/-- Under the precondition a row's logits are real numbers. -/
theorem logit_real [hP : Cert.Pre_finite_inputs.Facts] (hpre : Cert.Pre_KernelIdeal m) (c : Dev nD) (r : Fin 2016) :
    ∃ x : Fin 50257 → ℝ, ∀ c' : Fin 50257, refLogit m c r c' = (x c' : EReal) := by
  have h : ∀ c' : Fin 50257, ∃ y : ℝ, refLogit m c r c' = (y : EReal) := fun c' => by
    unfold refLogit Cert.ReferenceIdeal.RefValue.logit
    exact Cert.Finite.dot_real _ _
      (fun k => Cert.Finite.tanh_real _)
      (fun k => Cert.Finite.arg4_real m hpre c (ix2 c' k)) _ (Cert.Finite.arg5_real m hpre c (ix1 c'))
  exact ⟨fun c' => (h c').choose, fun c' => (h c').choose_spec⟩

/-- THE RESULTS AGREE: the reference's result stage of the launch memory's arguments is the kernel's result function. -/
theorem result_eq [hP : Cert.Pre_finite_inputs.Facts] (hpre : Cert.Pre_KernelIdeal m) (c : Dev nD) :
    (Cert.ReferenceIdeal.ReadP.val_main_v34 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) : S2016x50257.Idx → EReal)
      = outFn (VB m) c := by
  funext i
  obtain ⟨r, cc, rfl⟩ : ∃ (r : Fin 2016) (cc : Fin 50257), i = ix2 r cc := ⟨i 0, i 1, eq_ix2 i⟩
  rw [Cert.ReferenceIdeal.RefValue.refOut_apply, outFn_VB]
  obtain ⟨x, hx⟩ := logit_real m hpre c r
  unfold Cert.ReferenceIdeal.RefValue.rowMx
  have hx' : ∀ c' : Fin 50257, Cert.ReferenceIdeal.RefValue.logit (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) r c' = (x c' : EReal) := hx
  simp only [hx']
  symm
  show logitPad (VA m) c r cc.val - lseFn (VA m) c (ix2 r (0 : Fin 1)) = _
  unfold lseFn
  exact Cert.LogSoftmaxTiles.tiled_eq_shifted 13 4096 50257 (by decide) (by decide) x (fun q => logitPad (VA m) c r q)
    (fun q hq => (logitPad_eq m c r q hq).trans (hx ⟨q, hq⟩)) (fun q hq => logitPad_pad m c r q hq) cc

end Cert.Bridge

end
-- ==== Proof.lean ====
/- The proof of `Cert.Claim`: a language model's output layer — hidden states times a decoder matrix plus a bias, then a
   log-softmax over a vocabulary of 50257 — computed by two pipelines over tiles of 4096 decoder columns, against the same
   layer written with one matrix product and one log-softmax.

   The frames. @main is four stretches of host operations and then the two pipelines; each pipeline is a segment entered
   from the buffer contents before it and left at the contents after it. The first pipeline keeps a running column of row
   sums in a scratch buffer across the thirteen tiles of a row block (zeroed at the first tile, its logarithm stored to the
   output block at the last); its region invariant carries that column. The second pipeline's last tile of columns
   overhangs the vocabulary's size and is cut there when written back. Both hold at any float instance.

   The values, at the ideal instance. Entry (r, c) of the kernel's result is the logit of row r and column c minus the
   logarithm of the tile-by-tile sum of the row's exponentials, the 2991 padded columns filled with the constant the
   certificate names -∞ and so contributing exp(-∞) = 0. Entry (r, c) of the reference's result is the logit minus the row's
   maximum, minus the logarithm of the sum of the exponentials of the logits so shifted. The hidden states are the same
   operations of the same arguments in both programs, so the logits agree; under the precondition (every float input
   finite) each logit is a real number, the row maximum is a real number, and for real logits the two expressions are the
   same number: log Σ exp(x - M) = -M + log Σ exp x. -/
import proofs.«181285_j85899345920311_2_alg».proof.Defs
import proofs.«181285_j85899345920311_2_alg».proof.Proof.Gen.Kernel
import proofs.«181285_j85899345920311_2_alg».proof.Proof.Gen.KernelIdeal
import proofs.«181285_j85899345920311_2_alg».proof.Proof.Gen.ReferenceIdeal
import proofs.«181285_j85899345920311_2_alg».proof.Proof.Gen.Pre_finite_inputs
import proofs.«181285_j85899345920311_2_alg».proof.Proof.KRun
import proofs.«181285_j85899345920311_2_alg».proof.Proof.Bridge
import Idealize.ShloMosaic.Adequacy
import Idealize.ShloMosaic.Init

set_option maxRecDepth 16384

noncomputable section

namespace Cert.Proof

open Idealize.ShloMosaic Idealize.SL.Sem

/-- The kernel as printed runs to the end with its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The idealization's two rewrites: in each kernel the fill constant of the padded columns is named -∞. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- At the ideal instance, from memories agreeing on the arguments, both programs end with the same result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.outFn (Cert.KernelIdeal.Hand.VB m) c, Cert.KernelIdeal.Hand.kernel_run m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2.1, (hagree c).2.2.2.1, (hagree c).2.2.2.2.1, (hagree c).2.2.2.2.2]
  exact Cert.Bridge.result_eq m hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
